-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S4096x128 : Shape := ⟨2, ![4096, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S8192x128 .f32) (main_arg1 : FVec F S4096x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S8192x128 : Shape := ⟨2, ![8192, 128]⟩
abbrev S4096x128 : Shape := ⟨2, ![4096, 128]⟩
abbrev S4096x2x128 : Shape := ⟨3, ![4096, 2, 128]⟩
abbrev S8192x1 : Shape := ⟨2, ![8192, 1]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩
abbrev S8192 : Shape := ⟨1, ![8192]⟩
abbrev S_ : Shape := ⟨0, ![]⟩
abbrev S4096x1x128 : Shape := ⟨3, ![4096, 1, 128]⟩
abbrev S4096 : Shape := ⟨1, ![4096]⟩
abbrev S4096x2 : Shape := ⟨2, ![4096, 2]⟩
abbrev S4096x1 : Shape := ⟨2, ![4096, 1]⟩

abbrev nBuf : Space → Nat
  | .hbm => 150
  | .vmem => 14
  | .smem => 0
  | _ => 0

abbrev hbmTy0_0 (i : Nat) : BufTy := match i % 128 with
  | 0 => ⟨S8192x128, .f32⟩
  | 1 => ⟨S4096x128, .f32⟩
  | 2 => ⟨S4096x2x128, .f32⟩
  | 3 => ⟨S8192x128, .f32⟩
  | 4 => ⟨S8192x128, .bf16⟩
  | 5 => ⟨S8192x1, .f32⟩
  | 6 => ⟨S8192, .f32⟩
  | 7 => ⟨S8192x128, .f32⟩
  | 8 => ⟨S_, .f32⟩
  | 9 => ⟨S8192, .f32⟩
  | 10 => ⟨S_, .f32⟩
  | 11 => ⟨S8192, .f32⟩
  | 12 => ⟨S8192, .f32⟩
  | 13 => ⟨S4096x2x128, .f32⟩
  | 14 => ⟨S4096x1x128, .f32⟩
  | 15 => ⟨S4096x128, .f32⟩
  | 16 => ⟨S4096x1x128, .f32⟩
  | 17 => ⟨S4096x128, .f32⟩
  | 18 => ⟨S4096x128, .f32⟩
  | 19 => ⟨S_, .f32⟩
  | 20 => ⟨S4096, .f32⟩
  | 21 => ⟨S_, .f32⟩
  | 22 => ⟨S4096, .f32⟩
  | 23 => ⟨S4096, .f32⟩
  | 24 => ⟨S4096x2, .f32⟩
  | 25 => ⟨S4096x1, .f32⟩
  | 26 => ⟨S4096, .f32⟩
  | 27 => ⟨S4096x1, .f32⟩
  | 28 => ⟨S4096, .f32⟩
  | 29 => ⟨S4096x2, .f32⟩
  | 30 => ⟨S4096x1, .f32⟩
  | 31 => ⟨S4096, .f32⟩
  | 32 => ⟨S4096x1, .f32⟩
  | 33 => ⟨S4096, .f32⟩
  | 34 => ⟨S_, .f32⟩
  | 35 => ⟨S4096, .f32⟩
  | 36 => ⟨S4096, .f32⟩
  | 37 => ⟨S4096, .f32⟩
  | 38 => ⟨S_, .f32⟩
  | 39 => ⟨S4096, .f32⟩
  | 40 => ⟨S4096, .f32⟩
  | 41 => ⟨S4096, .f32⟩
  | 42 => ⟨S_, .f32⟩
  | 43 => ⟨S4096, .f32⟩
  | 44 => ⟨S4096, .f32⟩
  | 45 => ⟨S4096, .f32⟩
  | 46 => ⟨S4096, .f32⟩
  | 47 => ⟨S_, .f32⟩
  | 48 => ⟨S4096, .f32⟩
  | 49 => ⟨S4096, .f32⟩
  | 50 => ⟨S4096, .f32⟩
  | 51 => ⟨S4096, .f32⟩
  | 52 => ⟨S4096, .f32⟩
  | 53 => ⟨S4096, .f32⟩
  | 54 => ⟨S4096, .f32⟩
  | 55 => ⟨S4096, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S8192, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S8192, .i32⟩
  | 70 => ⟨S8192, .i32⟩
  | 71 => ⟨S_, .i32⟩
  | 72 => ⟨S8192, .i32⟩
  | 73 => ⟨S8192, .i1⟩
  | 74 => ⟨S_, .i32⟩
  | 75 => ⟨S8192, .i32⟩
  | 76 => ⟨S8192, .i1⟩
  | 77 => ⟨S_, .i32⟩
  | 78 => ⟨S_, .i1⟩
  | 79 => ⟨S8192, .i1⟩
  | 80 => ⟨S8192, .i1⟩
  | 81 => ⟨S8192, .i1⟩
  | 82 => ⟨S8192, .i32⟩
  | 83 => ⟨S8192, .i32⟩
  | 84 => ⟨S8192, .i32⟩
  | 85 => ⟨S_, .i32⟩
  | 86 => ⟨S8192, .i32⟩
  | 87 => ⟨S8192, .i1⟩
  | 88 => ⟨S8192x1, .i1⟩
  | 89 => ⟨S8192x128, .i1⟩
  | 90 => ⟨S8192x128, .f32⟩
  | 91 => ⟨S8192x128, .bf16⟩
  | 92 => ⟨S8192x1, .f32⟩
  | 93 => ⟨S8192, .f32⟩
  | 94 => ⟨S8192x128, .f32⟩
  | 95 => ⟨S_, .f32⟩
  | 96 => ⟨S8192, .f32⟩
  | 97 => ⟨S_, .f32⟩
  | 98 => ⟨S8192, .f32⟩
  | 99 => ⟨S8192, .f32⟩
  | 100 => ⟨S4096x2x128, .f32⟩
  | 101 => ⟨S4096x1x128, .f32⟩
  | 102 => ⟨S4096x128, .f32⟩
  | 103 => ⟨S4096x1x128, .f32⟩
  | 104 => ⟨S4096x128, .f32⟩
  | 105 => ⟨S4096x128, .f32⟩
  | 106 => ⟨S_, .f32⟩
  | 107 => ⟨S4096, .f32⟩
  | 108 => ⟨S_, .f32⟩
  | 109 => ⟨S4096, .f32⟩
  | 110 => ⟨S4096, .f32⟩
  | 111 => ⟨S4096x2, .f32⟩
  | 112 => ⟨S4096x1, .f32⟩
  | 113 => ⟨S4096, .f32⟩
  | 114 => ⟨S4096x1, .f32⟩
  | 115 => ⟨S4096, .f32⟩
  | 116 => ⟨S4096x2, .f32⟩
  | 117 => ⟨S4096x1, .f32⟩
  | 118 => ⟨S4096, .f32⟩
  | 119 => ⟨S4096x1, .f32⟩
  | 120 => ⟨S4096, .f32⟩
  | 121 => ⟨S_, .f32⟩
  | 122 => ⟨S4096, .f32⟩
  | 123 => ⟨S4096, .f32⟩
  | 124 => ⟨S4096, .f32⟩
  | 125 => ⟨S_, .f32⟩
  | 126 => ⟨S4096, .f32⟩
  | 127 => ⟨S4096, .f32⟩
  | _ => ⟨S8192x128, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S4096, .f32⟩
  | 5 => ⟨S4096, .f32⟩
  | 6 => ⟨S_, .f32⟩
  | 7 => ⟨S4096, .f32⟩
  | 8 => ⟨S4096, .f32⟩
  | 9 => ⟨S4096, .f32⟩
  | 10 => ⟨S4096, .f32⟩
  | 11 => ⟨S4096, .f32⟩
  | 12 => ⟨S4096, .f32⟩
  | 13 => ⟨S4096, .f32⟩
  | 14 => ⟨S4096, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_cst_9 : Ref sig .tc := ⟨.hbm, 60, rfl⟩
abbrev main_v48 : Ref sig .tc := ⟨.hbm, 61, rfl⟩
abbrev main_v49 : Ref sig .tc := ⟨.hbm, 62, rfl⟩
abbrev main_c : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_c_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_1 : Ref sig .tc := ⟨.hbm, 71, rfl⟩
abbrev main_call0_v5 : Ref sig .tc := ⟨.hbm, 72, rfl⟩
abbrev main_call0_v6 : Ref sig .tc := ⟨.hbm, 73, rfl⟩
abbrev main_call0_c_2 : Ref sig .tc := ⟨.hbm, 74, rfl⟩
abbrev main_call0_v7 : Ref sig .tc := ⟨.hbm, 75, rfl⟩
abbrev main_call0_v8 : Ref sig .tc := ⟨.hbm, 76, rfl⟩
abbrev main_call0_c_3 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_v12 : Ref sig .tc := ⟨.hbm, 81, rfl⟩
abbrev main_call0_v13 : Ref sig .tc := ⟨.hbm, 82, rfl⟩
abbrev main_call0_v14 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_call1_v0 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_cst_12 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_13 : Ref sig .tc := ⟨.hbm, 106, rfl⟩
abbrev main_v68 : Ref sig .tc := ⟨.hbm, 107, rfl⟩
abbrev main_cst_14 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_16 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_17 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_18 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_19 : Ref sig .tc := ⟨.hbm, 143, rfl⟩
abbrev main_v99 : Ref sig .tc := ⟨.hbm, 144, rfl⟩
abbrev main_cst_20 : Ref sig .tc := ⟨.hbm, 145, rfl⟩
abbrev main_v100 : Ref sig .tc := ⟨.hbm, 146, rfl⟩
abbrev main_cst_21 : Ref sig .tc := ⟨.hbm, 147, rfl⟩
abbrev main_v101 : Ref sig .tc := ⟨.hbm, 148, rfl⟩
abbrev main_v102 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S4096x128_S4096x2x128_0_2 : S4096x128.BroadcastsInDim S4096x2x128 (![0, 2] : Fin 2 → Fin S4096x2x128.rank)
  shapeCasts_S4096x2x128_S8192x128 : S4096x2x128.ShapeCasts S8192x128
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  shapeCasts_S8192x1_S8192 : S8192x1.ShapeCasts S8192
  reducesTo_S8192x128_S8192_d1 : S8192x128.ReducesTo [1] S8192
  h_S_ : 0 < S_.numel
  bcast_S_S8192 : S_.BroadcastsInDim S8192 (![] : Fin 0 → Fin S8192.rank)
  shapeCasts_S8192x128_S4096x2x128 : S8192x128.ShapeCasts S4096x2x128
  slices_S4096x2x128_S4096x1x128_0_0_0 : S4096x2x128.Slices ![0, 0, 0] S4096x1x128
  shapeCasts_S4096x1x128_S4096x128 : S4096x1x128.ShapeCasts S4096x128
  slices_S4096x2x128_S4096x1x128_0_1_0 : S4096x2x128.Slices ![0, 1, 0] S4096x1x128
  reducesTo_S4096x128_S4096_d1 : S4096x128.ReducesTo [1] S4096
  bcast_S_S4096 : S_.BroadcastsInDim S4096 (![] : Fin 0 → Fin S4096.rank)
  shapeCasts_S8192_S4096x2 : S8192.ShapeCasts S4096x2
  slices_S4096x2_S4096x1_0_0 : S4096x2.Slices ![0, 0] S4096x1
  shapeCasts_S4096x1_S4096 : S4096x1.ShapeCasts S4096
  slices_S4096x2_S4096x1_0_1 : S4096x2.Slices ![0, 1] S4096x1
  reducesTo_S4096_S_d0 : S4096.ReducesTo [0] S_
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S4096x128 : Shape := ⟨2, ![4096, 128]⟩
abbrev S4096x2x128 : Shape := ⟨3, ![4096, 2, 128]⟩
abbrev S128x8192 : Shape := ⟨2, ![128, 8192]⟩
abbrev S8192x8192 : Shape := ⟨2, ![8192, 8192]⟩
abbrev S_ : Shape := ⟨0, ![]⟩
abbrev S4096x2x4096x2 : Shape := ⟨4, ![4096, 2, 4096, 2]⟩
abbrev S4096 : Shape := ⟨1, ![4096]⟩
abbrev S4096x1 : Shape := ⟨2, ![4096, 1]⟩
abbrev S4096x2 : Shape := ⟨2, ![4096, 2]⟩
abbrev S4096x2x2 : Shape := ⟨3, ![4096, 2, 2]⟩
abbrev S4096x4 : Shape := ⟨2, ![4096, 4]⟩
abbrev S8192 : Shape := ⟨1, ![8192]⟩
abbrev S8192x1 : Shape := ⟨2, ![8192, 1]⟩

abbrev nBuf : Space → Nat
  | .hbm => 174
  | .vmem => 0
  | .smem => 0
  | _ => 0

abbrev hbmTy0_0 (i : Nat) : BufTy := match i % 128 with
  | 0 => ⟨S8192x128, .f32⟩
  | 1 => ⟨S4096x128, .f32⟩
  | 2 => ⟨S4096x2x128, .f32⟩
  | 3 => ⟨S8192x128, .f32⟩
  | 4 => ⟨S128x8192, .f32⟩
  | 5 => ⟨S8192x8192, .f32⟩
  | 6 => ⟨S_, .f32⟩
  | 7 => ⟨S8192x8192, .f32⟩
  | 8 => ⟨S8192x8192, .f32⟩
  | 9 => ⟨S_, .f32⟩
  | 10 => ⟨S8192x8192, .f32⟩
  | 11 => ⟨S8192x8192, .f32⟩
  | 12 => ⟨S8192x8192, .f32⟩
  | 13 => ⟨S4096x2x4096x2, .f32⟩
  | 14 => ⟨S_, .f32⟩
  | 15 => ⟨S4096, .f32⟩
  | 16 => ⟨S4096, .i32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096x1, .i32⟩
  | 33 => ⟨S4096x2, .i32⟩
  | 34 => ⟨S4096x2x2, .f32⟩
  | 35 => ⟨S_, .f32⟩
  | 36 => ⟨S4096, .f32⟩
  | 37 => ⟨S4096, .f32⟩
  | 38 => ⟨S4096x2x4096x2, .f32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S_, .i32⟩
  | 54 => ⟨S4096, .i32⟩
  | 55 => ⟨S_, .i32⟩
  | 56 => ⟨S4096, .i32⟩
  | 57 => ⟨S4096, .i32⟩
  | 58 => ⟨S4096, .i32⟩
  | 59 => ⟨S4096x1, .i32⟩
  | 60 => ⟨S4096x1, .i32⟩
  | 61 => ⟨S4096x1, .i32⟩
  | 62 => ⟨S4096x1, .i32⟩
  | 63 => ⟨S4096x4, .i32⟩
  | 64 => ⟨S4096, .f32⟩
  | 65 => ⟨S4096, .f32⟩
  | 66 => ⟨S4096, .f32⟩
  | 67 => ⟨S4096, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S8192, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S8192, .i32⟩
  | 82 => ⟨S8192, .i32⟩
  | 83 => ⟨S_, .i32⟩
  | 84 => ⟨S8192, .i32⟩
  | 85 => ⟨S8192, .i1⟩
  | 86 => ⟨S_, .i32⟩
  | 87 => ⟨S8192, .i32⟩
  | 88 => ⟨S8192, .i1⟩
  | 89 => ⟨S_, .i32⟩
  | 90 => ⟨S_, .i1⟩
  | 91 => ⟨S8192, .i1⟩
  | 92 => ⟨S8192, .i1⟩
  | 93 => ⟨S8192, .i1⟩
  | 94 => ⟨S8192, .i32⟩
  | 95 => ⟨S8192, .i32⟩
  | 96 => ⟨S8192, .i32⟩
  | 97 => ⟨S_, .i32⟩
  | 98 => ⟨S8192, .i32⟩
  | 99 => ⟨S8192, .i1⟩
  | 100 => ⟨S8192x1, .i1⟩
  | 101 => ⟨S8192x128, .i1⟩
  | 102 => ⟨S8192x128, .f32⟩
  | 103 => ⟨S128x8192, .f32⟩
  | 104 => ⟨S8192x8192, .f32⟩
  | 105 => ⟨S_, .f32⟩
  | 106 => ⟨S8192x8192, .f32⟩
  | 107 => ⟨S8192x8192, .f32⟩
  | 108 => ⟨S_, .f32⟩
  | 109 => ⟨S8192x8192, .f32⟩
  | 110 => ⟨S8192x8192, .f32⟩
  | 111 => ⟨S8192x8192, .f32⟩
  | 112 => ⟨S4096x2x4096x2, .f32⟩
  | 113 => ⟨S_, .f32⟩
  | 114 => ⟨S4096, .f32⟩
  | 115 => ⟨S4096, .i32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S_, .i32⟩
  | 124 => ⟨S4096, .i32⟩
  | 125 => ⟨S4096, .i1⟩
  | 126 => ⟨S_, .i32⟩
  | 127 => ⟨S4096, .i32⟩
  | _ => ⟨S8192x128, .f32⟩

abbrev hbmTy0_1 (i : Nat) : BufTy := match i % 128 with
  | 0 => ⟨S4096, .i32⟩
  | 1 => ⟨S4096, .i32⟩
  | 2 => ⟨S4096x1, .i32⟩
  | 3 => ⟨S4096x1, .i32⟩
  | 4 => ⟨S4096x2, .i32⟩
  | 5 => ⟨S4096x2x2, .f32⟩
  | 6 => ⟨S_, .f32⟩
  | 7 => ⟨S4096, .f32⟩
  | 8 => ⟨S4096, .f32⟩
  | 9 => ⟨S4096x2x4096x2, .f32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S_, .i32⟩
  | 25 => ⟨S4096, .i32⟩
  | 26 => ⟨S_, .i32⟩
  | 27 => ⟨S4096, .i32⟩
  | 28 => ⟨S4096, .i32⟩
  | 29 => ⟨S4096, .i32⟩
  | 30 => ⟨S4096x1, .i32⟩
  | 31 => ⟨S4096x1, .i32⟩
  | 32 => ⟨S4096x1, .i32⟩
  | 33 => ⟨S4096x1, .i32⟩
  | 34 => ⟨S4096x4, .i32⟩
  | 35 => ⟨S4096, .f32⟩
  | 36 => ⟨S4096, .f32⟩
  | 37 => ⟨S4096, .f32⟩
  | 38 => ⟨S4096, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_c_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_10 : Ref sig .tc := ⟨.hbm, 53, rfl⟩
abbrev main_v39 : Ref sig .tc := ⟨.hbm, 54, rfl⟩
abbrev main_c_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_cst_14 : Ref sig .tc := ⟨.hbm, 72, rfl⟩
abbrev main_v54 : Ref sig .tc := ⟨.hbm, 73, rfl⟩
abbrev main_v55 : Ref sig .tc := ⟨.hbm, 74, rfl⟩
abbrev main_c_15 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_c_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_1 : Ref sig .tc := ⟨.hbm, 83, rfl⟩
abbrev main_call0_v5 : Ref sig .tc := ⟨.hbm, 84, rfl⟩
abbrev main_call0_v6 : Ref sig .tc := ⟨.hbm, 85, rfl⟩
abbrev main_call0_c_2 : Ref sig .tc := ⟨.hbm, 86, rfl⟩
abbrev main_call0_v7 : Ref sig .tc := ⟨.hbm, 87, rfl⟩
abbrev main_call0_v8 : Ref sig .tc := ⟨.hbm, 88, rfl⟩
abbrev main_call0_c_3 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_v12 : Ref sig .tc := ⟨.hbm, 93, rfl⟩
abbrev main_call0_v13 : Ref sig .tc := ⟨.hbm, 94, rfl⟩
abbrev main_call0_v14 : Ref sig .tc := ⟨.hbm, 95, rfl⟩
abbrev main_v56 : Ref sig .tc := ⟨.hbm, 96, rfl⟩
abbrev main_c_16 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_call1_v0 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_17 : Ref sig .tc := ⟨.hbm, 105, rfl⟩
abbrev main_v63 : Ref sig .tc := ⟨.hbm, 106, rfl⟩
abbrev main_v64 : Ref sig .tc := ⟨.hbm, 107, rfl⟩
abbrev main_cst_18 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_19 : Ref sig .tc := ⟨.hbm, 113, rfl⟩
abbrev main_v69 : Ref sig .tc := ⟨.hbm, 114, rfl⟩
abbrev main_v70 : Ref sig .tc := ⟨.hbm, 115, rfl⟩
abbrev main_c_20 : Ref sig .tc := ⟨.hbm, 116, rfl⟩
abbrev main_v71 : Ref sig .tc := ⟨.hbm, 117, rfl⟩
abbrev main_v72 : Ref sig .tc := ⟨.hbm, 118, rfl⟩
abbrev main_c_21 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_c_22 : Ref sig .tc := ⟨.hbm, 123, rfl⟩
abbrev main_v76 : Ref sig .tc := ⟨.hbm, 124, rfl⟩
abbrev main_v77 : Ref sig .tc := ⟨.hbm, 125, rfl⟩
abbrev main_c_23 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_24 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_c_25 : Ref sig .tc := ⟨.hbm, 138, rfl⟩
abbrev main_v88 : Ref sig .tc := ⟨.hbm, 139, rfl⟩
abbrev main_v89 : Ref sig .tc := ⟨.hbm, 140, rfl⟩
abbrev main_c_26 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_c_27 : Ref sig .tc := ⟨.hbm, 145, rfl⟩
abbrev main_v93 : Ref sig .tc := ⟨.hbm, 146, rfl⟩
abbrev main_v94 : Ref sig .tc := ⟨.hbm, 147, rfl⟩
abbrev main_c_28 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_c_29 : Ref sig .tc := ⟨.hbm, 152, rfl⟩
abbrev main_v98 : Ref sig .tc := ⟨.hbm, 153, rfl⟩
abbrev main_c_30 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_31 : Ref sig .tc := ⟨.hbm, 167, rfl⟩
abbrev main_v111 : Ref sig .tc := ⟨.hbm, 168, rfl⟩
abbrev main_cst_32 : Ref sig .tc := ⟨.hbm, 169, rfl⟩
abbrev main_v112 : Ref sig .tc := ⟨.hbm, 170, rfl⟩
abbrev main_cst_33 : Ref sig .tc := ⟨.hbm, 171, rfl⟩
abbrev main_v113 : Ref sig .tc := ⟨.hbm, 172, rfl⟩
abbrev main_v114 : Ref sig .tc := ⟨.hbm, 173, rfl⟩

abbrev nD : Nat := 1
abbrev τ : Topo := Topo.v7x

variable {F : FTy → Type} [FloatOps F]

class Facts₀ : Prop where
  bcast_S4096x128_S4096x2x128_0_2 : S4096x128.BroadcastsInDim S4096x2x128 (![0, 2] : Fin 2 → Fin S4096x2x128.rank)
  shapeCasts_S4096x2x128_S8192x128 : S4096x2x128.ShapeCasts S8192x128
  transposes_S8192x128_S128x8192_1_0 : S8192x128.Transposes [1, 0] S128x8192
  bcast_S_S8192x8192 : S_.BroadcastsInDim S8192x8192 (![] : Fin 0 → Fin S8192x8192.rank)
  shapeCasts_S8192x8192_S4096x2x4096x2 : S8192x8192.ShapeCasts S4096x2x4096x2
  reducesTo_S4096x2x4096x2_S4096_d1_2_3 : S4096x2x4096x2.ReducesTo [1, 2, 3] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  reducesTo_S4096x2x2_S4096_d1_2 : S4096x2x2.ReducesTo [1, 2] S4096
  concatenates_S4096x1_S4096x1_S4096x1_S4096x1_S4096x4_d1 : Shape.Concatenates [S4096x1, S4096x1, S4096x1, S4096x1] S4096x4 1
  reducesTo_S4096_S_d0 : S4096.ReducesTo [0] S_
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  dot_S8192x128_S128x8192_S8192x8192_1_0_0_1_n_n_wf : DotDims.WF S8192x128 S128x8192 S8192x8192 [1] [0] [0] [1] [] []
  gather_S4096x2x4096x2_S4096x2_S4096x2x2_12_02_n_n_02_1_1212_wf : GatherDims.WF S4096x2x4096x2 S4096x2 S4096x2x2 [1, 2] [0, 2] [] [0, 2] [] 1 ![1, 2, 1, 2]
  gather_S4096x2x4096x2_S4096x4_S4096_n_0123_n_n_0123_1_1111_wf : GatherDims.WF S4096x2x4096x2 S4096x4 S4096 [] [0, 1, 2, 3] [] [0, 1, 2, 3] [] 1 ![1, 1, 1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S4096x2x4096x2_S4096x2_S4096x2x2_12_02_n_n_02_1_1212 : GatherDims S4096x2x4096x2 S4096x2 S4096x2x2 where
  offsetDims := [1, 2]
  collapsedSliceDims := [0, 2]
  operandBatchingDims := []
  startIndicesBatchingDims := []
  startIndexMap := [0, 2]
  indexVectorDim := 1
  sliceSizes := ![1, 2, 1, 2]
  wf := gather_S4096x2x4096x2_S4096x2_S4096x2x2_12_02_n_n_02_1_1212_wf
def gather_S4096x2x4096x2_S4096x4_S4096_n_0123_n_n_0123_1_1111 : GatherDims S4096x2x4096x2 S4096x4 S4096 where
  offsetDims := []
  collapsedSliceDims := [0, 1, 2, 3]
  operandBatchingDims := []
  startIndicesBatchingDims := []
  startIndexMap := [0, 1, 2, 3]
  indexVectorDim := 1
  sliceSizes := ![1, 1, 1, 1]
  wf := gather_S4096x2x4096x2_S4096x4_S4096_n_0123_n_n_0123_1_1111_wf

class Facts : Prop extends Facts₀ where

variable [Facts]
-- ==== Proof.Spec.lean ====
/-
  The quantity both programs compute, written once over plain index types.

  For a matrix X of 8192 rows of 128 extended reals: the Gram entries G[r,c] = sum_k X[r,k] * X[c,k], the scaled
  similarities D = G * (1/128), their exponentials E = exp (1 + D), and for each of the 4096 pairs of consecutive
  rows (i, j) = (2p, 2p+1) the sum S[p] of E over the two rows and all columns except the 2 x 2 block on the
  diagonal, J[p] = log S[p] - D[i,j], and the loss (1/2) * mean (J^2).  The row sums of E enter as a parameter
  (lossOf) so that a program which obtains them by another route can be stated against the same formula.
  The total is the loss of the first argument plus the loss of the matrix whose even rows are the first
  argument's and whose odd rows 2q+1 are row q of the second argument.
-/
import Idealize.ShloMosaic.PureOps.Ideal
import Idealize.ShloMosaic.Lib.ValueIdx

noncomputable section

open scoped BigOperators

namespace Cert.Spec

open Idealize.ShloMosaic

/-- A matrix of 8192 rows and 128 columns of extended reals. -/
abbrev Mat := Fin 8192 → Fin 128 → EReal

/-- The even row 2p of pair p. -/
def ev (p : Fin 4096) : Fin 8192 := ⟨2 * p.val, by omega⟩
/-- The odd row 2p+1 of pair p. -/
def od (p : Fin 4096) : Fin 8192 := ⟨2 * p.val + 1, by omega⟩

/-- The scale 1/128 as an extended real. -/
def sc : EReal := ((1 / 128 : ℝ) : EReal)

/-- The Gram entry: the inner product of rows r and c. -/
def gram (X : Mat) (r c : Fin 8192) : EReal := ∑ k : Fin 128, X r k * X c k
/-- The scaled similarity. -/
def Dm (X : Mat) (r c : Fin 8192) : EReal := gram X r c * sc
/-- Its exponential after the margin 1. -/
def Em (X : Mat) (r c : Fin 8192) : EReal := Ideal.exp (1 + Dm X r c)
/-- The sum of a row of E over all 8192 columns. -/
def rowSum (X : Mat) (r : Fin 8192) : EReal := ∑ c : Fin 8192, Em X r c

/-- The masked sum of pair p from given row sums R: both rows' sums less the diagonal 2 x 2 block. -/
def SsumOf (X : Mat) (R : Fin 8192 → EReal) (p : Fin 4096) : EReal :=
  (R (ev p) + R (od p)) - (Em X (ev p) (ev p) + Em X (od p) (od p) + 2 * Em X (ev p) (od p))
/-- J of pair p from given row sums. -/
def JvOf (X : Mat) (R : Fin 8192 → EReal) (p : Fin 4096) : EReal :=
  Ideal.log (SsumOf X R p) - Dm X (ev p) (od p)
/-- The loss from given row sums: half the mean of J squared. -/
def lossOf (X : Mat) (R : Fin 8192 → EReal) : EReal :=
  ((1 / 2 : ℝ) : EReal) * ((∑ p : Fin 4096, JvOf X R p * JvOf X R p) * ((1 / 4096 : ℝ) : EReal))
/-- The loss of X. -/
def loss (X : Mat) : EReal := lossOf X (rowSum X)

/-- Even rows from X, odd row 2q+1 from row q of Y. -/
def mix (X : Mat) (Y : Fin 4096 → Fin 128 → EReal) : Mat :=
  fun r k => if r.val % 2 = 0 then X r k else Y ⟨r.val / 2, by omega⟩ k

/-- The result: the loss of X plus the loss of the mixed matrix. -/
def total (X : Mat) (Y : Fin 4096 → Fin 128 → EReal) : EReal := loss X + loss (mix X Y)

/-- An [8192,128] array of extended reals read as a matrix. -/
def mat (x : (⟨2, ![8192, 128]⟩ : Shape).Idx → EReal) : Mat := fun r k => x (ValueIdx.ix2 r k)
/-- A [4096,128] array of extended reals read by coordinates. -/
def mat1 (y : (⟨2, ![4096, 128]⟩ : Shape).Idx → EReal) : Fin 4096 → Fin 128 → EReal := fun q k => y (ValueIdx.ix2 q k)

end Cert.Spec

end
-- ==== Proof.KerHostIn.lean ====
/-
  The arrays the two kernel launches read, as functions of the launch memory, at the extended reals.

  The first launch reads the first argument cast to bf16, which at the extended reals is the argument itself.
  The second reads the mixed array cast likewise: row r of the mixed array is row r of the first argument when
  r is even and row r / 2 of the second argument when r is odd. The second argument enters repeated twice along a new
  middle axis and flattened, so that row r of the repeated array is row r / 2; the parity of r is computed on 32-bit
  words as the remainder of r by 2 corrected for sign, and for 0 ≤ r < 8192 no correction applies.
-/
import proofs.«153953_j64141041599004_1_alg».proof.Proof.Gen.KernelIdeal.Regions
import proofs.«153953_j64141041599004_1_alg».proof.Proof.Spec
import Idealize.ShloMosaic.Lib.IdealHost
import Idealize.ShloMosaic.Lib.ValueLayout

noncomputable section

namespace Cert.KernelIdeal.KerHost

open Idealize.ShloMosaic Idealize.ShloMosaic.TcCoe Idealize.ShloMosaic.ValueIdx
open Cert.KernelIdeal.Gen

/-! ## Words: the remainder by two of a small row number -/

/-- A row number below 8192 is a non-negative 32-bit word. -/
theorem msb_small (r : Nat) (hr : r < 8192) : (BitVec.ofNat 32 r).msb = false := by
  rw [BitVec.msb_eq_decide]
  simp only [BitVec.toNat_ofNat]
  have : r % 2 ^ 32 = r := Nat.mod_eq_of_lt (by omega)
  rw [this]
  simp only [decide_eq_false_iff_not, not_le]
  omega

/-- The signed remainder by two of such a word is the natural remainder. -/
theorem remsi2 (r : Nat) (hr : r < 8192) : IntOp.remsi .host (BitVec.ofNat 32 r) 2#32 = BitVec.ofNat 32 (r % 2) := by
  unfold IntOp.remsi
  rw [if_neg (by simp [IntOp.SDivCorner])]
  rw [BitVec.srem_eq, msb_small r hr]
  have : (2#32 : BitVec 32).msb = false := by decide
  rw [this]
  simp only
  apply BitVec.eq_of_toNat_eq
  simp only [BitVec.toNat_umod, BitVec.toNat_ofNat]
  have h1 : r % 2 ^ 32 = r := Nat.mod_eq_of_lt (by omega)
  have h2 : r % 2 % 2 ^ 32 = r % 2 := Nat.mod_eq_of_lt (by omega)
  rw [h1, h2]

/-- The sign-corrected remainder (the divisor guarded against zero, the remainder moved by the divisor when their signs
    differ) of a row number by two is the natural remainder. -/
theorem rem2_word (r : Nat) (hr : r < 8192) :
    (let two : BitVec 32 := Scalar.select (IntOp.cmpi .eq 2#32 0#32) 1#32 2#32
      let v4 := IntOp.remsi .host (BitVec.ofNat 32 r) two
      let v6 := IntOp.cmpi .ne v4 0#32
      let v8 := IntOp.cmpi .slt v4 0#32
      let v9 := IntOp.cmpi .slt two 0#32
      let v11 := IntOp.cmpi .ne v8 v9
      let v12 := IntOp.andi v11 v6
      let v14 := IntOp.addi v4 two
      Scalar.select v12 v14 v4) = BitVec.ofNat 32 (r % 2) := by
  have h2 : Scalar.select (IntOp.cmpi .eq 2#32 0#32) 1#32 2#32 = 2#32 := by decide
  simp only [h2, remsi2 r hr]
  rcases Nat.mod_two_eq_zero_or_one r with h | h <;> rw [h] <;> decide

/-- Comparing that remainder with zero gives the bit of "r is even". -/
theorem isEven_word (r : Nat) : IntOp.cmpi .eq (BitVec.ofNat 32 (r % 2)) 0#32 = if r % 2 = 0 then 1#1 else 0#1 := by
  rcases Nat.mod_two_eq_zero_or_one r with h | h <;> rw [h] <;> decide

variable (m : (ℓ : Loc nD τ sig) → Buf (Elt Ideal) ℓ) (outs : Outs (F := Ideal)) (c : Dev nD)

/-! ## The first launch's operand -/

/-- The first argument cast to bf16 is, at the extended reals, the first argument. -/
theorem v2_eq : (V1 m c main_v2 : S8192x128.Idx → EReal) = (m ((c : Thread nD τ).loc main_arg0) : S8192x128.Idx → EReal) := by
  dsimp only [V1, hostOps0]
  after_results
  rfl

/-! ## The second launch's operand -/

/-- The second argument with each row repeated twice. -/
theorem v1_eq : (V1 m c main_v1 : S8192x128.Idx → EReal) = shapeCast S8192x128 (broadcastInDim S4096x2x128 ![0, 2] bcast_S4096x128_S4096x2x128_0_2 (m ((c : Thread nD τ).loc main_arg1) : S4096x128.Idx → EReal)) shapeCasts_S4096x2x128_S8192x128 := by
  dsimp only [V1, hostOps0]
  after_results
  rfl

/-- Row r of the repeated array is row r / 2 of the second argument. -/
theorem v1_apply (r : Fin 8192) (k : Fin 128) :
    (V1 m c main_v1 : S8192x128.Idx → EReal) (ix2 r k) = (m ((c : Thread nD τ).loc main_arg1) : S4096x128.Idx → EReal) (ix2 (⟨r.val / 2, by omega⟩ : Fin 4096) k) := by
  rw [v1_eq]
  rw [shapeCast_apply _ _ (ix2 r k) (ix3 (⟨r.val / 2, by omega⟩ : Fin 4096) (⟨r.val % 2, by omega⟩ : Fin 2) k) (by
    rw [Shape.rowMajor_val_three, Shape.rowMajor_val_two]
    show ((r.val / 2) * 2 + r.val % 2) * 128 + k.val = r.val * 128 + k.val
    have := Nat.div_add_mod r.val 2
    omega)]
  exact broadcastInDim_apply _ _ _ _ _ (fun a => by
    match a with
    | ⟨0, _⟩ => rfl
    | ⟨1, _⟩ => rfl)

/-- The remainder-by-two array, at row r. -/
theorem v50_apply (j : S8192.Idx) : (V4 m outs c main_v50 : S8192.Idx → BitVec 32) j = BitVec.ofNat 32 ((j 0).val % 2) := by
  have e : (V4 m outs c main_v50 : S8192.Idx → BitVec 32) = fun j =>
      let two : BitVec 32 := Scalar.select (IntOp.cmpi .eq 2#32 0#32) 1#32 2#32
      let v4 := IntOp.remsi .host (BitVec.ofNat 32 (j 0).val) two
      let v6 := IntOp.cmpi .ne v4 0#32
      let v8 := IntOp.cmpi .slt v4 0#32
      let v9 := IntOp.cmpi .slt two 0#32
      let v11 := IntOp.cmpi .ne v8 v9
      let v12 := IntOp.andi v11 v6
      let v14 := IntOp.addi v4 two
      Scalar.select v12 v14 v4 := by
    dsimp only [V4, hostOps1_1]
    after_results_simp
    rfl
  rw [e]
  exact rem2_word (j 0).val (j 0).isLt

/-- The mask as a column: "row r is even". -/
theorem v53_eq : (V5 m outs c main_v53 : S8192x1.Idx → BitVec 1) =
    broadcastInDim S8192x1 ![0] bcast_S8192_S8192x1_0 (cmpi .eq (V4 m outs c main_v50 : S8192.Idx → BitVec 32) (broadcastInDim S8192 ![] bcast_S_S8192 (constantI S_ 32 0#32))) := by
  have key : ∀ W : Valuation τ sig (Elt Ideal), (StableHlo.after hostOps1_2 W (Proc.devRef .tc main_v53) : S8192x1.Idx → BitVec 1) =
      broadcastInDim S8192x1 ![0] bcast_S8192_S8192x1_0 (cmpi .eq (W (Proc.devRef .tc main_v50) : S8192.Idx → BitVec 32) (broadcastInDim S8192 ![] bcast_S_S8192 (constantI S_ 32 0#32))) := by
    intro W
    dsimp only [hostOps1_2]
    after_results
  exact key _

/-- The mixed array: a select between the first argument and the repeated second argument under the broadcast mask. -/
theorem v54_eq : (V6 m outs c main_v54 : S8192x128.Idx → EReal) =
    select (broadcastInDim S8192x128 ![0, 1] bcast_S8192x1_S8192x128_0_1 (V5 m outs c main_v53 : S8192x1.Idx → BitVec 1))
      (m ((c : Thread nD τ).loc main_arg0) : S8192x128.Idx → EReal) (V1 m c main_v1 : S8192x128.Idx → EReal) := by
  have key : ∀ W : Valuation τ sig (Elt Ideal), (StableHlo.after hostOps1_3 W (Proc.devRef .tc main_v54) : S8192x128.Idx → EReal) =
      select (broadcastInDim S8192x128 ![0, 1] bcast_S8192x1_S8192x128_0_1 (W (Proc.devRef .tc main_v53) : S8192x1.Idx → BitVec 1))
        (W (Proc.devRef .tc main_arg0) : S8192x128.Idx → EReal) (W (Proc.devRef .tc main_v1) : S8192x128.Idx → EReal) := by
    intro W
    dsimp only [hostOps1_3]
    after_results
    rfl
  have h0 : V5 m outs c main_arg0 = m ((c : Thread nD τ).loc main_arg0) :=
    (V5_of m outs c main_arg0 (by decide)).trans <| (V4_of m outs c main_arg0 (by decide)).trans <| (V3_of m outs c main_arg0 (by decide)).trans <|
      (V2_of m outs c main_arg0 (by decide)).trans <| V1_of m c main_arg0 (by decide)
  have h1 : V5 m outs c main_v1 = V1 m c main_v1 :=
    (V5_of m outs c main_v1 (by decide)).trans <| (V4_of m outs c main_v1 (by decide)).trans <| (V3_of m outs c main_v1 (by decide)).trans <|
      V2_of m outs c main_v1 (by decide)
  refine (key _).trans ?_
  rw [h0, h1]

/-- Row r of the mixed array. -/
theorem v54_apply (r : Fin 8192) (k : Fin 128) :
    (V6 m outs c main_v54 : S8192x128.Idx → EReal) (ix2 r k) =
      if r.val % 2 = 0 then (m ((c : Thread nD τ).loc main_arg0) : S8192x128.Idx → EReal) (ix2 r k)
      else (m ((c : Thread nD τ).loc main_arg1) : S4096x128.Idx → EReal) (ix2 (⟨r.val / 2, by omega⟩ : Fin 4096) k) := by
  rw [v54_eq, select_apply, v1_apply, v53_eq]
  rw [broadcastInDim_apply _ _ _ (ix2 r k) (ix2 r (0 : Fin 1)) (fun a => by
    match a with
    | ⟨0, _⟩ => rfl
    | ⟨1, _⟩ => rfl)]
  rw [broadcastInDim_apply _ _ _ (ix2 r (0 : Fin 1)) (ix1 r) (fun a => by
    match a with
    | ⟨0, _⟩ => rfl)]
  show Scalar.select (IntOp.cmpi .eq ((V4 m outs c main_v50 : S8192.Idx → BitVec 32) (ix1 r)) 0#32) _ _ = _
  rw [v50_apply, isEven_word]
  by_cases h : r.val % 2 = 0
  · rw [if_pos h, if_pos h, select_one]
  · rw [if_neg h, if_neg h, select_zero]

/-- The mixed array, read as a matrix, is the mixed matrix of the two arguments. -/
theorem v54_mat : Cert.Spec.mat (V6 m outs c main_v54 : S8192x128.Idx → EReal) =
    Cert.Spec.mix (Cert.Spec.mat (m ((c : Thread nD τ).loc main_arg0) : S8192x128.Idx → EReal))
      (Cert.Spec.mat1 (m ((c : Thread nD τ).loc main_arg1) : S4096x128.Idx → EReal)) := by
  funext r k
  show (V6 m outs c main_v54 : S8192x128.Idx → EReal) (ix2 r k) = _
  rw [v54_apply]
  rfl

/-- The second launch's operand, read as a matrix, is the mixed matrix of the two arguments. -/
theorem v55_eq : Cert.Spec.mat (V7 m outs c main_v55 : S8192x128.Idx → EReal) =
    Cert.Spec.mix (Cert.Spec.mat (m ((c : Thread nD τ).loc main_arg0) : S8192x128.Idx → EReal))
      (Cert.Spec.mat1 (m ((c : Thread nD τ).loc main_arg1) : S4096x128.Idx → EReal)) := by
  have e : (V7 m outs c main_v55 : S8192x128.Idx → EReal) = (V6 m outs c main_v54 : S8192x128.Idx → EReal) := by
    have key : ∀ W : Valuation τ sig (Elt Ideal), (StableHlo.after hostOps1_4 W (Proc.devRef .tc main_v55) : S8192x128.Idx → EReal) =
        (W (Proc.devRef .tc main_v54) : S8192x128.Idx → EReal) := by
      intro W
      dsimp only [hostOps1_4]
      after_results
      rfl
    exact key _
  rw [e]
  exact v54_mat m outs c

end Cert.KernelIdeal.KerHost

end
-- ==== Proof.KerHostLoss.lean ====
/-
  The loss the host operations compute from a matrix and a column of row sums, at the extended reals.

  From the matrix X the operations form the scaled squared norms D[r,r] = (0 + sum_k X[r,k]^2) * (1/128) and, pairing
  consecutive rows, the scaled products D[2p,2p+1]; from the row sums R they take the two halves R[2p], R[2p+1] of each
  pair; then the exponentials E = exp (1 + D), the masked sum S = (R[2p] + R[2p+1]) - (E[2p,2p] + E[2p+1,2p+1] +
  2 * E[2p,2p+1]), J = log S - D[2p,2p+1], and half the mean of J squared. Reshapes and slices only rename indices:
  position 2p + h of a vector of 8192 is position (p, h) of the [4096, 2] array. The literal words are exactly 0,
  1/128, 1, 2, 4096 and 1/2, and dividing by 4096 is multiplying by 1/4096.
-/
import proofs.«153953_j64141041599004_1_alg».proof.Proof.Gen.KernelIdeal.Regions
import proofs.«153953_j64141041599004_1_alg».proof.Proof.Spec
import Idealize.ShloMosaic.Lib.IdealHost
import Idealize.ShloMosaic.Lib.ValueLayout

noncomputable section

open scoped BigOperators

namespace Cert.KernelIdeal.KerHost

open Idealize.ShloMosaic Idealize.ShloMosaic.TcCoe Idealize.ShloMosaic.ValueIdx
open Cert.KernelIdeal.Gen

/-! ## The literal words -/

theorem w_zero : Ideal.ofBits .f32 0x00000000#32 = 0 := by
  simp [Ideal.ofBits, Ideal.ieee]

theorem w_sc : Ideal.ofBits .f32 0x3C000000#32 = Cert.Spec.sc := by
  unfold Cert.Spec.sc
  simp [Ideal.ofBits, Ideal.ieee, -EReal.coe_mul]; norm_num

theorem w_one : Ideal.ofBits .f32 0x3F800000#32 = 1 := by
  rw [show (1 : EReal) = ((1 : ℝ) : EReal) by norm_cast]
  simp [Ideal.ofBits, Ideal.ieee, -EReal.coe_mul]; norm_num

theorem w_two : Ideal.ofBits .f32 0x40000000#32 = 2 := by
  rw [show (2 : EReal) = ((2 : ℝ) : EReal) by norm_cast]
  simp [Ideal.ofBits, Ideal.ieee, -EReal.coe_mul]; norm_num

theorem w_4096 : Ideal.ofBits .f32 0x45800000#32 = ((4096 : ℝ) : EReal) := by
  simp [Ideal.ofBits, Ideal.ieee, -EReal.coe_mul]; norm_num

theorem w_half : Ideal.ofBits .f32 0x3F000000#32 = ((1 / 2 : ℝ) : EReal) := by
  simp [Ideal.ofBits, Ideal.ieee, -EReal.coe_mul]; norm_num

/-! ## Index bookkeeping -/

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-! ## The pieces of the computation -/

/-- The scaled squared norm of every row. -/
def normsK (x : FVec Ideal S8192x128 .f32) : FVec Ideal S8192 .f32 :=
  mulf (Host.reduceAdd (mulf x x) (constant (F := Ideal) S_ .f32 0x00000000#32) reducesTo_S8192x128_S8192_d1 h_S_)
    (broadcastInDim S8192 ![] bcast_S_S8192 (constant (F := Ideal) S_ .f32 0x3C000000#32))

/-- Row 2p + o of the matrix, for every pair p: the matrix as [4096, 2, 128], cut at o on the middle axis. -/
def pairRow (x : FVec Ideal S8192x128 .f32) (o : Nat) (hs : S4096x2x128.Slices ![0, o, 0] S4096x1x128) : FVec Ideal S4096x128 .f32 :=
  shapeCast S4096x128 (extractStridedSlice S4096x1x128 ![0, o, 0] (shapeCast S4096x2x128 x shapeCasts_S8192x128_S4096x2x128) hs)
    shapeCasts_S4096x1x128_S4096x128

/-- The scaled product of the two rows of every pair. -/
def pairDotK (x : FVec Ideal S8192x128 .f32) : FVec Ideal S4096 .f32 :=
  mulf (Host.reduceAdd (mulf (pairRow x 0 slices_S4096x2x128_S4096x1x128_0_0_0) (pairRow x 1 slices_S4096x2x128_S4096x1x128_0_1_0))
      (constant (F := Ideal) S_ .f32 0x00000000#32) reducesTo_S4096x128_S4096_d1 h_S_)
    (broadcastInDim S4096 ![] bcast_S_S4096 (constant (F := Ideal) S_ .f32 0x3C000000#32))

/-- Entry 2p + o of a vector of 8192, for every pair p. -/
def halfK (v : FVec Ideal S8192 .f32) (o : Nat) (hs : S4096x2.Slices ![0, o] S4096x1) : FVec Ideal S4096 .f32 :=
  shapeCast S4096 (extractStridedSlice S4096x1 ![0, o] (shapeCast S4096x2 v shapeCasts_S8192_S4096x2) hs) shapeCasts_S4096x1_S4096

/-- exp (1 + v), elementwise. -/
def expK (v : FVec Ideal S4096 .f32) : FVec Ideal S4096 .f32 :=
  Host.exp (addf (broadcastInDim S4096 ![] bcast_S_S4096 (constant (F := Ideal) S_ .f32 0x3F800000#32)) v)

/-- J of every pair. -/
def jK (x : FVec Ideal S8192x128 .f32) (rs : FVec Ideal S8192x1 .f32) : FVec Ideal S4096 .f32 :=
  let v4 : FVec Ideal S8192 .f32 := shapeCast S8192 rs shapeCasts_S8192x1_S8192
  let v8 := normsK x
  let v17 := pairDotK x
  let v20 := halfK v4 0 slices_S4096x2_S4096x1_0_0
  let v22 := halfK v4 1 slices_S4096x2_S4096x1_0_1
  let v25 := halfK v8 0 slices_S4096x2_S4096x1_0_0
  let v27 := halfK v8 1 slices_S4096x2_S4096x1_0_1
  let v30 := expK v25
  let v33 := expK v27
  let v36 := expK v17
  let v37 := addf v30 v33
  let v39 := mulf (broadcastInDim S4096 ![] bcast_S_S4096 (constant (F := Ideal) S_ .f32 0x40000000#32)) v36
  let v40 := addf v37 v39
  let v41 := addf v20 v22
  let v42 := subf v41 v40
  let v43 := Host.log v42
  subf v43 v17

/-- The loss the host operations compute from the matrix `x` and the column `rs` of row sums. -/
def lossKer (x : FVec Ideal S8192x128 .f32) (rs : FVec Ideal S8192x1 .f32) : FVec Ideal S_ .f32 :=
  let v44 := jK x rs
  let v45 := mulf v44 v44
  let v46 : FVec Ideal S_ .f32 := Host.reduceAdd v45 (constant (F := Ideal) S_ .f32 0x00000000#32) reducesTo_S4096_S_d0 h_S_
  let v47 := Host.divf v46 (constant (F := Ideal) S_ .f32 0x45800000#32)
  mulf (constant (F := Ideal) S_ .f32 0x3F000000#32) v47

/-! ## Each piece read at an index -/

theorem normsK_apply (x : FVec Ideal S8192x128 .f32) (r : Fin 8192) :
    normsK x (ix1 r) = Cert.Spec.Dm (Cert.Spec.mat x) r r := by
  have h : S8192x128.Reduces [1] S8192 := ⟨reducesTo_S8192x128_S8192_d1.1, Nat.one_pos, reducesTo_S8192x128_S8192_d1.2⟩
  unfold normsK
  rw [mulf_apply, hostReduceAdd_apply, broadcastInDim_scalar_apply, constant_apply, constant_apply, w_sc, w_zero,
    Ideal.hostReduceAdd_single _ h, zero_add]
  unfold Cert.Spec.Dm Cert.Spec.gram
  refine congrArg (· * Cert.Spec.sc) ?_
  refine Finset.sum_congr rfl fun k _ => ?_
  have e : h.lift (ix1 r) k = ix2 r k := funext fun a => Fin.ext (by
    match a with
    | ⟨0, _⟩ => rfl
    | ⟨1, _⟩ => rfl)
  rw [e]; rfl

theorem pairRow_apply (x : FVec Ideal S8192x128 .f32) (o : Nat) (ho : o < 2) (hs : S4096x2x128.Slices ![0, o, 0] S4096x1x128)
    (p : Fin 4096) (k : Fin 128) : pairRow x o hs (ix2 p k) = x (ix2 (⟨2 * p.val + o, by omega⟩ : Fin 8192) k) := by
  unfold pairRow
  rw [shapeCast_apply _ _ (ix2 p k) (ix3 p (0 : Fin 1) k) (by
    rw [Shape.rowMajor_val_three, Shape.rowMajor_val_two]
    show (p.val * 1 + 0) * 128 + k.val = p.val * 128 + k.val
    omega)]
  rw [slice3_axis1_apply o _ hs p (0 : Fin 1) k (⟨o, ho⟩ : Fin 2) rfl]
  exact shapeCast_apply _ _ _ _ (by
    rw [Shape.rowMajor_val_three, Shape.rowMajor_val_two]
    show (2 * p.val + o) * 128 + k.val = (p.val * 2 + o) * 128 + k.val
    omega)

theorem pairDotK_apply (x : FVec Ideal S8192x128 .f32) (p : Fin 4096) :
    pairDotK x (ix1 p) = Cert.Spec.Dm (Cert.Spec.mat x) (Cert.Spec.ev p) (Cert.Spec.od p) := by
  have h : S4096x128.Reduces [1] S4096 := ⟨reducesTo_S4096x128_S4096_d1.1, Nat.one_pos, reducesTo_S4096x128_S4096_d1.2⟩
  unfold pairDotK
  rw [mulf_apply, hostReduceAdd_apply, broadcastInDim_scalar_apply, constant_apply, constant_apply, w_sc, w_zero,
    Ideal.hostReduceAdd_single _ h, zero_add]
  unfold Cert.Spec.Dm Cert.Spec.gram
  refine congrArg (· * Cert.Spec.sc) ?_
  have hk : ∀ k : Fin 128, mulf (pairRow x 0 slices_S4096x2x128_S4096x1x128_0_0_0) (pairRow x 1 slices_S4096x2x128_S4096x1x128_0_1_0)
      (h.lift (ix1 p) k) = Cert.Spec.mat x (Cert.Spec.ev p) k * Cert.Spec.mat x (Cert.Spec.od p) k := by
    intro k
    have e : h.lift (ix1 p) k = ix2 p k := funext fun a => Fin.ext (by
      match a with
      | ⟨0, _⟩ => rfl
      | ⟨1, _⟩ => rfl)
    rw [e, mulf_apply, pairRow_apply x 0 (by omega), pairRow_apply x 1 (by omega)]
    rfl
  exact Finset.sum_congr rfl fun k _ => hk k

theorem halfK_apply (v : FVec Ideal S8192 .f32) (o : Nat) (ho : o < 2) (hs : S4096x2.Slices ![0, o] S4096x1) (p : Fin 4096) :
    halfK v o hs (ix1 p) = v (ix1 (⟨2 * p.val + o, by omega⟩ : Fin 8192)) := by
  unfold halfK
  rw [shapeCast_apply _ _ (ix1 p) (ix2 p (0 : Fin 1)) (by
    rw [Shape.rowMajor_val_two, Shape.rowMajor_val_one]
    show p.val * 1 + 0 = p.val
    omega)]
  rw [slice2_axis1_apply o _ hs p (0 : Fin 1) (⟨o, ho⟩ : Fin 2) rfl]
  exact shapeCast_apply _ _ _ _ (by
    rw [Shape.rowMajor_val_two, Shape.rowMajor_val_one]
    show 2 * p.val + o = p.val * 2 + o
    omega)

theorem expK_apply (v : FVec Ideal S4096 .f32) (i : S4096.Idx) : expK v i = Ideal.exp (1 + v i) := by
  unfold expK
  rw [hostExp_apply, addf_apply, broadcastInDim_scalar_apply, constant_apply, w_one]

theorem rowSumVec_apply (rs : FVec Ideal S8192x1 .f32) (r : Fin 8192) :
    shapeCast S8192 rs shapeCasts_S8192x1_S8192 (ix1 r) = rs (ix2 r (0 : Fin 1)) :=
  shapeCast_apply _ _ _ _ (by
    rw [Shape.rowMajor_val_two, Shape.rowMajor_val_one]
    show r.val * 1 + 0 = r.val
    omega)

theorem jK_apply (x : FVec Ideal S8192x128 .f32) (rs : FVec Ideal S8192x1 .f32) (p : Fin 4096) :
    jK x rs (ix1 p) = Cert.Spec.JvOf (Cert.Spec.mat x) (fun r => rs (ix2 r (0 : Fin 1))) p := by
  unfold jK
  simp only [subf_apply, addf_apply, mulf_apply, hostLog_apply, expK_apply,
    halfK_apply _ 0 (by omega), halfK_apply _ 1 (by omega), normsK_apply, pairDotK_apply, rowSumVec_apply]
  rw [broadcastInDim_scalar_apply, constant_apply, w_two]
  rfl

/-- The host operations' loss is the specification's loss from the given row sums. -/
theorem lossKer_eq (x : FVec Ideal S8192x128 .f32) (rs : FVec Ideal S8192x1 .f32) :
    lossKer x rs = fun _ => Cert.Spec.lossOf (Cert.Spec.mat x) (fun r => rs (ix2 r (0 : Fin 1))) := by
  funext j
  unfold lossKer
  simp only [mulf_apply, hostDivf_apply, hostReduceAdd_apply, constant_apply, w_half, w_4096, w_zero]
  rw [Ideal.hostReduceAdd_total _ (fun b => b.elim0), zero_add, sum_idx1, Ideal.div_coe (by norm_num)]
  unfold Cert.Spec.lossOf
  simp only [mulf_apply, jK_apply]

end Cert.KernelIdeal.KerHost

end
-- ==== Proof.KerHost.lean ====
/-
  The value the host operations leave in the result buffer, at the extended reals: the loss of the first argument
  computed from the first launch's row sums, plus the loss of the mixed matrix computed from the second launch's.

  The two stretches of host operations around the launches apply one and the same composition of operations, first to
  the first argument and the first launch's output, then to the mixed array and the second launch's output; the last
  operation adds the two scalars.
-/
import proofs.«153953_j64141041599004_1_alg».proof.Proof.KerHostIn
import proofs.«153953_j64141041599004_1_alg».proof.Proof.KerHostLoss

noncomputable section

namespace Cert.KernelIdeal.KerHost

open Idealize.ShloMosaic Idealize.ShloMosaic.TcCoe Idealize.ShloMosaic.ValueIdx
open Cert.KernelIdeal.Gen

variable (m : (ℓ : Loc nD τ sig) → Buf (Elt Ideal) ℓ) (outs : Outs (F := Ideal)) (c : Dev nD)

/-- The first stretch leaves in its result buffer the loss of what it finds in the first argument's buffer and in the
    first launch's output buffer. -/
theorem after_hostOps1_v48 (W : Valuation τ sig (Elt Ideal)) :
    (StableHlo.after hostOps1 W (Proc.devRef .tc main_v48) : S_.Idx → EReal) =
      lossKer (W (Proc.devRef .tc main_arg0) : S8192x128.Idx → EReal) (W (Proc.devRef .tc main_v3) : S8192x1.Idx → EReal) := by
  dsimp only [hostOps1]
  after_results_simp
  rfl

/-- The second stretch adds to the first loss the loss of what it finds in the mixed array's buffer and in the second
    launch's output buffer. -/
theorem after_hostOps2_v102 (W : Valuation τ sig (Elt Ideal)) :
    (StableHlo.after hostOps2 W (Proc.devRef .tc main_v102) : S_.Idx → EReal) =
      addf (W (Proc.devRef .tc main_v48) : S_.Idx → EReal)
        (lossKer (W (Proc.devRef .tc main_v54) : S8192x128.Idx → EReal) (W (Proc.devRef .tc main_v56) : S8192x1.Idx → EReal)) := by
  dsimp only [hostOps2]
  after_results_simp
  rfl

/-- The result buffer at the end. -/
theorem v102_eq : (V9 m outs c main_v102 : S_.Idx → EReal) = fun _ =>
    Cert.Spec.lossOf (Cert.Spec.mat (m ((c : Thread nD τ).loc main_arg0) : S8192x128.Idx → EReal))
        (fun r => (outs 2 main_v3 c : S8192x1.Idx → EReal) (ix2 r (0 : Fin 1)))
      + Cert.Spec.lossOf (Cert.Spec.mix (Cert.Spec.mat (m ((c : Thread nD τ).loc main_arg0) : S8192x128.Idx → EReal))
          (Cert.Spec.mat1 (m ((c : Thread nD τ).loc main_arg1) : S4096x128.Idx → EReal)))
        (fun r => (outs 8 main_v56 c : S8192x1.Idx → EReal) (ix2 r (0 : Fin 1))) := by
  have h48 : V8 m outs c main_v48 = V3 m outs c main_v48 :=
    (V8_of m outs c main_v48 (by decide)).trans <| (V7_of m outs c main_v48 (by decide)).trans <| (V6_of m outs c main_v48 (by decide)).trans <|
      (V5_of m outs c main_v48 (by decide)).trans <| V4_of m outs c main_v48 (by decide)
  have h54 : V8 m outs c main_v54 = V6 m outs c main_v54 :=
    (V8_of m outs c main_v54 (by decide)).trans <| V7_of m outs c main_v54 (by decide)
  have h56 : V8 m outs c main_v56 = outs 8 main_v56 c := by
    show Function.update (V7 m outs c) (Proc.devRef .tc main_v56) (outs 8 main_v56 c) (Proc.devRef .tc main_v56) = _
    exact Function.update_self ..
  have h3 : V2 m outs c main_v3 = outs 2 main_v3 c := by
    show Function.update (V1 m c) (Proc.devRef .tc main_v3) (outs 2 main_v3 c) (Proc.devRef .tc main_v3) = _
    exact Function.update_self ..
  have h0 : V2 m outs c main_arg0 = m ((c : Thread nD τ).loc main_arg0) :=
    (V2_of m outs c main_arg0 (by decide)).trans <| V1_of m c main_arg0 (by decide)
  have e1 : (V3 m outs c main_v48 : S_.Idx → EReal) =
      lossKer (m ((c : Thread nD τ).loc main_arg0) : S8192x128.Idx → EReal) (outs 2 main_v3 c : S8192x1.Idx → EReal) := by
    refine (after_hostOps1_v48 (V2 m outs c)).trans ?_
    rw [h0, h3]
  have e2 : (V9 m outs c main_v102 : S_.Idx → EReal) =
      addf (lossKer (m ((c : Thread nD τ).loc main_arg0) : S8192x128.Idx → EReal) (outs 2 main_v3 c : S8192x1.Idx → EReal))
        (lossKer (V6 m outs c main_v54 : S8192x128.Idx → EReal) (outs 8 main_v56 c : S8192x1.Idx → EReal)) := by
    refine (after_hostOps2_v102 (V8 m outs c)).trans ?_
    rw [h48, h54, h56, e1]
  rw [e2, lossKer_eq, lossKer_eq, v54_mat]
  rfl

end Cert.KernelIdeal.KerHost

end
-- ==== Proof.KI0Runs.lean ====
/-
  What the runs of the row-sum kernel body (launch 0) share: the branch condition "second grid coordinate is
  zero" decided over the 8 x 8 grid, the staging and scratch memrefs the body is called with, and the
  region invariant with the accumulator buffer singled out of the kernel's scoped buffers.
-/
import proofs.«153953_j64141041599004_1_alg».proof.Proof.Gen.KernelIdeal.Launch
import proofs.«153953_j64141041599004_1_alg».proof.Proof.Gen.KernelIdeal.Skeleton
import proofs.«153953_j64141041599004_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the second grid coordinate is zero (the first column tile of a row tile). -/
abbrev cond0 (i : grid0.Coords) : Prop := (Scalar.cmpi .ne (Scalar.extui (Scalar.cmpi .eq (BitVec.ofNat 32 (i 1).val) 0#32)) 0#32) = 1#1
/-- It holds exactly at the points that start a row of the grid. -/
theorem hcond0 : ∀ t : Fin cfg0.N, cond0 (grid0.coords t) ↔ t.val % 8 = 0 :=
  (by decide +kernel : ∀ t : Fin grid0.N, cond0 (grid0.coords t) ↔ t.val % 8 = 0)

/-- No window is ever idle: the body stores the output block at every point. -/
theorem live0_0 : ∀ i, cfg0.idle 0 i = false := fun _ => rfl
theorem live0_1 : ∀ i, cfg0.idle 1 i = false := fun _ => rfl
theorem live0_2 : ∀ i, cfg0.idle 2 i = false := fun _ => rfl

/-- One staging buffer of the output window, through which its contents are stated. -/
abbrev VO0 : View sig .tc .vmem S1024x1 .f32 := (Memref.whole cc0_stg2_0 : Memref sig .tc .vmem S1024x1 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x1 .f32 := Memref.whole cc0_scratch0
abbrev VS0 : View sig .tc .vmem S1024x1 .f32 := scM0.view

end Cert.KernelIdeal.Hand

end
-- ==== Proof.KI0RunA.lean ====
/-
  The row-sum kernel body (launch 0) run at a point that starts a row of the grid: the accumulator is first reset,
  then the tile's contribution is added, and the accumulator is copied to the output block.  The pieces each buffer
  ends with are found by the run.
-/
import proofs.«153953_j64141041599004_1_alg».proof.Proof.KI0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the branch is taken, on whole memrefs: the inputs at their contents, the output
    block and the accumulator at anything; it ends with the inputs as they were and the pieces written. -/
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i)
    (x0 : Vec F S1024x128 .bf16) (x1 : Vec F S1024x128 .bf16) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI0RunB.lean ====
/-
  The row-sum kernel body (launch 0) run at a point that continues a row of the grid: the accumulator holds what
  the point before left; the tile's contribution is added and the accumulator is copied to the output block.
-/
import proofs.«153953_j64141041599004_1_alg».proof.Proof.KI0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the branch is not taken, on whole memrefs: the inputs at their contents, the
    accumulator at the carried contents, the output block at anything. -/
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i)
    (x0 : Vec F S1024x128 .bf16) (x1 : Vec F S1024x128 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI0Data.lean ====
/-
  The proof data of the row-sum kernel (launch 0) at region-entry contents V, and the body obligation.

  After the body at grid point t = 8 * i + j the accumulator and the output block both hold the sum, over the column
  tiles 0..j of row tile i, of the tile's row sums of exp (1 + x_i . x_j^T / 128): at j = 0 the accumulator is reset
  before the tile is added, at j > 0 it is added to what the point before left.  The output block is written back
  only at j = 7, when it holds the whole row sum.
-/
import proofs.«153953_j64141041599004_1_alg».proof.Proof.KI0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the pieces read back -/

theorem cover0_A_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i) (x0 : Vec F S1024x128 .bf16) (x1 : Vec F S1024x128 .bf16) (y : S1024x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1024x1.size (by sl_kernel_rfl) y
def out0_A_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i) (x0 : Vec F S1024x128 .bf16) (x1 : Vec F S1024x128 .bf16) : Vec F S1024x1 .f32 :=
  VO0.read (Elt F) (VO0.writes (Elt F) VO0.junk (kernelRun0_A c i arg2 harg2 arg3 harg3 arg4 harg4 arg5 harg5 hc0 x0 x1).1)
theorem scover0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i) (x0 : Vec F S1024x128 .bf16) (x1 : Vec F S1024x128 .bf16) (y : S1024x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1024x1.size (by sl_kernel_rfl) y
def sout0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i) (x0 : Vec F S1024x128 .bf16) (x1 : Vec F S1024x128 .bf16) : Vec F S1024x1 .f32 :=
  VS0.read (Elt F) (VS0.writes (Elt F) VS0.junk (kernelRun0_A c i arg2 harg2 arg3 harg3 arg4 harg4 arg5 harg5 hc0 x0 x1).2.1)

theorem cover0_B_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i) (x0 : Vec F S1024x128 .bf16) (x1 : Vec F S1024x128 .bf16) (xs0 : Vec F S1024x1 .f32) (y : S1024x1.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S1024x1.size (by sl_kernel_rfl) y
def out0_B_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i) (x0 : Vec F S1024x128 .bf16) (x1 : Vec F S1024x128 .bf16) (xs0 : Vec F S1024x1 .f32) : Vec F S1024x1 .f32 :=
  VO0.read (Elt F) (VO0.writes (Elt F) VO0.junk (kernelRun0_B c i arg2 harg2 arg3 harg3 arg4 harg4 arg5 harg5 hc0 x0 x1 xs0).1)
theorem scover0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i) (x0 : Vec F S1024x128 .bf16) (x1 : Vec F S1024x128 .bf16) (xs0 : Vec F S1024x1 .f32) (y : S1024x1.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S1024x1.size (by sl_kernel_rfl) y
def sout0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i) (x0 : Vec F S1024x128 .bf16) (x1 : Vec F S1024x128 .bf16) (xs0 : Vec F S1024x1 .f32) : Vec F S1024x1 .f32 :=
  VS0.read (Elt F) (VS0.writes (Elt F) VS0.junk (kernelRun0_B c i arg2 harg2 arg3 harg3 arg4 harg4 arg5 harg5 hc0 x0 x1 xs0).2.1)

/-! ## The accumulation, point by point -/

/-- What the output block and the accumulator hold after the body at position n. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
              sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩),
       sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The kernel's other scoped buffers (the other launch's staging and accumulator), each whole at some contents. -/
def others0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region invariant: before the first point every scoped buffer at anything; afterwards the accumulator at
    what the point before left, the others at anything, the generator register at some state. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ others0 c) ∗ (∃ r, prngReg c r)) := by
  cases n with
  | zero => exact absurd rfl hz
  | succ n => rfl

/-- The class invariant with the accumulator singled out. -/
theorem PhiA0_split (c : Dev nD) :
    (Pipeline.ΦA spec0 c : sProp 𝕄) ⊢ iprop(((∃ d, owns (c : Thread nD τ) scM0 fullShare d) ∗ others0 c) ∗ (∃ r, prngReg c r)) := by
  unfold Pipeline.ΦA others0; rw [scopedRest0_eq]; simp only [scM0, owns_whole]
  iintro ⟨⟨HS, H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg
theorem PhiA0_join (c : Dev nD) :
    iprop(((∃ d, owns (c : Thread nD τ) scM0 fullShare d) ∗ others0 c) ∗ (∃ r, prngReg c r)) ⊢ (Pipeline.ΦA spec0 c : sProp 𝕄) := by
  unfold Pipeline.ΦA others0; rw [scopedRest0_eq]; simp only [scM0, owns_whole]
  iintro ⟨⟨HS, H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-! ## The proof data -/

/-- The proof data of launch 0 on core c: the arrays as the region finds them; after the body each input's
    buffer at its block, the output's at the accumulated sums; the two input windows each hold half of the one
    array they share; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Hand

end
-- ==== Proof.KI0Body.lean ====
/-
  The body obligation of the row-sum kernel (launch 0): at every grid point the body, handed the two input blocks,
  the output block's buffer and the accumulator as the invariant names it, leaves the accumulated sums in both.
-/
import proofs.«153953_j64141041599004_1_alg».proof.Proof.KI0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  rw [show (dat0 V c).leavesExact 2 t = owns (c : Thread nD τ) (ms0_2 t) fullShare ((dat0 V c).after 2 t) from rfl, after0_2]
  by_cases h0 : t.val % 8 = 0
  · rw [outsAt0_A V c t h0]
    unfold out0_A_2 sout0_A; (try dsimp only)
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA0_split c) $$ HΦ
      icases HΦ' with ⟨⟨HS0, HR⟩, Hg⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · rw [outsAt0_B V c t h0]
    unfold out0_B_2 sout0_B; (try dsimp only)
    have hz : t.val ≠ 0 := fun e => h0 (by rw [e])
    rw [PhiS0_castSucc V c t, PhiS0_pos V c _ _ hz]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  have h : iprop((owns (c : Thread nD τ) scM0 fullShare ((outsAt0 V c (t.val - 1) (by omega)).2) ∗ others0 c) ∗ (∃ r, prngReg c r))
      ⊢ (iprop(((∃ d, owns (c : Thread nD τ) scM0 fullShare d) ∗ others0 c) ∗ (∃ r, prngReg c r)) : sProp 𝕄) := by
    iintro ⟨⟨HS0, HR⟩, Hg⟩
    isplitr [Hg]
    · isplitl [HS0]
      · iexists _; iexact HS0
      iexact HR
    iexact Hg
  exact h.trans (PhiA0_join c)

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI0Arr.lean ====
/-
  The launch side of the row-sum kernel (launch 0) when its two input windows read ONE array: the full share of
  that array's buffer is dealt in two halves, one per window, at entry and joined again at exit; the output
  window's array is held whole.
-/
import proofs.«153953_j64141041599004_1_alg».proof.Proof.KI0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays: two. -/
theorem arr_image0 : Finset.univ.image (Pipeline.arrRef spec0) = {main_v2, main_v3} := by decide

/-- The windows' arrays, one by one: the shared input at its two halves, the output whole. -/
theorem arrays_form0 (c : Dev nD) (F : (w : Fin cfg0.W) → Buf (Elt F) ((cfg0.win w).arr.view.loc (c : Thread nD τ))) :
    ((dat0 V c).arrays F : sProp 𝕄)
      = iprop((((c : Thread nD τ).loc main_v2) ↦{fullShare.left} F 0) ∗ (((c : Thread nD τ).loc main_v2) ↦{fullShare.right} F 1) ∗ (((c : Thread nD τ).loc main_v3) ↦{fullShare} F 2)) := by
  unfold Dat.arrays; rw [bigSep_W0]
  rw [(arr_whole0 0).set_eq_univ, (arr_whole0 2).set_eq_univ]
  rfl

/-- The two buffers, each whole. -/
theorem arrBufs_form0 (c : Dev nD) (V' : (b : Ref sig .tc) → Buf (Elt F) ((c : Thread nD τ).loc b)) :
    (Pipeline.arrBufs spec0 c V' : sProp 𝕄)
      = iprop((((c : Thread nD τ).loc main_v2) ↦{fullShare} V' main_v2) ∗ (((c : Thread nD τ).loc main_v3) ↦{fullShare} V' main_v3)) := by
  unfold Pipeline.arrBufs; rw [arr_image0, bigSep_insert (by decide), bigSep_singleton]; rfl

/-- ENTRY: the two buffers, each whole at the region-entry contents, make the windows' arrays. -/
theorem hsplit0 (c : Dev nD) : (Pipeline.arrBufs spec0 c (V c) : sProp 𝕄) ⊢ (dat0 V c).arrays ((dat0 V c).arrAt · 0) := by
  rw [arrays_form0, arrBufs_form0]
  iintro ⟨H2, H3⟩
  ihave H2' := (pointsTo_share (PosShare.mem_left_op_right fullShare)).1 $$ H2
  icases H2' with ⟨Hl, Hr⟩
  isplitl [Hl]; · iexact Hl
  isplitl [Hr]; · iexact Hr
  iexact H3

/-- EXIT: the windows' arrays at contents that agree on the shared buffer make the two buffers whole again. -/
theorem hjoin0 (c : Dev nD) (V' : (b : Ref sig .tc) → Buf (Elt F) ((c : Thread nD τ).loc b))
    (F : (w : Fin cfg0.W) → Buf (Elt F) ((cfg0.win w).arr.view.loc (c : Thread nD τ)))
    (h0 : F 0 = V' main_v2) (h1 : F 1 = V' main_v2) (h2 : F 2 = V' main_v3) :
    ((dat0 V c).arrays F : sProp 𝕄) ⊢ Pipeline.arrBufs spec0 c V' := by
  rw [arrays_form0, arrBufs_form0, h0, h1, h2]
  iintro ⟨Hl, Hr, H3⟩
  isplitl [Hl Hr]
  · iapply (pointsTo_share (PosShare.mem_left_op_right fullShare)).2
    isplitl [Hl]; · iexact Hl
    iexact Hr
  iexact H3

/-- A core's unscoped buffers are the buffers behind the windows' arrays and the rest. -/
theorem ub_split0 (c : Dev nD) (V' : (b : Ref sig .tc) → Buf (Elt F) ((c : Thread nD τ).loc b)) :
    (unscopedBufs c V' : sProp 𝕄) = iprop((Pipeline.arrBufs spec0 c V' : sProp 𝕄) ∗ Pipeline.unscopedRest spec0 c V') := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs Pipeline.unscopedRest Pipeline.arrBufs
  rw [bigSep_sdiff_split hA]
  rfl

/-- The rest is the same at two valuations that agree off the two buffers. -/
theorem rest_congr0 (c : Dev nD) (V₁ V₂ : (b : Ref sig .tc) → Buf (Elt F) ((c : Thread nD τ).loc b))
    (h : ∀ b, b ∉ Finset.univ.image (Pipeline.arrRef spec0) → V₂ b = V₁ b) :
    (Pipeline.unscopedRest spec0 c V₁ : sProp 𝕄) = Pipeline.unscopedRest spec0 c V₂ := by
  unfold Pipeline.unscopedRest
  exact bigSep_congr fun b hb => by rw [h b (Finset.mem_sdiff.mp hb).2]

end Cert.KernelIdeal.Hand

end
-- ==== Proof.KI1Runs.lean ====
/-
  What the runs of the row-sum kernel body (launch 1) share: the branch condition "second grid coordinate is
  zero" decided over the 8 x 8 grid, the staging and scratch memrefs the body is called with, and the
  region invariant with the accumulator buffer singled out of the kernel's scoped buffers.
-/
import proofs.«153953_j64141041599004_1_alg».proof.Proof.Gen.KernelIdeal.Launch
import proofs.«153953_j64141041599004_1_alg».proof.Proof.Gen.KernelIdeal.Skeleton
import proofs.«153953_j64141041599004_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the second grid coordinate is zero (the first column tile of a row tile). -/
abbrev cond1 (i : grid1.Coords) : Prop := (Scalar.cmpi .ne (Scalar.extui (Scalar.cmpi .eq (BitVec.ofNat 32 (i 1).val) 0#32)) 0#32) = 1#1
/-- It holds exactly at the points that start a row of the grid. -/
theorem hcond1 : ∀ t : Fin cfg1.N, cond1 (grid1.coords t) ↔ t.val % 8 = 0 :=
  (by decide +kernel : ∀ t : Fin grid1.N, cond1 (grid1.coords t) ↔ t.val % 8 = 0)

/-- No window is ever idle: the body stores the output block at every point. -/
theorem live1_0 : ∀ i, cfg1.idle 0 i = false := fun _ => rfl
theorem live1_1 : ∀ i, cfg1.idle 1 i = false := fun _ => rfl
theorem live1_2 : ∀ i, cfg1.idle 2 i = false := fun _ => rfl

/-- One staging buffer of the output window, through which its contents are stated. -/
abbrev VO1 : View sig .tc .vmem S1024x1 .f32 := (Memref.whole cc1_stg2_0 : Memref sig .tc .vmem S1024x1 .f32).view
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x1 .f32 := Memref.whole cc1_scratch0
abbrev VS1 : View sig .tc .vmem S1024x1 .f32 := scM1.view

end Cert.KernelIdeal.Hand

end
-- ==== Proof.KI1RunA.lean ====
/-
  The row-sum kernel body (launch 1) run at a point that starts a row of the grid: the accumulator is first reset,
  then the tile's contribution is added, and the accumulator is copied to the output block.  The pieces each buffer
  ends with are found by the run.
-/
import proofs.«153953_j64141041599004_1_alg».proof.Proof.KI1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the branch is taken, on whole memrefs: the inputs at their contents, the output
    block and the accumulator at anything; it ends with the inputs as they were and the pieces written. -/
noncomputable def kernelRun1_A (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i)
    (x0 : Vec F S1024x128 .bf16) (x1 : Vec F S1024x128 .bf16) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__rowsum_kernel i arg2 harg2 arg3 harg3 arg4 harg4 arg5 harg5) K } := by
  refine ⟨?_, ?_, fun E K => ?run⟩
  case run =>
    simp only [cc1__rowsum_kernel_eq_skeleton]; unfold cc1__rowsum_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI1RunB.lean ====
/-
  The row-sum kernel body (launch 1) run at a point that continues a row of the grid: the accumulator holds what
  the point before left; the tile's contribution is added and the accumulator is copied to the output block.
-/
import proofs.«153953_j64141041599004_1_alg».proof.Proof.KI1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the branch is not taken, on whole memrefs: the inputs at their contents, the
    accumulator at the carried contents, the output block at anything. -/
noncomputable def kernelRun1_B (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i)
    (x0 : Vec F S1024x128 .bf16) (x1 : Vec F S1024x128 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__rowsum_kernel i arg2 harg2 arg3 harg3 arg4 harg4 arg5 harg5) K } := by
  refine ⟨?_, ?_, fun E K => ?run⟩
  case run =>
    simp only [cc1__rowsum_kernel_eq_skeleton]; unfold cc1__rowsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI1Data.lean ====
/-
  The proof data of the row-sum kernel (launch 1) at region-entry contents V, and the body obligation.

  After the body at grid point t = 8 * i + j the accumulator and the output block both hold the sum, over the column
  tiles 0..j of row tile i, of the tile's row sums of exp (1 + x_i . x_j^T / 128): at j = 0 the accumulator is reset
  before the tile is added, at j > 0 it is added to what the point before left.  The output block is written back
  only at j = 7, when it holds the whole row sum.
-/
import proofs.«153953_j64141041599004_1_alg».proof.Proof.KI1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the pieces read back -/

theorem cover1_A_2 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i) (x0 : Vec F S1024x128 .bf16) (x1 : Vec F S1024x128 .bf16) (y : S1024x1.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1024x1.size (by sl_kernel_rfl) y
def out1_A_2 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i) (x0 : Vec F S1024x128 .bf16) (x1 : Vec F S1024x128 .bf16) : Vec F S1024x1 .f32 :=
  VO1.read (Elt F) (VO1.writes (Elt F) VO1.junk (kernelRun1_A c i arg2 harg2 arg3 harg3 arg4 harg4 arg5 harg5 hc0 x0 x1).1)
theorem scover1_A (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i) (x0 : Vec F S1024x128 .bf16) (x1 : Vec F S1024x128 .bf16) (y : S1024x1.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S1024x1.size (by sl_kernel_rfl) y
def sout1_A (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i) (x0 : Vec F S1024x128 .bf16) (x1 : Vec F S1024x128 .bf16) : Vec F S1024x1 .f32 :=
  VS1.read (Elt F) (VS1.writes (Elt F) VS1.junk (kernelRun1_A c i arg2 harg2 arg3 harg3 arg4 harg4 arg5 harg5 hc0 x0 x1).2.1)

theorem cover1_B_2 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i) (x0 : Vec F S1024x128 .bf16) (x1 : Vec F S1024x128 .bf16) (xs0 : Vec F S1024x1 .f32) (y : S1024x1.Idx) :
    ∃ pc ∈ (kernelRun1_B c i arg2 harg2 arg3 harg3 arg4 harg4 arg5 harg5 hc0 x0 x1 xs0).1, y ∈ pc.1.set :=
  View.cover_of_tiledL (kernelRun1_B c i arg2 harg2 arg3 harg3 arg4 harg4 arg5 harg5 hc0 x0 x1 xs0).1 S1024x1.size (by sl_kernel_rfl) y
def out1_B_2 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i) (x0 : Vec F S1024x128 .bf16) (x1 : Vec F S1024x128 .bf16) (xs0 : Vec F S1024x1 .f32) : Vec F S1024x1 .f32 :=
  VO1.read (Elt F) (VO1.writes (Elt F) VO1.junk (kernelRun1_B c i arg2 harg2 arg3 harg3 arg4 harg4 arg5 harg5 hc0 x0 x1 xs0).1)
theorem scover1_B (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i) (x0 : Vec F S1024x128 .bf16) (x1 : Vec F S1024x128 .bf16) (xs0 : Vec F S1024x1 .f32) (y : S1024x1.Idx) :
    ∃ pc ∈ (kernelRun1_B c i arg2 harg2 arg3 harg3 arg4 harg4 arg5 harg5 hc0 x0 x1 xs0).2.1, y ∈ pc.1.set :=
  View.cover_of_tiledL (kernelRun1_B c i arg2 harg2 arg3 harg3 arg4 harg4 arg5 harg5 hc0 x0 x1 xs0).2.1 S1024x1.size (by sl_kernel_rfl) y
def sout1_B (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i) (x0 : Vec F S1024x128 .bf16) (x1 : Vec F S1024x128 .bf16) (xs0 : Vec F S1024x1 .f32) : Vec F S1024x1 .f32 :=
  VS1.read (Elt F) (VS1.writes (Elt F) VS1.junk (kernelRun1_B c i arg2 harg2 arg3 harg3 arg4 harg4 arg5 harg5 hc0 x0 x1 xs0).2.1)

/-! ## The accumulation, point by point -/

/-- What the output block and the accumulator hold after the body at position n. -/
def outsAt1 (c : Dev nD) : (n : ℕ) → n < cfg1.N → Vec F S1024x1 .f32 × Vec F S1024x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩),
              sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩))
  | n + 1, hn =>
    if h0 : (n + 1) % 8 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) :
    outsAt1 V c t.val t.isLt = (out1_A_2 c (grid1.coords t) (ms1_0 t) (hs1_0 t) (ms1_1 t) (hs1_1 t) (ms1_2 t) (hs1_2 t) scM1 (Memref.isWhole_whole _) ((hcond1 t).mpr h0) (iblk1 V c 0 t) (iblk1 V c 1 t),
      sout1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The kernel's other scoped buffers (the other launch's staging and accumulator), each whole at some contents. -/
def others1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region invariant: before the first point every scoped buffer at anything; afterwards the accumulator at
    what the point before left, the others at anything, the generator register at some state. -/
def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ others1 c) ∗ (∃ r, prngReg c r)) := by
  cases n with
  | zero => exact absurd rfl hz
  | succ n => rfl

/-- The class invariant with the accumulator singled out. -/
theorem PhiA1_split (c : Dev nD) :
    (Pipeline.ΦA spec1 c : sProp 𝕄) ⊢ iprop(((∃ d, owns (c : Thread nD τ) scM1 fullShare d) ∗ others1 c) ∗ (∃ r, prngReg c r)) := by
  unfold Pipeline.ΦA others1; rw [scopedRest1_eq]; simp only [scM1, owns_whole]
  iintro ⟨⟨H1, H2, H3, H4, H5, H6, H7, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg
theorem PhiA1_join (c : Dev nD) :
    iprop(((∃ d, owns (c : Thread nD τ) scM1 fullShare d) ∗ others1 c) ∗ (∃ r, prngReg c r)) ⊢ (Pipeline.ΦA spec1 c : sProp 𝕄) := by
  unfold Pipeline.ΦA others1; rw [scopedRest1_eq]; simp only [scM1, owns_whole]
  iintro ⟨⟨HS, H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The proof data -/

/-- The proof data of launch 1 on core c: the arrays as the region finds them; after the body each input's
    buffer at its block, the output's at the accumulated sums; the two input windows each hold half of the one
    array they share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Hand

end
-- ==== Proof.KI1Body.lean ====
/-
  The body obligation of the row-sum kernel (launch 1): at every grid point the body, handed the two input blocks,
  the output block's buffer and the accumulator as the invariant names it, leaves the accumulated sums in both.
-/
import proofs.«153953_j64141041599004_1_alg».proof.Proof.KI1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  by_cases h0 : t.val % 8 = 0
  · rw [outsAt1_A V c t h0]
    unfold out1_A_2 sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_split c) $$ HΦ
      icases HΦ' with ⟨⟨HS0, HR⟩, Hg⟩
      iapply ((kernelRun1_A c (grid1.coords t) _ _ _ _ _ _ _ _ ((hcond1 t).mpr h0) (iblk1 V c 0 t) (iblk1 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1 t).mpr h0) (iblk1 V c 0 t) (iblk1 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
  · rw [outsAt1_B V c t h0]
    unfold out1_B_2 sout1_B; (try dsimp only)
    have hz : t.val ≠ 0 := fun e => h0 (by rw [e])
    rw [PhiS1_castSucc V c t, PhiS1_pos V c _ _ hz]
    iintro ⟨⟨⟨HS0, HR⟩, Hg⟩, Ho, ⟨%d0, H0⟩, ⟨%d1, H1⟩, ⟨%d2, H2⟩⟩
    iapply ((kernelRun1_B c (grid1.coords t) _ _ _ _ _ _ _ _ (fun h => h0 ((hcond1 t).mp h)) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  have h : iprop((owns (c : Thread nD τ) scM1 fullShare ((outsAt1 V c (t.val - 1) (by omega)).2) ∗ others1 c) ∗ (∃ r, prngReg c r))
      ⊢ (iprop(((∃ d, owns (c : Thread nD τ) scM1 fullShare d) ∗ others1 c) ∗ (∃ r, prngReg c r)) : sProp 𝕄) := by
    iintro ⟨⟨HS0, HR⟩, Hg⟩
    isplitr [Hg]
    · isplitl [HS0]
      · iexists _; iexact HS0
      iexact HR
    iexact Hg
  exact h.trans (PhiA1_join c)

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI1Arr.lean ====
/-
  The launch side of the row-sum kernel (launch 1) when its two input windows read ONE array: the full share of
  that array's buffer is dealt in two halves, one per window, at entry and joined again at exit; the output
  window's array is held whole.
-/
import proofs.«153953_j64141041599004_1_alg».proof.Proof.KI1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays: two. -/
theorem arr_image1 : Finset.univ.image (Pipeline.arrRef spec1) = {main_v55, main_v56} := by decide

/-- The windows' arrays, one by one: the shared input at its two halves, the output whole. -/
theorem arrays_form1 (c : Dev nD) (F : (w : Fin cfg1.W) → Buf (Elt F) ((cfg1.win w).arr.view.loc (c : Thread nD τ))) :
    ((dat1 V c).arrays F : sProp 𝕄)
      = iprop((((c : Thread nD τ).loc main_v55) ↦{fullShare.left} F 0) ∗ (((c : Thread nD τ).loc main_v55) ↦{fullShare.right} F 1) ∗ (((c : Thread nD τ).loc main_v56) ↦{fullShare} F 2)) := by
  unfold Dat.arrays; rw [bigSep_W1]
  rw [(arr_whole1 0).set_eq_univ, (arr_whole1 2).set_eq_univ]
  rfl

/-- The two buffers, each whole. -/
theorem arrBufs_form1 (c : Dev nD) (V' : (b : Ref sig .tc) → Buf (Elt F) ((c : Thread nD τ).loc b)) :
    (Pipeline.arrBufs spec1 c V' : sProp 𝕄)
      = iprop((((c : Thread nD τ).loc main_v55) ↦{fullShare} V' main_v55) ∗ (((c : Thread nD τ).loc main_v56) ↦{fullShare} V' main_v56)) := by
  unfold Pipeline.arrBufs; rw [arr_image1, bigSep_insert (by decide), bigSep_singleton]; rfl

/-- ENTRY: the two buffers, each whole at the region-entry contents, make the windows' arrays. -/
theorem hsplit1 (c : Dev nD) : (Pipeline.arrBufs spec1 c (V c) : sProp 𝕄) ⊢ (dat1 V c).arrays ((dat1 V c).arrAt · 0) := by
  rw [arrays_form1, arrBufs_form1]
  iintro ⟨H2, H3⟩
  ihave H2' := (pointsTo_share (PosShare.mem_left_op_right fullShare)).1 $$ H2
  icases H2' with ⟨Hl, Hr⟩
  isplitl [Hl]; · iexact Hl
  isplitl [Hr]; · iexact Hr
  iexact H3

/-- EXIT: the windows' arrays at contents that agree on the shared buffer make the two buffers whole again. -/
theorem hjoin1 (c : Dev nD) (V' : (b : Ref sig .tc) → Buf (Elt F) ((c : Thread nD τ).loc b))
    (F : (w : Fin cfg1.W) → Buf (Elt F) ((cfg1.win w).arr.view.loc (c : Thread nD τ)))
    (h0 : F 0 = V' main_v55) (h1 : F 1 = V' main_v55) (h2 : F 2 = V' main_v56) :
    ((dat1 V c).arrays F : sProp 𝕄) ⊢ Pipeline.arrBufs spec1 c V' := by
  rw [arrays_form1, arrBufs_form1, h0, h1, h2]
  iintro ⟨Hl, Hr, H3⟩
  isplitl [Hl Hr]
  · iapply (pointsTo_share (PosShare.mem_left_op_right fullShare)).2
    isplitl [Hl]; · iexact Hl
    iexact Hr
  iexact H3

/-- A core's unscoped buffers are the buffers behind the windows' arrays and the rest. -/
theorem ub_split1 (c : Dev nD) (V' : (b : Ref sig .tc) → Buf (Elt F) ((c : Thread nD τ).loc b)) :
    (unscopedBufs c V' : sProp 𝕄) = iprop((Pipeline.arrBufs spec1 c V' : sProp 𝕄) ∗ Pipeline.unscopedRest spec1 c V') := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The rest is the same at two valuations that agree off the two buffers. -/
theorem rest_congr1 (c : Dev nD) (V₁ V₂ : (b : Ref sig .tc) → Buf (Elt F) ((c : Thread nD τ).loc b))
    (h : ∀ b, b ∉ Finset.univ.image (Pipeline.arrRef spec1) → V₂ b = V₁ b) :
    (Pipeline.unscopedRest spec1 c V₁ : sProp 𝕄) = Pipeline.unscopedRest spec1 c V₂ := by
  unfold Pipeline.unscopedRest
  exact bigSep_congr fun b hb => by rw [h b (Finset.mem_sdiff.mp hb).2]

end Cert.KernelIdeal.Hand

end
-- ==== Proof.KIAsm.lean ====
/-
  The whole run of the program: the two launches of the row-sum kernel as segments between the stretches of host
  operations, with what each launch leaves in its output array named, so that the program's result is read off
  the last boundary's contents.
-/
import proofs.«153953_j64141041599004_1_alg».proof.Proof.KI0Arr
import proofs.«153953_j64141041599004_1_alg».proof.Proof.KI1Arr
import proofs.«153953_j64141041599004_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The buffers before the first launch, read at the TensorCore's references. -/
abbrev VV1 (c : Dev nD) (b : Ref sig .tc) : Buf (Elt F) ((c : Thread nD τ).loc b) := Gen.V1 m c b
/-- What the first launch leaves: its output array at the last write-back's contents, every other buffer as entered. -/
def outsA : Gen.Outs (F := F) := fun _ r c =>
  Function.update (Gen.V1 m c) main_v3 ((dat0 (VV1 m) c).arrAt 2 cfg0.N) r
/-- The buffers before the second launch. -/
abbrev VV7 (c : Dev nD) (b : Ref sig .tc) : Buf (Elt F) ((c : Thread nD τ).loc b) := Gen.V7 m (outsA m) c b
/-- What the two launches leave. -/
def outsV : Gen.Outs (F := F) := fun J r c =>
  if J = 2 then outsA m 2 r c else Function.update (Gen.V7 m (outsA m) c) main_v56 ((dat1 (VV7 m) c).arrAt 2 cfg1.N) r

theorem outsV_2 (c : Dev nD) : outsV m 2 main_v3 c = (dat0 (VV1 m) c).arrAt 2 cfg0.N := by
  unfold outsV outsA; rw [if_pos rfl]; exact Function.update_self ..
theorem outsV_8 (c : Dev nD) : outsV m 8 main_v56 c = (dat1 (VV7 m) c).arrAt 2 cfg1.N := by
  unfold outsV; rw [if_neg (by decide)]; exact Function.update_self ..
theorem V7_eq (c : Dev nD) : Gen.V7 m (outsV m) c = Gen.V7 m (outsA m) c := by
  have e : outsV m 2 main_v3 c = outsA m 2 main_v3 c := by unfold outsV; rw [if_pos rfl]
  unfold Gen.V7 Gen.V6 Gen.V5 Gen.V4 Gen.V3 Gen.V2; rw [e]
theorem V2_out (c : Dev nD) : Gen.V2 m (outsV m) c main_v3 = (dat0 (VV1 m) c).arrAt 2 cfg0.N := by
  unfold Gen.V2; rw [Function.update_self]; exact outsV_2 m c
theorem V8_out (c : Dev nD) : Gen.V8 m (outsV m) c main_v56 = (dat1 (VV7 m) c).arrAt 2 cfg1.N := by
  unfold Gen.V8; rw [Function.update_self]; exact outsV_8 m c
theorem V8_of' (c : Dev nD) (r : Ref sig .tc) (h : r ∉ ([main_v56] : List (Ref sig .tc))) : Gen.V8 m (outsV m) c r = VV7 m c r :=
  (Gen.V8_of m (outsV m) c r h).trans (congrFun (V7_eq m c) r)

/-- Every launch's proof data, each at its region's entry contents. -/
def pdats : (p : Fin 2) → (c : Dev nD) → Dat τ (Elt F) Unit ℕ (UR sig nD τ) ℕ (cfgs p) c
  | ⟨0, _⟩ => fun c => dat0 (VV1 m) c
  | ⟨1, _⟩ => fun c => dat1 (VV7 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

-- the library's region lemmas are stated over the pinned configuration: unification must unfold plain definitions in a metavariable's type
set_option backward.isDefEq.respectTransparency.types false in
/-- Launch 0 as a segment: entered from every unscoped buffer at the contents before it, left with the output
    array at what the write-backs leave and every other buffer as entered. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsV m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hs : (StableHlo.held (c : Thread nD τ) (Pipeline.ucRefs τ sig) (Gen.V1 m c) : sProp 𝕄)
        ⊢ iprop((pdats m 0 c).arrays ((pdats m 0 c).arrAt · 0) ∗ Pipeline.unscopedRest spec0 c (VV1 m c)) := by
      rw [← Pipeline.unscopedBufs_held (Ix := Unit) (Name := ℕ) (U := UR sig nD τ) (Lvl := ℕ) c (Gen.V1 m c), ub_split0]
      exact Idealize.SL.BI.sep_mono (hsplit0 (VV1 m) c) (Idealize.SL.BI.Entails.refl _)
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    exact (hout0 (VV1 m) c).trans (by
      rw [Pipeline.ownSems0_none]; unfold Pipeline.ΦA
      iintro ⟨Hr, Hp⟩
      isplitl [Hp]; · iexact Hp
      isplitr; · iempintro
      iexact Hr)
  hexit c := by
    have hj : iprop((pdats m 0 c).arrays ((pdats m 0 c).arrAt · cfg0.N) ∗ Pipeline.unscopedRest spec0 c (VV1 m c))
        ⊢ (StableHlo.held (c : Thread nD τ) (Pipeline.ucRefs τ sig) (Gen.V2 m (outsV m) c) : sProp 𝕄) := by
      rw [← Pipeline.unscopedBufs_held (Ix := Unit) (Name := ℕ) (U := UR sig nD τ) (Lvl := ℕ) c (Gen.V2 m (outsV m) c), ub_split0,
        rest_congr0 c (VV1 m c) (fun b => (Gen.V2 m (outsV m) c) b) (fun b hb => Gen.V2_of m (outsV m) c b (by
          rw [arr_image0] at hb; intro h; exact hb (by simp only [List.mem_singleton] at h; subst h; decide)))]
      refine Idealize.SL.BI.sep_mono (hjoin0 (VV1 m) c _ _ ?_ ?_ ?_) (Idealize.SL.BI.Entails.refl _)
      · exact ((dat0 (VV1 m) c).arrAt_in 0 rfl _).trans ((Gen.V2_of m (outsV m) c main_v2 (by decide)).symm)
      · exact ((dat0 (VV1 m) c).arrAt_in 1 rfl _).trans ((Gen.V2_of m (outsV m) c main_v2 (by decide)).symm)
      · exact (V2_out m c).symm
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

-- the library's region lemmas are stated over the pinned configuration: unification must unfold plain definitions in a metavariable's type
set_option backward.isDefEq.respectTransparency.types false in
/-- Launch 1 as a segment: entered from every unscoped buffer at the contents before it, left with the output
    array at what the write-backs leave and every other buffer as entered. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV7 m) c).loose
  hwaits := Pipeline.hwaits_of_owed_zero _ _ _ _ L lv 1 fun _ _ => rfl
  pre c := iprop(StableHlo.held (c : Thread nD τ) (Pipeline.ucRefs τ sig) (Gen.V7 m (outsA m) c) ∗ R c)
  post c := iprop(StableHlo.held (c : Thread nD τ) (Pipeline.ucRefs τ sig) (Gen.V8 m (outsV m) c) ∗ R c)
  X c := iprop(∃ r, prngReg c r)
  Y c := iprop(∃ r, prngReg c r)
  Z c := Pipeline.unscopedRest (Ix := Unit) (Name := ℕ) (U := UR sig nD τ) (Lvl := ℕ) spec1 c (VV7 m c)
  hentry c := by
    rw [Pipeline.ownSems0_none]
    have hs : (StableHlo.held (c : Thread nD τ) (Pipeline.ucRefs τ sig) (Gen.V7 m (outsA m) c) : sProp 𝕄)
        ⊢ iprop((pdats m 1 c).arrays ((pdats m 1 c).arrAt · 0) ∗ Pipeline.unscopedRest spec1 c (VV7 m c)) := by
      rw [← Pipeline.unscopedBufs_held (Ix := Unit) (Name := ℕ) (U := UR sig nD τ) (Lvl := ℕ) c (Gen.V7 m (outsA m) c), ub_split1]
      exact Idealize.SL.BI.sep_mono (hsplit1 (VV7 m) c) (Idealize.SL.BI.Entails.refl _)
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    exact (hout1 (VV7 m) c).trans (by
      rw [Pipeline.ownSems0_none]; unfold Pipeline.ΦA
      iintro ⟨Hr, Hp⟩
      isplitl [Hp]; · iexact Hp
      isplitr; · iempintro
      iexact Hr)
  hexit c := by
    have hj : iprop((pdats m 1 c).arrays ((pdats m 1 c).arrAt · cfg1.N) ∗ Pipeline.unscopedRest spec1 c (VV7 m c))
        ⊢ (StableHlo.held (c : Thread nD τ) (Pipeline.ucRefs τ sig) (Gen.V8 m (outsV m) c) : sProp 𝕄) := by
      rw [← Pipeline.unscopedBufs_held (Ix := Unit) (Name := ℕ) (U := UR sig nD τ) (Lvl := ℕ) c (Gen.V8 m (outsV m) c), ub_split1,
        rest_congr1 c (VV7 m c) (fun b => (Gen.V8 m (outsV m) c) b) (fun b hb => V8_of' m c b (by
          rw [arr_image1] at hb; intro h; exact hb (by simp only [List.mem_singleton] at h; subst h; decide)))]
      refine Idealize.SL.BI.sep_mono (hjoin1 (VV7 m) c _ _ ?_ ?_ ?_) (Idealize.SL.BI.Entails.refl _)
      · exact ((dat1 (VV7 m) c).arrAt_in 0 rfl _).trans ((V8_of' m c main_v55 (by decide)).symm)
      · exact ((dat1 (VV7 m) c).arrAt_in 1 rfl _).trans ((V8_of' m c main_v55 (by decide)).symm)
      · exact (V8_out m c).symm
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRun.lean ====
/-
  The program's run: the launch of the nine segments (host stretches and the two kernel launches), every final
  memory read at the last boundary's contents — the result buffer and the two argument arrays.
-/
import proofs.«153953_j64141041599004_1_alg».proof.Proof.KIAsm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

-- the launch theorem's implicit arguments are found by unifying its conclusion with this one, which takes unfolding
-- plain definitions in a metavariable's type
set_option backward.isDefEq.respectTransparency.types false in
/-- Given, per launch, its segment record entered from the thread state before it and left at the one after it, every
    weakly fair execution terminates and every final memory holds the result buffer at the last boundary's contents
    and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V7 m outs c) ∗ E 1 c) ⊢ R1.pre c)
    (hpost1 : ∀ c : Dev nD, R1.post c ⊢ iprop(StableHlo.held (c : Thread nD τ) (Pipeline.ucRefs τ sig) (Gen.V8 m outs c) ∗ E 2 c)) :
    θ_run defs (onTc (τ := τ) (main (F := F))) ⟨m, fun _ => 0, ρ⟩ (fun r => ∀ c : Dev nD,
      r.2.mem ((c.tc : Thread nD τ).loc main_v102) = Gen.V9 m outs c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V9 m outs c))
    (hch := fun c => ⟨.rfl, hpre0 c, hpost0 c, .rfl, .rfl, .rfl, .rfl, hpre1 c, hpost1 c, sep_mono .rfl (hE2 c)⟩)
    (hinit := ?_) (QY := fun c s => s.mem ((c.tc : Thread nD τ).loc main_v102) = Gen.V9 m outs c main_v102 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (Gen.V9 m outs c) s') $$ [Hh HSI]
    · isplitl [Hh] <;> iassumption
    icases Hr with ⟨%h, HSI⟩
    imodintro
    isplitr
    · ipureintro
      exact ⟨h (Proc.devRef .tc main_v102) (Finset.mem_filter.mpr ⟨StableHlo.devRef_mem_tcRefs main_v102, by decide⟩),
        (h (Proc.devRef .tc main_arg0) (Finset.mem_filter.mpr ⟨StableHlo.devRef_mem_tcRefs main_arg0, by decide⟩)).trans (Gen.V9_main_arg0 m outs c),
        (h (Proc.devRef .tc main_arg1) (Finset.mem_filter.mpr ⟨StableHlo.devRef_mem_tcRefs main_arg1, by decide⟩)).trans (Gen.V9_main_arg1 m outs c)⟩
    · iexact HSI

/-- THE RUN: every weakly fair execution of the program terminates, faults nowhere, and ends with the result at the
    last boundary's contents (over what the two launches leave) and the arguments as launched. -/
theorem run_val (ρ : Dev nD → PrngReg) :
    θ_run defs (onTc (τ := τ) (main (F := F))) ⟨m, fun _ => 0, ρ⟩ (fun r => ∀ c : Dev nD,
      r.2.mem ((c.tc : Thread nD τ).loc main_v102) = Gen.V9 m (outsV m) c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () 𝒱₀ L lv (fun _ _ => rfl) ρ (outsV m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V7_eq]; exact .rfl) (fun c => .rfl)

end Cert.KernelIdeal.Hand

end
-- ==== Proof.KPay.lean ====
/-
  The kernel body's two stored values, read at an index over the extended reals.

  On its first visit to an output block the body stores zeros.  On every visit it adds, to the running row sums,
  the row sums of exp (1 + (x0 x1ᵀ) * (1/128)) over the 1024 columns of the current column block: the product of
  the [1024,128] row block with the transposed [1024,128] column block, scaled, shifted by 1, exponentiated,
  summed along the lanes and viewed as a column.
-/
import proofs.«153953_j64141041599004_1_alg».proof.Proof.Gen.KernelIdeal.Skeleton
import proofs.«153953_j64141041599004_1_alg».proof.Proof.Spec
import Idealize.ShloMosaic.PureOps.Ideal.Laws
import Idealize.ShloMosaic.Lib.ValueIdx
import Idealize.ShloMosaic.Lib.ValueIdxCoords
import Idealize.ShloMosaic.Lib.ValueLayout
import Idealize.ShloMosaic.Lib.Pipeline.Value

noncomputable section

open scoped BigOperators

namespace Cert.KernelIdeal.KVal

open Idealize.ShloMosaic Idealize.ShloMosaic.ValueIdx Cert.KernelIdeal Cert.KernelIdeal.Facts₀ Cert.KernelIdeal.Facts

theorem wsc : Ideal.ofBits .f32 0x3C000000#32 = Cert.Spec.sc := by
  unfold Cert.Spec.sc
  simp [Ideal.ofBits, Ideal.ieee, -EReal.coe_mul]; norm_num
theorem wone : Ideal.ofBits .f32 0x3F800000#32 = (1 : EReal) := by
  simp [Ideal.ofBits, Ideal.ieee, -EReal.coe_mul]; norm_num

/-- The block product x0 x1ᵀ. -/
def kG (x0 x1 : Vec Ideal S1024x128 .bf16) : FVec Ideal S1024x1024 .f32 :=
  matmul (φ₁ := .bf16) (φ₂ := .bf16) dot_S1024x128_S128x1024_S1024x1024_1_0_0_1_n_n none
    (shapeCast S1024x128 x0 shapeCasts_S1024x128_S1024x128 : FVec Ideal S1024x128 .bf16)
    (transpose S128x1024 [1, 0] (shapeCast S1024x128 x1 shapeCasts_S1024x128_S1024x128 : FVec Ideal S1024x128 .bf16)
      transposes_S1024x128_p1_0_S128x1024 : FVec Ideal S128x1024 .bf16)
    (constant (F := Ideal) S1024x1024 .f32 0x00000000#32)

/-- exp (1 + product * (1/128)). -/
def kE (x0 x1 : Vec Ideal S1024x128 .bf16) : FVec Ideal S1024x1024 .f32 :=
  exp (addf (broadcast S1024x1024 (Scalar.ofBits (F := Ideal) .f32 0x3F800000#32))
    (mulf (kG x0 x1) (broadcast S1024x1024 (Scalar.ofBits (F := Ideal) .f32 0x3C000000#32))))

/-- Its row sums over the block's 1024 columns. -/
def kR (x0 x1 : Vec Ideal S1024x128 .bf16) : FVec Ideal S1024 .f32 :=
  multiReduction (F := Ideal) .add [1] S1024 (kE x0 x1) 0x00000000#32 reduces_S1024x1024_S1024 (.inl rfl) rfl

theorem pay2_unfold (x0 x1 : Vec Ideal S1024x128 .bf16) (xs : Vec Ideal S1024x1 .f32) :
    Gen.k0_pay2 (F := Ideal) x0 x1 xs
      = shapeCast S1024x1 (addf xs (shapeCast S1024x1 (kR x0 x1) shapeCasts_S1024_S1024x1)) shapeCasts_S1024x1_S1024x1 := rfl

theorem kG_apply (x0 x1 : Vec Ideal S1024x128 .bf16) (p q : Fin 1024) :
    kG x0 x1 (ix2 p q) = ∑ k : Fin 128, x0 (ix2 p k) * x1 (ix2 q k) := by
  unfold kG
  refine (Ideal.matmul_constant_zero_apply (φ₁ := .bf16) (φ₂ := .bf16) dot_S1024x128_S128x1024_S1024x1024_1_0_0_1_n_n none _ _ (ix2 p q)).trans ?_
  have hr : (dot_S1024x128_S128x1024_S1024x1024_1_0_0_1_n_n).contr.rank = 1 := rfl
  have hs : (dot_S1024x128_S128x1024_S1024x1024_1_0_0_1_n_n).contr.size ⟨0, by omega⟩ = 128 := rfl
  rw [← Equiv.sum_comp (contrEquiv1 dot_S1024x128_S128x1024_S1024x1024_1_0_0_1_n_n 128 hr hs).symm]
  refine Finset.sum_congr rfl fun k _ => ?_
  congr 1
  · rw [shapeCast_self]
    congr 1
    funext a
    match a with
    | ⟨0, _⟩ => rfl
    | ⟨1, _⟩ => exact Fin.ext (contrEquiv1_symm_val _ 128 hr hs k)
  · rw [transpose_apply (k := ix2 q k), shapeCast_self]
    intro b
    match b with
    | ⟨0, _⟩ => exact (contrEquiv1_symm_val _ 128 hr hs k).symm
    | ⟨1, _⟩ => rfl

theorem kE_apply (x0 x1 : Vec Ideal S1024x128 .bf16) (p q : Fin 1024) :
    kE x0 x1 (ix2 p q) = Ideal.exp (1 + (∑ k : Fin 128, x0 (ix2 p k) * x1 (ix2 q k)) * Cert.Spec.sc) := by
  show Ideal.exp (Ideal.ofBits .f32 0x3F800000#32 + kG x0 x1 (ix2 p q) * Ideal.ofBits .f32 0x3C000000#32) = _
  rw [wone, wsc, kG_apply]

theorem kR_apply (x0 x1 : Vec Ideal S1024x128 .bf16) (p : Fin 1024) :
    kR x0 x1 (ix1 p) = ∑ q : Fin 1024, kE x0 x1 (ix2 p q) := by
  unfold kR
  refine (Ideal.multiReduction_add_single (kE x0 x1) 0x00000000#32 reduces_S1024x1024_S1024 (.inl rfl) rfl (ix1 p)).trans ?_
  refine Finset.sum_congr rfl fun q _ => congrArg _ ?_
  funext a
  refine Fin.ext ?_
  match a with
  | ⟨0, _⟩ => rfl
  | ⟨1, _⟩ => rfl

/-- A [1024] array viewed as a [1024,1] column reads, at (p, z), entry p. -/
theorem cast1_apply {α : Type} (v : S1024.Idx → α) (p : Fin 1024) (z : Fin 1) :
    shapeCast S1024x1 v shapeCasts_S1024_S1024x1 (ix2 p z) = v (ix1 p) :=
  shapeCast_apply v _ _ _ (by
    rw [Shape.rowMajor_val_one, Shape.rowMajor_val_two]
    show p.val = p.val * 1 + z.val
    omega)

/-- The value stored on an output block's first visit: zero. -/
theorem pay1_apply (y : S1024x1.Idx) : Gen.k0_pay1 (F := Ideal) y = 0 := by
  show Ideal.ofBits .f32 0x00000000#32 = 0
  exact Ideal.ofBits_zero_f32

/-- The value stored on every visit: the running row sums plus this column block's row sums of the exponentials. -/
theorem pay2_apply (x0 x1 : Vec Ideal S1024x128 .bf16) (xs : Vec Ideal S1024x1 .f32) (p : Fin 1024) (z : Fin 1) :
    Gen.k0_pay2 (F := Ideal) x0 x1 xs (ix2 p z)
      = xs (ix2 p z) + ∑ q : Fin 1024, Ideal.exp (1 + (∑ k : Fin 128, x0 (ix2 p k) * x1 (ix2 q k)) * Cert.Spec.sc) := by
  rw [pay2_unfold, shapeCast_self]
  show xs (ix2 p z) + shapeCast S1024x1 (kR x0 x1) shapeCasts_S1024_S1024x1 (ix2 p z) = _
  rw [cast1_apply, kR_apply]
  simp only [kE_apply]

/-- The second launch's body stores the same two values. -/
theorem k1_pay1_eq : Gen.k1_pay1 (F := Ideal) = Gen.k0_pay1 (F := Ideal) := rfl
theorem k1_pay2_eq (x0 x1 : Vec Ideal S1024x128 .bf16) (xs : Vec Ideal S1024x1 .f32) :
    Gen.k1_pay2 (F := Ideal) x0 x1 xs = Gen.k0_pay2 (F := Ideal) x0 x1 xs := rfl

theorem pay1_apply' (y : S1024x1.Idx) : Gen.k1_pay1 (F := Ideal) y = 0 := by
  rw [k1_pay1_eq]; exact pay1_apply y

theorem pay2_apply' (x0 x1 : Vec Ideal S1024x128 .bf16) (xs : Vec Ideal S1024x1 .f32) (p : Fin 1024) (z : Fin 1) :
    Gen.k1_pay2 (F := Ideal) x0 x1 xs (ix2 p z)
      = xs (ix2 p z) + ∑ q : Fin 1024, Ideal.exp (1 + (∑ k : Fin 128, x0 (ix2 p k) * x1 (ix2 q k)) * Cert.Spec.sc) := by
  rw [k1_pay2_eq]; exact pay2_apply x0 x1 xs p z

end Cert.KernelIdeal.KVal

end
-- ==== Proof.KVal0.lean ====
/-
  The value the row-sum kernel (launch 0) leaves in its result array.

  At each grid point the body leaves in the accumulator, and copies to the output block, the running row sums of
  exp (1 + x_i x_jᵀ / 128) over the column tiles seen so far in the current row tile; the block is written back
  after the last column tile, when the running sum is the whole row sum.
-/
import proofs.«153953_j64141041599004_1_alg».proof.Proof.KI0Body
import proofs.«153953_j64141041599004_1_alg».proof.Proof.KPay
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz0 : (![0, 0] : Fin 2 → Nat) = fun _ => 0 := funext fun a => by fin_cases a <;> rfl

/-- A load through the whole-shape rectangle of what a list of stores whose LAST is through that rectangle left reads
    the last store's payload. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-! ## What the body leaves, case by case -/

theorem out0_A_2_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i) (x0 x1 : Vec F S1024x128 .bf16) :
    out0_A_2 c i arg2 harg2 arg3 harg3 arg4 harg4 arg5 harg5 hc0 x0 x1 = k0_pay2 x0 x1 k0_pay1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero (S := S1024x1) hz0, readCov_cons_unit_zero (S := S1024x1) _ hz0,
    View.readCov_unit_zero (S := S1024x1) _ hz0]
  simp only [View.readAt_eq_ld, harg2.read_unread, harg3.read_unread, View.ld_unit_zero (S := S1024x128) hz0]

theorem sout0_A_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i) (x0 x1 : Vec F S1024x128 .bf16) :
    sout0_A c i arg2 harg2 arg3 harg3 arg4 harg4 arg5 harg5 hc0 x0 x1 = k0_pay2 x0 x1 k0_pay1 := by
  unfold sout0_A
  rw [View.read_writes_eq_canon _ _ _ (scover0_A c i arg2 harg2 arg3 harg3 arg4 harg4 arg5 harg5 hc0 x0 x1)]
  unfold kernelRun0_A
  dsimp only
  sl_unfold_words
  rw [View.canon_cons_unit_zero (S := S1024x1) hz0, View.readCov_unit_zero (S := S1024x1) _ hz0]
  simp only [View.readAt_eq_ld, harg2.read_unread, harg3.read_unread, View.ld_unit_zero (S := S1024x128) hz0]

theorem out0_B_2_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i) (x0 x1 : Vec F S1024x128 .bf16) (xs0 : Vec F S1024x1 .f32) :
    out0_B_2 c i arg2 harg2 arg3 harg3 arg4 harg4 arg5 harg5 hc0 x0 x1 xs0 = k0_pay2 x0 x1 xs0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero (S := S1024x1) hz0, View.readCov_unit_zero (S := S1024x1) _ hz0]
  simp only [View.readAt_eq_ld, harg2.read_unread, harg3.read_unread, harg5.read_unread,
    View.ld_unit_zero (S := S1024x128) hz0, View.ld_unit_zero (S := S1024x1) hz0]

theorem sout0_B_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i) (x0 x1 : Vec F S1024x128 .bf16) (xs0 : Vec F S1024x1 .f32) :
    sout0_B c i arg2 harg2 arg3 harg3 arg4 harg4 arg5 harg5 hc0 x0 x1 xs0 = k0_pay2 x0 x1 xs0 := by
  unfold sout0_B
  rw [View.read_writes_eq_canon _ _ _ (scover0_B c i arg2 harg2 arg3 harg3 arg4 harg4 arg5 harg5 hc0 x0 x1 xs0)]
  unfold kernelRun0_B
  dsimp only
  sl_unfold_words
  rw [View.canon_unit_zero (S := S1024x1) hz0]
  simp only [View.readAt_eq_ld, harg2.read_unread, harg3.read_unread, harg5.read_unread,
    View.ld_unit_zero (S := S1024x128) hz0, View.ld_unit_zero (S := S1024x1) hz0]

/-! ## The running sums -/

section Acc
variable (V : (c : Dev nD) → (b : Ref sig .tc) → Buf (Elt F) ((c : Thread nD τ).loc b))

/-- The accumulator after the body at point n: the tile's sums added to zero at the first column tile of a row
    tile, to what the point before left otherwise. -/
def acc0 (c : Dev nD) : (n : ℕ) → n < cfg0.N → Vec F S1024x1 .f32
  | 0, h => k0_pay2 (iblk0 V c 0 ⟨0, h⟩) (iblk0 V c 1 ⟨0, h⟩) k0_pay1
  | n + 1, h =>
    if (n + 1) % 8 = 0 then k0_pay2 (iblk0 V c 0 ⟨n + 1, h⟩) (iblk0 V c 1 ⟨n + 1, h⟩) k0_pay1
    else k0_pay2 (iblk0 V c 0 ⟨n + 1, h⟩) (iblk0 V c 1 ⟨n + 1, h⟩) (acc0 c n (Nat.lt_of_succ_lt h))

/-- After every point the output block and the accumulator both hold the running sums. -/
theorem outsAt0_eq (c : Dev nD) : ∀ (n : ℕ) (h : n < cfg0.N), outsAt0 V c n h = (acc0 V c n h, acc0 V c n h)
  | 0, h => by
    rw [outsAt0_A V c ⟨0, h⟩ rfl, out0_A_2_eq, sout0_A_eq]
    rfl
  | n + 1, h => by
    by_cases h0 : (n + 1) % 8 = 0
    · rw [outsAt0_A V c ⟨n + 1, h⟩ h0, out0_A_2_eq, sout0_A_eq]
      show (_, _) = (acc0 V c (n + 1) h, acc0 V c (n + 1) h)
      rw [acc0, if_pos h0]
    · rw [outsAt0_B V c ⟨n + 1, h⟩ h0, out0_B_2_eq, sout0_B_eq]
      show (k0_pay2 _ _ (outsAt0 V c n _).2, k0_pay2 _ _ (outsAt0 V c n _).2) = (acc0 V c (n + 1) h, acc0 V c (n + 1) h)
      rw [outsAt0_eq c n, acc0, if_neg h0]

end Acc

/-! ## At the extended reals: the running sums are partial row sums of E -/

section Value
open Idealize.ShloMosaic.ValueIdx
open Cert.Spec (Mat Em Dm gram sc rowSum mat)

variable (V : (c : Dev nD) → (b : Ref sig .tc) → Buf (Elt Ideal) ((c : Thread nD τ).loc b))

theorem N0 : cfg0.N = 64 := by decide

/-- Row p of row tile i. -/
def rw8 (i : Fin 8) (p : Fin 1024) : Fin 8192 := ⟨1024 * i.val + p.val, by omega⟩
/-- The row tile and the column tile of a grid point. -/
def ti0 (t : Fin cfg0.N) : Fin 8 := ⟨t.val / 8, by have := t.isLt; have := N0; omega⟩
def tj0 (t : Fin cfg0.N) : Fin 8 := ⟨t.val % 8, by omega⟩

/-- The windows' block indices over the grid, decided once. -/
theorem idx_facts0 : ∀ t : Fin cfg0.N, win0_0.index t 0 = t.val / 8 ∧ win0_0.index t 1 = 0
    ∧ win0_1.index t 0 = t.val % 8 ∧ win0_1.index t 1 = 0 ∧ win0_2.index t 0 = t.val / 8 ∧ win0_2.index t 1 = 0 :=
  (by decide +kernel : ∀ t : Fin grid0.N, win0_0.index t 0 = t.val / 8 ∧ win0_0.index t 1 = 0
    ∧ win0_1.index t 0 = t.val % 8 ∧ win0_1.index t 1 = 0 ∧ win0_2.index t 0 = t.val / 8 ∧ win0_2.index t 1 = 0)

/-- The input array as a matrix. -/
def X0 (c : Dev nD) : Mat := mat (V c main_v2)

theorem iblk0_0_apply (c : Dev nD) (t : Fin cfg0.N) (p : Fin 1024) (k : Fin 128) :
    (iblk0 V c 0 t : Vec Ideal S1024x128 .bf16) (ix2 p k) = X0 V c (rw8 (ti0 t) p) k := by
  unfold iblk0 X0 mat
  rw [View.read_apply]
  show V c main_v2 _ = V c main_v2 _
  congr 1
  funext a
  apply Fin.ext
  match a with
  | ⟨0, _⟩ =>
    show win0_0.index t 0 * 1024 + 1 * p.val = 1024 * (t.val / 8) + p.val
    rw [(idx_facts0 t).1]; omega
  | ⟨1, _⟩ =>
    show win0_0.index t 1 * 128 + 1 * k.val = k.val
    rw [(idx_facts0 t).2.1]; omega

theorem iblk0_1_apply (c : Dev nD) (t : Fin cfg0.N) (q : Fin 1024) (k : Fin 128) :
    (iblk0 V c 1 t : Vec Ideal S1024x128 .bf16) (ix2 q k) = X0 V c (rw8 (tj0 t) q) k := by
  unfold iblk0 X0 mat
  rw [View.read_apply]
  show V c main_v2 _ = V c main_v2 _
  congr 1
  funext a
  apply Fin.ext
  match a with
  | ⟨0, _⟩ =>
    show win0_1.index t 0 * 1024 + 1 * q.val = 1024 * (t.val % 8) + q.val
    rw [(idx_facts0 t).2.2.1]; omega
  | ⟨1, _⟩ =>
    show win0_1.index t 1 * 128 + 1 * k.val = k.val
    rw [(idx_facts0 t).2.2.2.1]; omega

/-- The sum of row r of E over column tile j. -/
def tsum (X : Mat) (r : Fin 8192) (j : Fin 8) : EReal := ∑ q : Fin 1024, Em X r (rw8 j q)
/-- The same with the tile a natural number: zero past the last tile. -/
def tsumN (X : Mat) (r : Fin 8192) (n : ℕ) : EReal := if h : n < 8 then tsum X r ⟨n, h⟩ else 0

/-- The two input blocks at a grid point. -/
def blkR (c : Dev nD) (t : Fin cfg0.N) : Vec Ideal S1024x128 .bf16 := iblk0 V c 0 t
def blkC (c : Dev nD) (t : Fin cfg0.N) : Vec Ideal S1024x128 .bf16 := iblk0 V c 1 t

/-- What one visit adds: the sum of the row of E over the visit's column tile. -/
theorem tile0 (c : Dev nD) (t : Fin cfg0.N) (p : Fin 1024) :
    ∑ q : Fin 1024, Ideal.exp (1 + (∑ k : Fin 128, blkR V c t (ix2 p k) * blkC V c t (ix2 q k)) * sc)
      = tsumN (X0 V c) (rw8 (ti0 t) p) (t.val % 8) := by
  unfold tsumN
  rw [dif_pos (Nat.mod_lt _ (by norm_num))]
  refine Finset.sum_congr rfl fun q _ => ?_
  unfold blkR blkC
  simp only [iblk0_0_apply, iblk0_1_apply]
  rfl

/-- One visit's stored value from its two summands. -/
theorem acc_step (x0 x1 : Vec Ideal S1024x128 .bf16) (xs : Vec Ideal S1024x1 .f32) (p : Fin 1024) (z : Fin 1) (a b : EReal)
    (ha : xs (ix2 p z) = a)
    (hb : ∑ q : Fin 1024, Ideal.exp (1 + (∑ k : Fin 128, x0 (ix2 p k) * x1 (ix2 q k)) * sc) = b) :
    Gen.k0_pay2 (F := Ideal) x0 x1 xs (ix2 p z) = a + b := by
  rw [KVal.pay2_apply, ha, hb]

/-- After the body at point n the accumulator holds, at row p, the sum of row (tile n / 8, p) of E over the column
    tiles 0 … n % 8. -/
theorem acc0_apply (c : Dev nD) : ∀ (n : ℕ) (h : n < cfg0.N) (p : Fin 1024) (z : Fin 1),
    acc0 V c n h (ix2 p z) = ∑ j ∈ Finset.range (n % 8 + 1), tsumN (X0 V c) (rw8 (ti0 ⟨n, h⟩) p) j
  | 0, h, p, z => by
    rw [acc0]
    refine (acc_step _ _ _ p z _ _ (KVal.pay1_apply _) (tile0 V c ⟨0, h⟩ p)).trans ?_
    rw [zero_add]
    show _ = ∑ j ∈ Finset.range 1, _
    rw [Finset.sum_range_one]
    rfl
  | n + 1, h, p, z => by
    by_cases h0 : (n + 1) % 8 = 0
    · rw [acc0, if_pos h0]
      refine (acc_step _ _ _ p z _ _ (KVal.pay1_apply _) (tile0 V c ⟨n + 1, h⟩ p)).trans ?_
      rw [zero_add]
      show tsumN _ _ ((n + 1) % 8) = ∑ j ∈ Finset.range ((n + 1) % 8 + 1), _
      rw [h0, Finset.sum_range_one]
    · rw [acc0, if_neg h0]
      refine (acc_step _ _ _ p z _ _ (acc0_apply c n _ p z) (tile0 V c ⟨n + 1, h⟩ p)).trans ?_
      have h1 : (n + 1) % 8 = n % 8 + 1 := by omega
      have h2 : ti0 ⟨n + 1, h⟩ = ti0 ⟨n, Nat.lt_of_succ_lt h⟩ := Fin.ext (by show (n + 1) / 8 = n / 8; omega)
      show _ + tsumN _ _ ((n + 1) % 8) = ∑ j ∈ Finset.range ((n + 1) % 8 + 1), _
      rw [h1, h2, Finset.sum_range_succ _ (n % 8 + 1)]

/-- The 8192 columns are the 8 column tiles times their 1024 columns. -/
def tileEquiv : Fin 8 × Fin 1024 ≃ Fin 8192 where
  toFun t := rw8 t.1 t.2
  invFun c := (⟨c.val / 1024, by omega⟩, ⟨c.val % 1024, by omega⟩)
  left_inv t := by
    refine Prod.ext (Fin.ext ?_) (Fin.ext ?_)
    · show (1024 * t.1.val + t.2.val) / 1024 = t.1.val
      omega
    · show (1024 * t.1.val + t.2.val) % 1024 = t.2.val
      omega
  right_inv c := by
    refine Fin.ext ?_
    show 1024 * (c.val / 1024) + c.val % 1024 = c.val
    omega

/-- All eight tiles' sums make the row sum. -/
theorem tsum_total (X : Mat) (r : Fin 8192) : ∑ j ∈ Finset.range 8, tsumN X r j = rowSum X r := by
  rw [Finset.sum_range]
  unfold rowSum
  rw [← Equiv.sum_comp tileEquiv (fun c => Em X r c), Fintype.sum_prod_type]
  refine Finset.sum_congr rfl fun j _ => ?_
  unfold tsumN
  rw [dif_pos j.isLt]
  rfl

end Value

/-! ## The result array -/

section Final
open Idealize.ShloMosaic.ValueIdx
open Cert.Spec (Mat Em rowSum mat)

variable (V : (c : Dev nD) → (b : Ref sig .tc) → Buf (Elt Ideal) ((c : Thread nD τ).loc b))

/-- The row sums of E as contents of the [8192,1] result array. -/
def G0 (c : Dev nD) : Buf (Elt Ideal) ((c : Thread nD τ).loc main_v3) :=
  fun i : S8192x1.Idx => rowSum (X0 V c) (i 0)

/-- The output window's blocks are whole over the grid. -/
theorem xsize_facts0 : ∀ t : Fin cfg0.N, win0_2.xsize (grid0.coords t) 0 = 1024 ∧ win0_2.xsize (grid0.coords t) 1 = 1 :=
  (by decide +kernel : ∀ t : Fin grid0.N, win0_2.xsize (grid0.coords t) 0 = 1024 ∧ win0_2.xsize (grid0.coords t) 1 = 1)

/-- Each write-back (after the last column tile of a row tile) writes that row tile's row sums. -/
theorem flushed_eq0 (c : Dev nD) (t : Fin cfg0.N) (hf : (cfg0.win 2).flush t = true) :
    (dat0 V c).flushed 2 t = ((cfg0.win 2).blk t).view.read (Elt Ideal) (G0 V c) := by
  have h7 : t.val % 8 = 7 := (flush0_2 t).mp hf
  show (cfg0.win 2).cut (grid0.coords t) ((dat0 V c).after 2 t) = _
  rw [after0_2, outsAt0_eq]
  funext j
  rw [View.read_apply]
  obtain ⟨p, z, rfl⟩ : ∃ (p : Fin 1024) (z : Fin 1), j = ix2 p z := ⟨j 0, j 1, eq_ix2 j⟩
  show acc0 V c t.val t.isLt (ix2 p z) = G0 V c _
  rw [acc0_apply V c t.val t.isLt p z, h7]
  show ∑ j ∈ Finset.range 8, _ = _
  rw [tsum_total]
  unfold G0
  congr 1
  apply Fin.ext
  show 1024 * (t.val / 8) + p.val = win0_2.index t 0 * 1024 + 1 * p.val
  rw [(idx_facts0 t).2.2.2.2.1]; omega

/-- Row r of the array lies in the block a point of row tile r / 1024 writes back. -/
theorem cover0 (t : Fin cfg0.N) (i : ((View.whole main_v3).slice (win0_2.rect t)).ty.Idx)
    (h0 : t.val / 8 * 1024 ≤ (i 0 : Nat) ∧ (i 0 : Nat) < t.val / 8 * 1024 + 1024) :
    i ∈ ((View.whole main_v3).slice (win0_2.rect t)).set := by
  rw [View.set_slice_whole, Rect.mem_set_unit]
  intro a
  have hi1 : (i 1 : Nat) < 1 := (i 1).isLt
  match a with
  | ⟨0, _⟩ =>
    show win0_2.index t 0 * win0_2.size 0 ≤ (i 0 : Nat) ∧ (i 0 : Nat) < win0_2.index t 0 * win0_2.size 0 + win0_2.xsize (grid0.coords t) 0
    rw [(idx_facts0 t).2.2.2.2.1, (xsize_facts0 t).1]
    exact h0
  | ⟨1, _⟩ =>
    show win0_2.index t 1 * win0_2.size 1 ≤ (i 1 : Nat) ∧ (i 1 : Nat) < win0_2.index t 1 * win0_2.size 1 + win0_2.xsize (grid0.coords t) 1
    rw [(idx_facts0 t).2.2.2.2.2, (xsize_facts0 t).2]
    show 0 * 1 ≤ (i 1 : Nat) ∧ (i 1 : Nat) < 0 * 1 + 1
    omega

/-- The last point of the row tile that holds row r. -/
def lastOf (r : ℕ) (hr : r < 8192) : Fin cfg0.N := ⟨8 * (r / 1024) + 7, by have := N0; omega⟩

/-- So the result array ends holding every row's sum: row r is written back with row tile r / 1024. -/
theorem final_out0 (c : Dev nD) : (dat0 V c).arrAt 2 cfg0.N = G0 V c :=
  (dat0 V c).arrAt_eq_of_cover 2 (G0 V c) (flushed_eq0 V c) fun i => by
    have hi0 : (i 0 : Nat) < 8192 := (i 0).isLt
    refine ⟨lastOf (i 0 : Nat) hi0, (flush0_2 _).mpr (by show (8 * ((i 0 : Nat) / 1024) + 7) % 8 = 7; omega), ?_⟩
    exact cover0 (lastOf (i 0 : Nat) hi0) i
      ⟨by show (8 * ((i 0 : Nat) / 1024) + 7) / 8 * 1024 ≤ (i 0 : Nat); omega,
       by show (i 0 : Nat) < (8 * ((i 0 : Nat) / 1024) + 7) / 8 * 1024 + 1024; omega⟩

end Final

end Cert.KernelIdeal.Hand

end
-- ==== Proof.KVal1.lean ====
/-
  The value the row-sum kernel (launch 1) leaves in its result array.

  At each grid point the body leaves in the accumulator, and copies to the output block, the running row sums of
  exp (1 + x_i x_jᵀ / 128) over the column tiles seen so far in the current row tile; the block is written back
  after the last column tile, when the running sum is the whole row sum.
-/
import proofs.«153953_j64141041599004_1_alg».proof.Proof.KI1Body
import proofs.«153953_j64141041599004_1_alg».proof.Proof.KVal0
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body leaves, case by case -/

theorem out1_A_2_eq (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i) (x0 x1 : Vec F S1024x128 .bf16) :
    out1_A_2 c i arg2 harg2 arg3 harg3 arg4 harg4 arg5 harg5 hc0 x0 x1 = k1_pay2 x0 x1 k1_pay1 := by
  unfold out1_A_2
  rw [View.read_writes_eq_canon _ _ _ (cover1_A_2 c i arg2 harg2 arg3 harg3 arg4 harg4 arg5 harg5 hc0 x0 x1)]
  unfold kernelRun1_A
  dsimp only
  sl_unfold_words
  rw [View.canon_unit_zero (S := S1024x1) hz0, readCov_cons_unit_zero (S := S1024x1) _ hz0,
    View.readCov_unit_zero (S := S1024x1) _ hz0]
  simp only [View.readAt_eq_ld, harg2.read_unread, harg3.read_unread, View.ld_unit_zero (S := S1024x128) hz0]

theorem sout1_A_eq (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i) (x0 x1 : Vec F S1024x128 .bf16) :
    sout1_A c i arg2 harg2 arg3 harg3 arg4 harg4 arg5 harg5 hc0 x0 x1 = k1_pay2 x0 x1 k1_pay1 := by
  unfold sout1_A
  rw [View.read_writes_eq_canon _ _ _ (scover1_A c i arg2 harg2 arg3 harg3 arg4 harg4 arg5 harg5 hc0 x0 x1)]
  unfold kernelRun1_A
  dsimp only
  sl_unfold_words
  rw [View.canon_cons_unit_zero (S := S1024x1) hz0, View.readCov_unit_zero (S := S1024x1) _ hz0]
  simp only [View.readAt_eq_ld, harg2.read_unread, harg3.read_unread, View.ld_unit_zero (S := S1024x128) hz0]

theorem out1_B_2_eq (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i) (x0 x1 : Vec F S1024x128 .bf16) (xs0 : Vec F S1024x1 .f32) :
    out1_B_2 c i arg2 harg2 arg3 harg3 arg4 harg4 arg5 harg5 hc0 x0 x1 xs0 = k1_pay2 x0 x1 xs0 := by
  unfold out1_B_2
  rw [View.read_writes_eq_canon _ _ _ (cover1_B_2 c i arg2 harg2 arg3 harg3 arg4 harg4 arg5 harg5 hc0 x0 x1 xs0)]
  unfold kernelRun1_B
  dsimp only
  sl_unfold_words
  rw [View.canon_unit_zero (S := S1024x1) hz0, View.readCov_unit_zero (S := S1024x1) _ hz0]
  simp only [View.readAt_eq_ld, harg2.read_unread, harg3.read_unread, harg5.read_unread,
    View.ld_unit_zero (S := S1024x128) hz0, View.ld_unit_zero (S := S1024x1) hz0]

theorem sout1_B_eq (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i) (x0 x1 : Vec F S1024x128 .bf16) (xs0 : Vec F S1024x1 .f32) :
    sout1_B c i arg2 harg2 arg3 harg3 arg4 harg4 arg5 harg5 hc0 x0 x1 xs0 = k1_pay2 x0 x1 xs0 := by
  unfold sout1_B
  rw [View.read_writes_eq_canon _ _ _ (scover1_B c i arg2 harg2 arg3 harg3 arg4 harg4 arg5 harg5 hc0 x0 x1 xs0)]
  unfold kernelRun1_B
  dsimp only
  sl_unfold_words
  rw [View.canon_unit_zero (S := S1024x1) hz0]
  simp only [View.readAt_eq_ld, harg2.read_unread, harg3.read_unread, harg5.read_unread,
    View.ld_unit_zero (S := S1024x128) hz0, View.ld_unit_zero (S := S1024x1) hz0]

/-! ## The running sums -/

section Acc
variable (V : (c : Dev nD) → (b : Ref sig .tc) → Buf (Elt F) ((c : Thread nD τ).loc b))

/-- The accumulator after the body at point n: the tile's sums added to zero at the first column tile of a row
    tile, to what the point before left otherwise. -/
def acc1 (c : Dev nD) : (n : ℕ) → n < cfg1.N → Vec F S1024x1 .f32
  | 0, h => k1_pay2 (iblk1 V c 0 ⟨0, h⟩) (iblk1 V c 1 ⟨0, h⟩) k1_pay1
  | n + 1, h =>
    if (n + 1) % 8 = 0 then k1_pay2 (iblk1 V c 0 ⟨n + 1, h⟩) (iblk1 V c 1 ⟨n + 1, h⟩) k1_pay1
    else k1_pay2 (iblk1 V c 0 ⟨n + 1, h⟩) (iblk1 V c 1 ⟨n + 1, h⟩) (acc1 c n (Nat.lt_of_succ_lt h))

/-- After every point the output block and the accumulator both hold the running sums. -/
theorem outsAt1_eq (c : Dev nD) : ∀ (n : ℕ) (h : n < cfg1.N), outsAt1 V c n h = (acc1 V c n h, acc1 V c n h)
  | 0, h => by
    rw [outsAt1_A V c ⟨0, h⟩ rfl, out1_A_2_eq, sout1_A_eq]
    rfl
  | n + 1, h => by
    by_cases h0 : (n + 1) % 8 = 0
    · rw [outsAt1_A V c ⟨n + 1, h⟩ h0, out1_A_2_eq, sout1_A_eq]
      show (_, _) = (acc1 V c (n + 1) h, acc1 V c (n + 1) h)
      rw [acc1, if_pos h0]
    · rw [outsAt1_B V c ⟨n + 1, h⟩ h0, out1_B_2_eq, sout1_B_eq]
      show (k1_pay2 _ _ (outsAt1 V c n _).2, k1_pay2 _ _ (outsAt1 V c n _).2) = (acc1 V c (n + 1) h, acc1 V c (n + 1) h)
      rw [outsAt1_eq c n, acc1, if_neg h0]

end Acc

/-! ## At the extended reals: the running sums are partial row sums of E -/

section Value
open Idealize.ShloMosaic.ValueIdx
open Cert.Spec (Mat Em Dm gram sc rowSum mat)

variable (V : (c : Dev nD) → (b : Ref sig .tc) → Buf (Elt Ideal) ((c : Thread nD τ).loc b))

theorem N1 : cfg1.N = 64 := by decide

/-- The row tile and the column tile of a grid point. -/
def ti1 (t : Fin cfg1.N) : Fin 8 := ⟨t.val / 8, by have := t.isLt; have := N1; omega⟩
def tj1 (t : Fin cfg1.N) : Fin 8 := ⟨t.val % 8, by omega⟩

/-- The windows' block indices over the grid, decided once. -/
theorem idx_facts1 : ∀ t : Fin cfg1.N, win1_0.index t 0 = t.val / 8 ∧ win1_0.index t 1 = 0
    ∧ win1_1.index t 0 = t.val % 8 ∧ win1_1.index t 1 = 0 ∧ win1_2.index t 0 = t.val / 8 ∧ win1_2.index t 1 = 0 :=
  (by decide +kernel : ∀ t : Fin grid1.N, win1_0.index t 0 = t.val / 8 ∧ win1_0.index t 1 = 0
    ∧ win1_1.index t 0 = t.val % 8 ∧ win1_1.index t 1 = 0 ∧ win1_2.index t 0 = t.val / 8 ∧ win1_2.index t 1 = 0)

/-- The input array as a matrix. -/
def X1 (c : Dev nD) : Mat := mat (V c main_v55)

theorem iblk1_0_apply (c : Dev nD) (t : Fin cfg1.N) (p : Fin 1024) (k : Fin 128) :
    (iblk1 V c 0 t : Vec Ideal S1024x128 .bf16) (ix2 p k) = X1 V c (rw8 (ti1 t) p) k := by
  unfold iblk1 X1 mat
  rw [View.read_apply]
  show V c main_v55 _ = V c main_v55 _
  congr 1
  funext a
  apply Fin.ext
  match a with
  | ⟨0, _⟩ =>
    show win1_0.index t 0 * 1024 + 1 * p.val = 1024 * (t.val / 8) + p.val
    rw [(idx_facts1 t).1]; omega
  | ⟨1, _⟩ =>
    show win1_0.index t 1 * 128 + 1 * k.val = k.val
    rw [(idx_facts1 t).2.1]; omega

theorem iblk1_1_apply (c : Dev nD) (t : Fin cfg1.N) (q : Fin 1024) (k : Fin 128) :
    (iblk1 V c 1 t : Vec Ideal S1024x128 .bf16) (ix2 q k) = X1 V c (rw8 (tj1 t) q) k := by
  unfold iblk1 X1 mat
  rw [View.read_apply]
  show V c main_v55 _ = V c main_v55 _
  congr 1
  funext a
  apply Fin.ext
  match a with
  | ⟨0, _⟩ =>
    show win1_1.index t 0 * 1024 + 1 * q.val = 1024 * (t.val % 8) + q.val
    rw [(idx_facts1 t).2.2.1]; omega
  | ⟨1, _⟩ =>
    show win1_1.index t 1 * 128 + 1 * k.val = k.val
    rw [(idx_facts1 t).2.2.2.1]; omega

/-- The two input blocks at a grid point. -/
def blkR1 (c : Dev nD) (t : Fin cfg1.N) : Vec Ideal S1024x128 .bf16 := iblk1 V c 0 t
def blkC1 (c : Dev nD) (t : Fin cfg1.N) : Vec Ideal S1024x128 .bf16 := iblk1 V c 1 t

/-- What one visit adds: the sum of the row of E over the visit's column tile. -/
theorem tile1 (c : Dev nD) (t : Fin cfg1.N) (p : Fin 1024) :
    ∑ q : Fin 1024, Ideal.exp (1 + (∑ k : Fin 128, blkR1 V c t (ix2 p k) * blkC1 V c t (ix2 q k)) * sc)
      = tsumN (X1 V c) (rw8 (ti1 t) p) (t.val % 8) := by
  unfold tsumN
  rw [dif_pos (Nat.mod_lt _ (by norm_num))]
  refine Finset.sum_congr rfl fun q _ => ?_
  unfold blkR1 blkC1
  simp only [iblk1_0_apply, iblk1_1_apply]
  rfl

/-- One visit's stored value from its two summands. -/
theorem acc_step1 (x0 x1 : Vec Ideal S1024x128 .bf16) (xs : Vec Ideal S1024x1 .f32) (p : Fin 1024) (z : Fin 1) (a b : EReal)
    (ha : xs (ix2 p z) = a)
    (hb : ∑ q : Fin 1024, Ideal.exp (1 + (∑ k : Fin 128, x0 (ix2 p k) * x1 (ix2 q k)) * sc) = b) :
    Gen.k1_pay2 (F := Ideal) x0 x1 xs (ix2 p z) = a + b := by
  rw [KVal.pay2_apply', ha, hb]

/-- After the body at point n the accumulator holds, at row p, the sum of row (tile n / 8, p) of E over the column
    tiles 0 … n % 8. -/
theorem acc1_apply (c : Dev nD) : ∀ (n : ℕ) (h : n < cfg1.N) (p : Fin 1024) (z : Fin 1),
    acc1 V c n h (ix2 p z) = ∑ j ∈ Finset.range (n % 8 + 1), tsumN (X1 V c) (rw8 (ti1 ⟨n, h⟩) p) j
  | 0, h, p, z => by
    rw [acc1]
    refine (acc_step1 _ _ _ p z _ _ (KVal.pay1_apply' _) (tile1 V c ⟨0, h⟩ p)).trans ?_
    rw [zero_add]
    show _ = ∑ j ∈ Finset.range 1, _
    rw [Finset.sum_range_one]
    rfl
  | n + 1, h, p, z => by
    by_cases h0 : (n + 1) % 8 = 0
    · rw [acc1, if_pos h0]
      refine (acc_step1 _ _ _ p z _ _ (KVal.pay1_apply' _) (tile1 V c ⟨n + 1, h⟩ p)).trans ?_
      rw [zero_add]
      show tsumN _ _ ((n + 1) % 8) = ∑ j ∈ Finset.range ((n + 1) % 8 + 1), _
      rw [h0, Finset.sum_range_one]
    · rw [acc1, if_neg h0]
      refine (acc_step1 _ _ _ p z _ _ (acc1_apply c n _ p z) (tile1 V c ⟨n + 1, h⟩ p)).trans ?_
      have h1 : (n + 1) % 8 = n % 8 + 1 := by omega
      have h2 : ti1 ⟨n + 1, h⟩ = ti1 ⟨n, Nat.lt_of_succ_lt h⟩ := Fin.ext (by show (n + 1) / 8 = n / 8; omega)
      show _ + tsumN _ _ ((n + 1) % 8) = ∑ j ∈ Finset.range ((n + 1) % 8 + 1), _
      rw [h1, h2, Finset.sum_range_succ _ (n % 8 + 1)]

end Value

/-! ## The result array -/

section Final
open Idealize.ShloMosaic.ValueIdx
open Cert.Spec (Mat Em rowSum mat)

variable (V : (c : Dev nD) → (b : Ref sig .tc) → Buf (Elt Ideal) ((c : Thread nD τ).loc b))

/-- The row sums of E as contents of the [8192,1] result array. -/
def G1 (c : Dev nD) : Buf (Elt Ideal) ((c : Thread nD τ).loc main_v56) :=
  fun i : S8192x1.Idx => rowSum (X1 V c) (i 0)

/-- The output window's blocks are whole over the grid. -/
theorem xsize_facts1 : ∀ t : Fin cfg1.N, win1_2.xsize (grid1.coords t) 0 = 1024 ∧ win1_2.xsize (grid1.coords t) 1 = 1 :=
  (by decide +kernel : ∀ t : Fin grid1.N, win1_2.xsize (grid1.coords t) 0 = 1024 ∧ win1_2.xsize (grid1.coords t) 1 = 1)

/-- Each write-back (after the last column tile of a row tile) writes that row tile's row sums. -/
theorem flushed_eq1 (c : Dev nD) (t : Fin cfg1.N) (hf : (cfg1.win 2).flush t = true) :
    (dat1 V c).flushed 2 t = ((cfg1.win 2).blk t).view.read (Elt Ideal) (G1 V c) := by
  have h7 : t.val % 8 = 7 := (flush1_2 t).mp hf
  show (cfg1.win 2).cut (grid1.coords t) ((dat1 V c).after 2 t) = _
  rw [after1_2, outsAt1_eq]
  funext j
  rw [View.read_apply]
  obtain ⟨p, z, rfl⟩ : ∃ (p : Fin 1024) (z : Fin 1), j = ix2 p z := ⟨j 0, j 1, eq_ix2 j⟩
  show acc1 V c t.val t.isLt (ix2 p z) = G1 V c _
  rw [acc1_apply V c t.val t.isLt p z, h7]
  show ∑ j ∈ Finset.range 8, _ = _
  rw [tsum_total]
  unfold G1
  congr 1
  apply Fin.ext
  show 1024 * (t.val / 8) + p.val = win1_2.index t 0 * 1024 + 1 * p.val
  rw [(idx_facts1 t).2.2.2.2.1]; omega

/-- Row r of the array lies in the block a point of row tile r / 1024 writes back. -/
theorem cover1 (t : Fin cfg1.N) (i : ((View.whole main_v56).slice (win1_2.rect t)).ty.Idx)
    (h0 : t.val / 8 * 1024 ≤ (i 0 : Nat) ∧ (i 0 : Nat) < t.val / 8 * 1024 + 1024) :
    i ∈ ((View.whole main_v56).slice (win1_2.rect t)).set := by
  rw [View.set_slice_whole, Rect.mem_set_unit]
  intro a
  have hi1 : (i 1 : Nat) < 1 := (i 1).isLt
  match a with
  | ⟨0, _⟩ =>
    show win1_2.index t 0 * win1_2.size 0 ≤ (i 0 : Nat) ∧ (i 0 : Nat) < win1_2.index t 0 * win1_2.size 0 + win1_2.xsize (grid1.coords t) 0
    rw [(idx_facts1 t).2.2.2.2.1, (xsize_facts1 t).1]
    exact h0
  | ⟨1, _⟩ =>
    show win1_2.index t 1 * win1_2.size 1 ≤ (i 1 : Nat) ∧ (i 1 : Nat) < win1_2.index t 1 * win1_2.size 1 + win1_2.xsize (grid1.coords t) 1
    rw [(idx_facts1 t).2.2.2.2.2, (xsize_facts1 t).2]
    show 0 * 1 ≤ (i 1 : Nat) ∧ (i 1 : Nat) < 0 * 1 + 1
    omega

/-- The last point of the row tile that holds row r. -/
def lastOf1 (r : ℕ) (hr : r < 8192) : Fin cfg1.N := ⟨8 * (r / 1024) + 7, by have := N1; omega⟩

/-- So the result array ends holding every row's sum: row r is written back with row tile r / 1024. -/
theorem final_out1 (c : Dev nD) : (dat1 V c).arrAt 2 cfg1.N = G1 V c :=
  (dat1 V c).arrAt_eq_of_cover 2 (G1 V c) (flushed_eq1 V c) fun i => by
    have hi0 : (i 0 : Nat) < 8192 := (i 0).isLt
    refine ⟨lastOf1 (i 0 : Nat) hi0, (flush1_2 _).mpr (by show (8 * ((i 0 : Nat) / 1024) + 7) % 8 = 7; omega), ?_⟩
    exact cover1 (lastOf1 (i 0 : Nat) hi0) i
      ⟨by show (8 * ((i 0 : Nat) / 1024) + 7) / 8 * 1024 ≤ (i 0 : Nat); omega,
       by show (i 0 : Nat) < (8 * ((i 0 : Nat) / 1024) + 7) / 8 * 1024 + 1024; omega⟩

end Final

end Cert.KernelIdeal.Hand

end
-- ==== Proof.KerRun.lean ====
/-
  The idealized kernel program's run, with its result named: on every core the result buffer ends holding the loss of
  the first argument plus the loss of the mixed matrix, and the two arguments end as launched.

  The run itself leaves the result buffer at the host operations' value over what the two launches wrote; each launch
  writes the row sums of exp (1 + D) of the matrix it read, and it read the first argument, respectively the mixed
  matrix; the host operations then compute the loss from those row sums, which is the loss itself.
-/
import proofs.«153953_j64141041599004_1_alg».proof.Proof.KerHost
import proofs.«153953_j64141041599004_1_alg».proof.Proof.KIRun
import proofs.«153953_j64141041599004_1_alg».proof.Proof.KVal0
import proofs.«153953_j64141041599004_1_alg».proof.Proof.KVal1

noncomputable section

namespace Cert.KernelIdeal.KerHost

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The first launch leaves the row sums of the first argument. -/
theorem out0_eq (c : Dev nD) (r : Fin 8192) :
    (Hand.outsV m 2 main_v3 c : S8192x1.Idx → EReal) (ix2 r (0 : Fin 1))
      = Cert.Spec.rowSum (Cert.Spec.mat (m ((c : Thread nD τ).loc main_arg0) : S8192x128.Idx → EReal)) r := by
  rw [Hand.outsV_2, Hand.final_out0]
  show Cert.Spec.rowSum (Cert.Spec.mat (V1 m c main_v2 : S8192x128.Idx → EReal)) r = _
  rw [v2_eq]

/-- The second launch leaves the row sums of the mixed matrix. -/
theorem out1_eq (c : Dev nD) (r : Fin 8192) :
    (Hand.outsV m 8 main_v56 c : S8192x1.Idx → EReal) (ix2 r (0 : Fin 1))
      = Cert.Spec.rowSum (Cert.Spec.mix (Cert.Spec.mat (m ((c : Thread nD τ).loc main_arg0) : S8192x128.Idx → EReal))
          (Cert.Spec.mat1 (m ((c : Thread nD τ).loc main_arg1) : S4096x128.Idx → EReal))) r := by
  rw [Hand.outsV_8, Hand.final_out1]
  show Cert.Spec.rowSum (Cert.Spec.mat (V7 m (Hand.outsA m) c main_v55 : S8192x128.Idx → EReal)) r = _
  rw [v55_eq]

/-- The result buffer's last contents are the total. -/
theorem result_eq (c : Dev nD) : (V9 m (Hand.outsV m) c main_v102 : S_.Idx → EReal) = fun _ =>
    Cert.Spec.total (Cert.Spec.mat (m ((c : Thread nD τ).loc main_arg0) : S8192x128.Idx → EReal))
      (Cert.Spec.mat1 (m ((c : Thread nD τ).loc main_arg1) : S4096x128.Idx → EReal)) := by
  rw [v102_eq]
  funext _
  simp only [out0_eq, out1_eq]
  rfl

/-- The run, with the result named. -/
theorem ker_run (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v102) = (fun _ => Cert.Spec.total
          (Cert.Spec.mat (m ((c.tc : Thread nD τ).loc main_arg0) : S8192x128.Idx → EReal))
          (Cert.Spec.mat1 (m ((c.tc : Thread nD τ).loc main_arg1) : S4096x128.Idx → EReal)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c).1.trans (result_eq m c), (h c).2⟩) (Hand.run_val m ρ)

end Cert.KernelIdeal.KerHost

end
-- ==== Proof.KB0Runs.lean ====
/-
  What the runs of the row-sum kernel body (launch 0) share: the branch condition "second grid coordinate is
  zero" decided over the 8 x 8 grid, the staging and scratch memrefs the body is called with, and the
  region invariant with the accumulator buffer singled out of the kernel's scoped buffers.
-/
import proofs.«153953_j64141041599004_1_alg».proof.Proof.Gen.Kernel.Launch
import proofs.«153953_j64141041599004_1_alg».proof.Proof.Gen.Kernel.Skeleton
import proofs.«153953_j64141041599004_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the second grid coordinate is zero (the first column tile of a row tile). -/
abbrev cond0 (i : grid0.Coords) : Prop := (Scalar.cmpi .ne (Scalar.extui (Scalar.cmpi .eq (BitVec.ofNat 32 (i 1).val) 0#32)) 0#32) = 1#1
/-- It holds exactly at the points that start a row of the grid. -/
theorem hcond0 : ∀ t : Fin cfg0.N, cond0 (grid0.coords t) ↔ t.val % 8 = 0 :=
  (by decide +kernel : ∀ t : Fin grid0.N, cond0 (grid0.coords t) ↔ t.val % 8 = 0)

/-- No window is ever idle: the body stores the output block at every point. -/
theorem live0_0 : ∀ i, cfg0.idle 0 i = false := fun _ => rfl
theorem live0_1 : ∀ i, cfg0.idle 1 i = false := fun _ => rfl
theorem live0_2 : ∀ i, cfg0.idle 2 i = false := fun _ => rfl

/-- One staging buffer of the output window, through which its contents are stated. -/
abbrev VO0 : View sig .tc .vmem S1024x1 .f32 := (Memref.whole cc0_stg2_0 : Memref sig .tc .vmem S1024x1 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x1 .f32 := Memref.whole cc0_scratch0
abbrev VS0 : View sig .tc .vmem S1024x1 .f32 := scM0.view

end Cert.Kernel.Hand

end
-- ==== Proof.KB0RunA.lean ====
/-
  The row-sum kernel body (launch 0) run at a point that starts a row of the grid: the accumulator is first reset,
  then the tile's contribution is added, and the accumulator is copied to the output block.  The pieces each buffer
  ends with are found by the run.
-/
import proofs.«153953_j64141041599004_1_alg».proof.Proof.KB0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the branch is taken, on whole memrefs: the inputs at their contents, the output
    block and the accumulator at anything; it ends with the inputs as they were and the pieces written. -/
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i)
    (x0 : Vec F S1024x128 .bf16) (x1 : Vec F S1024x128 .bf16) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB0RunB.lean ====
/-
  The row-sum kernel body (launch 0) run at a point that continues a row of the grid: the accumulator holds what
  the point before left; the tile's contribution is added and the accumulator is copied to the output block.
-/
import proofs.«153953_j64141041599004_1_alg».proof.Proof.KB0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the branch is not taken, on whole memrefs: the inputs at their contents, the
    accumulator at the carried contents, the output block at anything. -/
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i)
    (x0 : Vec F S1024x128 .bf16) (x1 : Vec F S1024x128 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB0Data.lean ====
/-
  The proof data of the row-sum kernel (launch 0) at region-entry contents V, and the body obligation.

  After the body at grid point t = 8 * i + j the accumulator and the output block both hold the sum, over the column
  tiles 0..j of row tile i, of the tile's row sums of exp (1 + x_i . x_j^T / 128): at j = 0 the accumulator is reset
  before the tile is added, at j > 0 it is added to what the point before left.  The output block is written back
  only at j = 7, when it holds the whole row sum.
-/
import proofs.«153953_j64141041599004_1_alg».proof.Proof.KB0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the pieces read back -/

theorem cover0_A_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i) (x0 : Vec F S1024x128 .bf16) (x1 : Vec F S1024x128 .bf16) (y : S1024x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1024x1.size (by sl_kernel_rfl) y
def out0_A_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i) (x0 : Vec F S1024x128 .bf16) (x1 : Vec F S1024x128 .bf16) : Vec F S1024x1 .f32 :=
  VO0.read (Elt F) (VO0.writes (Elt F) VO0.junk (kernelRun0_A c i arg2 harg2 arg3 harg3 arg4 harg4 arg5 harg5 hc0 x0 x1).1)
theorem scover0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i) (x0 : Vec F S1024x128 .bf16) (x1 : Vec F S1024x128 .bf16) (y : S1024x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1024x1.size (by sl_kernel_rfl) y
def sout0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond0 i) (x0 : Vec F S1024x128 .bf16) (x1 : Vec F S1024x128 .bf16) : Vec F S1024x1 .f32 :=
  VS0.read (Elt F) (VS0.writes (Elt F) VS0.junk (kernelRun0_A c i arg2 harg2 arg3 harg3 arg4 harg4 arg5 harg5 hc0 x0 x1).2.1)

theorem cover0_B_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i) (x0 : Vec F S1024x128 .bf16) (x1 : Vec F S1024x128 .bf16) (xs0 : Vec F S1024x1 .f32) (y : S1024x1.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S1024x1.size (by sl_kernel_rfl) y
def out0_B_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i) (x0 : Vec F S1024x128 .bf16) (x1 : Vec F S1024x128 .bf16) (xs0 : Vec F S1024x1 .f32) : Vec F S1024x1 .f32 :=
  VO0.read (Elt F) (VO0.writes (Elt F) VO0.junk (kernelRun0_B c i arg2 harg2 arg3 harg3 arg4 harg4 arg5 harg5 hc0 x0 x1 xs0).1)
theorem scover0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i) (x0 : Vec F S1024x128 .bf16) (x1 : Vec F S1024x128 .bf16) (xs0 : Vec F S1024x1 .f32) (y : S1024x1.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S1024x1.size (by sl_kernel_rfl) y
def sout0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond0 i) (x0 : Vec F S1024x128 .bf16) (x1 : Vec F S1024x128 .bf16) (xs0 : Vec F S1024x1 .f32) : Vec F S1024x1 .f32 :=
  VS0.read (Elt F) (VS0.writes (Elt F) VS0.junk (kernelRun0_B c i arg2 harg2 arg3 harg3 arg4 harg4 arg5 harg5 hc0 x0 x1 xs0).2.1)

/-! ## The accumulation, point by point -/

/-- What the output block and the accumulator hold after the body at position n. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
              sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩),
       sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The kernel's other scoped buffers (the other launch's staging and accumulator), each whole at some contents. -/
def others0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region invariant: before the first point every scoped buffer at anything; afterwards the accumulator at
    what the point before left, the others at anything, the generator register at some state. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ others0 c) ∗ (∃ r, prngReg c r)) := by
  cases n with
  | zero => exact absurd rfl hz
  | succ n => rfl

/-- The class invariant with the accumulator singled out. -/
theorem PhiA0_split (c : Dev nD) :
    (Pipeline.ΦA spec0 c : sProp 𝕄) ⊢ iprop(((∃ d, owns (c : Thread nD τ) scM0 fullShare d) ∗ others0 c) ∗ (∃ r, prngReg c r)) := by
  unfold Pipeline.ΦA others0; rw [scopedRest0_eq]; simp only [scM0, owns_whole]
  iintro ⟨⟨HS, H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg
theorem PhiA0_join (c : Dev nD) :
    iprop(((∃ d, owns (c : Thread nD τ) scM0 fullShare d) ∗ others0 c) ∗ (∃ r, prngReg c r)) ⊢ (Pipeline.ΦA spec0 c : sProp 𝕄) := by
  unfold Pipeline.ΦA others0; rw [scopedRest0_eq]; simp only [scM0, owns_whole]
  iintro ⟨⟨HS, H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-! ## The proof data -/

/-- The proof data of launch 0 on core c: the arrays as the region finds them; after the body each input's
    buffer at its block, the output's at the accumulated sums; the two input windows each hold half of the one
    array they share; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Hand

end
-- ==== Proof.KB0Body.lean ====
/-
  The body obligation of the row-sum kernel (launch 0): at every grid point the body, handed the two input blocks,
  the output block's buffer and the accumulator as the invariant names it, leaves the accumulated sums in both.
-/
import proofs.«153953_j64141041599004_1_alg».proof.Proof.KB0Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  rw [show (dat0 V c).leavesExact 2 t = owns (c : Thread nD τ) (ms0_2 t) fullShare ((dat0 V c).after 2 t) from rfl, after0_2]
  by_cases h0 : t.val % 8 = 0
  · rw [outsAt0_A V c t h0]
    unfold out0_A_2 sout0_A; (try dsimp only)
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA0_split c) $$ HΦ
      icases HΦ' with ⟨⟨HS0, HR⟩, Hg⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · rw [outsAt0_B V c t h0]
    unfold out0_B_2 sout0_B; (try dsimp only)
    have hz : t.val ≠ 0 := fun e => h0 (by rw [e])
    rw [PhiS0_castSucc V c t, PhiS0_pos V c _ _ hz]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  have h : iprop((owns (c : Thread nD τ) scM0 fullShare ((outsAt0 V c (t.val - 1) (by omega)).2) ∗ others0 c) ∗ (∃ r, prngReg c r))
      ⊢ (iprop(((∃ d, owns (c : Thread nD τ) scM0 fullShare d) ∗ others0 c) ∗ (∃ r, prngReg c r)) : sProp 𝕄) := by
    iintro ⟨⟨HS0, HR⟩, Hg⟩
    isplitr [Hg]
    · isplitl [HS0]
      · iexists _; iexact HS0
      iexact HR
    iexact Hg
  exact h.trans (PhiA0_join c)

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.KB0Arr.lean ====
/-
  The launch side of the row-sum kernel (launch 0) when its two input windows read ONE array: the full share of
  that array's buffer is dealt in two halves, one per window, at entry and joined again at exit; the output
  window's array is held whole.
-/
import proofs.«153953_j64141041599004_1_alg».proof.Proof.KB0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays: two. -/
theorem arr_image0 : Finset.univ.image (Pipeline.arrRef spec0) = {main_v2, main_v3} := by decide

/-- The windows' arrays, one by one: the shared input at its two halves, the output whole. -/
theorem arrays_form0 (c : Dev nD) (F : (w : Fin cfg0.W) → Buf (Elt F) ((cfg0.win w).arr.view.loc (c : Thread nD τ))) :
    ((dat0 V c).arrays F : sProp 𝕄)
      = iprop((((c : Thread nD τ).loc main_v2) ↦{fullShare.left} F 0) ∗ (((c : Thread nD τ).loc main_v2) ↦{fullShare.right} F 1) ∗ (((c : Thread nD τ).loc main_v3) ↦{fullShare} F 2)) := by
  unfold Dat.arrays; rw [bigSep_W0]
  rw [(arr_whole0 0).set_eq_univ, (arr_whole0 2).set_eq_univ]
  rfl

/-- The two buffers, each whole. -/
theorem arrBufs_form0 (c : Dev nD) (V' : (b : Ref sig .tc) → Buf (Elt F) ((c : Thread nD τ).loc b)) :
    (Pipeline.arrBufs spec0 c V' : sProp 𝕄)
      = iprop((((c : Thread nD τ).loc main_v2) ↦{fullShare} V' main_v2) ∗ (((c : Thread nD τ).loc main_v3) ↦{fullShare} V' main_v3)) := by
  unfold Pipeline.arrBufs; rw [arr_image0, bigSep_insert (by decide), bigSep_singleton]; rfl

/-- ENTRY: the two buffers, each whole at the region-entry contents, make the windows' arrays. -/
theorem hsplit0 (c : Dev nD) : (Pipeline.arrBufs spec0 c (V c) : sProp 𝕄) ⊢ (dat0 V c).arrays ((dat0 V c).arrAt · 0) := by
  rw [arrays_form0, arrBufs_form0]
  iintro ⟨H2, H3⟩
  ihave H2' := (pointsTo_share (PosShare.mem_left_op_right fullShare)).1 $$ H2
  icases H2' with ⟨Hl, Hr⟩
  isplitl [Hl]; · iexact Hl
  isplitl [Hr]; · iexact Hr
  iexact H3

/-- EXIT: the windows' arrays at contents that agree on the shared buffer make the two buffers whole again. -/
theorem hjoin0 (c : Dev nD) (V' : (b : Ref sig .tc) → Buf (Elt F) ((c : Thread nD τ).loc b))
    (F : (w : Fin cfg0.W) → Buf (Elt F) ((cfg0.win w).arr.view.loc (c : Thread nD τ)))
    (h0 : F 0 = V' main_v2) (h1 : F 1 = V' main_v2) (h2 : F 2 = V' main_v3) :
    ((dat0 V c).arrays F : sProp 𝕄) ⊢ Pipeline.arrBufs spec0 c V' := by
  rw [arrays_form0, arrBufs_form0, h0, h1, h2]
  iintro ⟨Hl, Hr, H3⟩
  isplitl [Hl Hr]
  · iapply (pointsTo_share (PosShare.mem_left_op_right fullShare)).2
    isplitl [Hl]; · iexact Hl
    iexact Hr
  iexact H3

/-- A core's unscoped buffers are the buffers behind the windows' arrays and the rest. -/
theorem ub_split0 (c : Dev nD) (V' : (b : Ref sig .tc) → Buf (Elt F) ((c : Thread nD τ).loc b)) :
    (unscopedBufs c V' : sProp 𝕄) = iprop((Pipeline.arrBufs spec0 c V' : sProp 𝕄) ∗ Pipeline.unscopedRest spec0 c V') := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs Pipeline.unscopedRest Pipeline.arrBufs
  rw [bigSep_sdiff_split hA]
  rfl

/-- The rest is the same at two valuations that agree off the two buffers. -/
theorem rest_congr0 (c : Dev nD) (V₁ V₂ : (b : Ref sig .tc) → Buf (Elt F) ((c : Thread nD τ).loc b))
    (h : ∀ b, b ∉ Finset.univ.image (Pipeline.arrRef spec0) → V₂ b = V₁ b) :
    (Pipeline.unscopedRest spec0 c V₁ : sProp 𝕄) = Pipeline.unscopedRest spec0 c V₂ := by
  unfold Pipeline.unscopedRest
  exact bigSep_congr fun b hb => by rw [h b (Finset.mem_sdiff.mp hb).2]

end Cert.Kernel.Hand

end
-- ==== Proof.KB1Runs.lean ====
/-
  What the runs of the row-sum kernel body (launch 1) share: the branch condition "second grid coordinate is
  zero" decided over the 8 x 8 grid, the staging and scratch memrefs the body is called with, and the
  region invariant with the accumulator buffer singled out of the kernel's scoped buffers.
-/
import proofs.«153953_j64141041599004_1_alg».proof.Proof.Gen.Kernel.Launch
import proofs.«153953_j64141041599004_1_alg».proof.Proof.Gen.Kernel.Skeleton
import proofs.«153953_j64141041599004_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the second grid coordinate is zero (the first column tile of a row tile). -/
abbrev cond1 (i : grid1.Coords) : Prop := (Scalar.cmpi .ne (Scalar.extui (Scalar.cmpi .eq (BitVec.ofNat 32 (i 1).val) 0#32)) 0#32) = 1#1
/-- It holds exactly at the points that start a row of the grid. -/
theorem hcond1 : ∀ t : Fin cfg1.N, cond1 (grid1.coords t) ↔ t.val % 8 = 0 :=
  (by decide +kernel : ∀ t : Fin grid1.N, cond1 (grid1.coords t) ↔ t.val % 8 = 0)

/-- No window is ever idle: the body stores the output block at every point. -/
theorem live1_0 : ∀ i, cfg1.idle 0 i = false := fun _ => rfl
theorem live1_1 : ∀ i, cfg1.idle 1 i = false := fun _ => rfl
theorem live1_2 : ∀ i, cfg1.idle 2 i = false := fun _ => rfl

/-- One staging buffer of the output window, through which its contents are stated. -/
abbrev VO1 : View sig .tc .vmem S1024x1 .f32 := (Memref.whole cc1_stg2_0 : Memref sig .tc .vmem S1024x1 .f32).view
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x1 .f32 := Memref.whole cc1_scratch0
abbrev VS1 : View sig .tc .vmem S1024x1 .f32 := scM1.view

end Cert.Kernel.Hand

end
-- ==== Proof.KB1RunA.lean ====
/-
  The row-sum kernel body (launch 1) run at a point that starts a row of the grid: the accumulator is first reset,
  then the tile's contribution is added, and the accumulator is copied to the output block.  The pieces each buffer
  ends with are found by the run.
-/
import proofs.«153953_j64141041599004_1_alg».proof.Proof.KB1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the branch is taken, on whole memrefs: the inputs at their contents, the output
    block and the accumulator at anything; it ends with the inputs as they were and the pieces written. -/
noncomputable def kernelRun1_A (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i)
    (x0 : Vec F S1024x128 .bf16) (x1 : Vec F S1024x128 .bf16) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__rowsum_kernel i arg2 harg2 arg3 harg3 arg4 harg4 arg5 harg5) K } := by
  refine ⟨?_, ?_, fun E K => ?run⟩
  case run =>
    simp only [cc1__rowsum_kernel_eq_skeleton]; unfold cc1__rowsum_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB1RunB.lean ====
/-
  The row-sum kernel body (launch 1) run at a point that continues a row of the grid: the accumulator holds what
  the point before left; the tile's contribution is added and the accumulator is copied to the output block.
-/
import proofs.«153953_j64141041599004_1_alg».proof.Proof.KB1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the branch is not taken, on whole memrefs: the inputs at their contents, the
    accumulator at the carried contents, the output block at anything. -/
noncomputable def kernelRun1_B (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i)
    (x0 : Vec F S1024x128 .bf16) (x1 : Vec F S1024x128 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__rowsum_kernel i arg2 harg2 arg3 harg3 arg4 harg4 arg5 harg5) K } := by
  refine ⟨?_, ?_, fun E K => ?run⟩
  case run =>
    simp only [cc1__rowsum_kernel_eq_skeleton]; unfold cc1__rowsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB1Data.lean ====
/-
  The proof data of the row-sum kernel (launch 1) at region-entry contents V, and the body obligation.

  After the body at grid point t = 8 * i + j the accumulator and the output block both hold the sum, over the column
  tiles 0..j of row tile i, of the tile's row sums of exp (1 + x_i . x_j^T / 128): at j = 0 the accumulator is reset
  before the tile is added, at j > 0 it is added to what the point before left.  The output block is written back
  only at j = 7, when it holds the whole row sum.
-/
import proofs.«153953_j64141041599004_1_alg».proof.Proof.KB1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the pieces read back -/

theorem cover1_A_2 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i) (x0 : Vec F S1024x128 .bf16) (x1 : Vec F S1024x128 .bf16) (y : S1024x1.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1024x1.size (by sl_kernel_rfl) y
def out1_A_2 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i) (x0 : Vec F S1024x128 .bf16) (x1 : Vec F S1024x128 .bf16) : Vec F S1024x1 .f32 :=
  VO1.read (Elt F) (VO1.writes (Elt F) VO1.junk (kernelRun1_A c i arg2 harg2 arg3 harg3 arg4 harg4 arg5 harg5 hc0 x0 x1).1)
theorem scover1_A (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i) (x0 : Vec F S1024x128 .bf16) (x1 : Vec F S1024x128 .bf16) (y : S1024x1.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S1024x1.size (by sl_kernel_rfl) y
def sout1_A (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : cond1 i) (x0 : Vec F S1024x128 .bf16) (x1 : Vec F S1024x128 .bf16) : Vec F S1024x1 .f32 :=
  VS1.read (Elt F) (VS1.writes (Elt F) VS1.junk (kernelRun1_A c i arg2 harg2 arg3 harg3 arg4 harg4 arg5 harg5 hc0 x0 x1).2.1)

theorem cover1_B_2 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i) (x0 : Vec F S1024x128 .bf16) (x1 : Vec F S1024x128 .bf16) (xs0 : Vec F S1024x1 .f32) (y : S1024x1.Idx) :
    ∃ pc ∈ (kernelRun1_B c i arg2 harg2 arg3 harg3 arg4 harg4 arg5 harg5 hc0 x0 x1 xs0).1, y ∈ pc.1.set :=
  View.cover_of_tiledL (kernelRun1_B c i arg2 harg2 arg3 harg3 arg4 harg4 arg5 harg5 hc0 x0 x1 xs0).1 S1024x1.size (by sl_kernel_rfl) y
def out1_B_2 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i) (x0 : Vec F S1024x128 .bf16) (x1 : Vec F S1024x128 .bf16) (xs0 : Vec F S1024x1 .f32) : Vec F S1024x1 .f32 :=
  VO1.read (Elt F) (VO1.writes (Elt F) VO1.junk (kernelRun1_B c i arg2 harg2 arg3 harg3 arg4 harg4 arg5 harg5 hc0 x0 x1 xs0).1)
theorem scover1_B (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i) (x0 : Vec F S1024x128 .bf16) (x1 : Vec F S1024x128 .bf16) (xs0 : Vec F S1024x1 .f32) (y : S1024x1.Idx) :
    ∃ pc ∈ (kernelRun1_B c i arg2 harg2 arg3 harg3 arg4 harg4 arg5 harg5 hc0 x0 x1 xs0).2.1, y ∈ pc.1.set :=
  View.cover_of_tiledL (kernelRun1_B c i arg2 harg2 arg3 harg3 arg4 harg4 arg5 harg5 hc0 x0 x1 xs0).2.1 S1024x1.size (by sl_kernel_rfl) y
def sout1_B (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (hc0 : ¬cond1 i) (x0 : Vec F S1024x128 .bf16) (x1 : Vec F S1024x128 .bf16) (xs0 : Vec F S1024x1 .f32) : Vec F S1024x1 .f32 :=
  VS1.read (Elt F) (VS1.writes (Elt F) VS1.junk (kernelRun1_B c i arg2 harg2 arg3 harg3 arg4 harg4 arg5 harg5 hc0 x0 x1 xs0).2.1)

/-! ## The accumulation, point by point -/

/-- What the output block and the accumulator hold after the body at position n. -/
def outsAt1 (c : Dev nD) : (n : ℕ) → n < cfg1.N → Vec F S1024x1 .f32 × Vec F S1024x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩),
              sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩))
  | n + 1, hn =>
    if h0 : (n + 1) % 8 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) :
    outsAt1 V c t.val t.isLt = (out1_A_2 c (grid1.coords t) (ms1_0 t) (hs1_0 t) (ms1_1 t) (hs1_1 t) (ms1_2 t) (hs1_2 t) scM1 (Memref.isWhole_whole _) ((hcond1 t).mpr h0) (iblk1 V c 0 t) (iblk1 V c 1 t),
      sout1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The kernel's other scoped buffers (the other launch's staging and accumulator), each whole at some contents. -/
def others1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region invariant: before the first point every scoped buffer at anything; afterwards the accumulator at
    what the point before left, the others at anything, the generator register at some state. -/
def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ others1 c) ∗ (∃ r, prngReg c r)) := by
  cases n with
  | zero => exact absurd rfl hz
  | succ n => rfl

/-- The class invariant with the accumulator singled out. -/
theorem PhiA1_split (c : Dev nD) :
    (Pipeline.ΦA spec1 c : sProp 𝕄) ⊢ iprop(((∃ d, owns (c : Thread nD τ) scM1 fullShare d) ∗ others1 c) ∗ (∃ r, prngReg c r)) := by
  unfold Pipeline.ΦA others1; rw [scopedRest1_eq]; simp only [scM1, owns_whole]
  iintro ⟨⟨H1, H2, H3, H4, H5, H6, H7, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg
theorem PhiA1_join (c : Dev nD) :
    iprop(((∃ d, owns (c : Thread nD τ) scM1 fullShare d) ∗ others1 c) ∗ (∃ r, prngReg c r)) ⊢ (Pipeline.ΦA spec1 c : sProp 𝕄) := by
  unfold Pipeline.ΦA others1; rw [scopedRest1_eq]; simp only [scM1, owns_whole]
  iintro ⟨⟨HS, H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The proof data -/

/-- The proof data of launch 1 on core c: the arrays as the region finds them; after the body each input's
    buffer at its block, the output's at the accumulated sums; the two input windows each hold half of the one
    array they share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Hand

end
-- ==== Proof.KB1Body.lean ====
/-
  The body obligation of the row-sum kernel (launch 1): at every grid point the body, handed the two input blocks,
  the output block's buffer and the accumulator as the invariant names it, leaves the accumulated sums in both.
-/
import proofs.«153953_j64141041599004_1_alg».proof.Proof.KB1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  by_cases h0 : t.val % 8 = 0
  · rw [outsAt1_A V c t h0]
    unfold out1_A_2 sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_split c) $$ HΦ
      icases HΦ' with ⟨⟨HS0, HR⟩, Hg⟩
      iapply ((kernelRun1_A c (grid1.coords t) _ _ _ _ _ _ _ _ ((hcond1 t).mpr h0) (iblk1 V c 0 t) (iblk1 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1 t).mpr h0) (iblk1 V c 0 t) (iblk1 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
  · rw [outsAt1_B V c t h0]
    unfold out1_B_2 sout1_B; (try dsimp only)
    have hz : t.val ≠ 0 := fun e => h0 (by rw [e])
    rw [PhiS1_castSucc V c t, PhiS1_pos V c _ _ hz]
    iintro ⟨⟨⟨HS0, HR⟩, Hg⟩, Ho, ⟨%d0, H0⟩, ⟨%d1, H1⟩, ⟨%d2, H2⟩⟩
    iapply ((kernelRun1_B c (grid1.coords t) _ _ _ _ _ _ _ _ (fun h => h0 ((hcond1 t).mp h)) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  have h : iprop((owns (c : Thread nD τ) scM1 fullShare ((outsAt1 V c (t.val - 1) (by omega)).2) ∗ others1 c) ∗ (∃ r, prngReg c r))
      ⊢ (iprop(((∃ d, owns (c : Thread nD τ) scM1 fullShare d) ∗ others1 c) ∗ (∃ r, prngReg c r)) : sProp 𝕄) := by
    iintro ⟨⟨HS0, HR⟩, Hg⟩
    isplitr [Hg]
    · isplitl [HS0]
      · iexists _; iexact HS0
      iexact HR
    iexact Hg
  exact h.trans (PhiA1_join c)

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.KB1Arr.lean ====
/-
  The launch side of the row-sum kernel (launch 1) when its two input windows read ONE array: the full share of
  that array's buffer is dealt in two halves, one per window, at entry and joined again at exit; the output
  window's array is held whole.
-/
import proofs.«153953_j64141041599004_1_alg».proof.Proof.KB1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays: two. -/
theorem arr_image1 : Finset.univ.image (Pipeline.arrRef spec1) = {main_v55, main_v56} := by decide

/-- The windows' arrays, one by one: the shared input at its two halves, the output whole. -/
theorem arrays_form1 (c : Dev nD) (F : (w : Fin cfg1.W) → Buf (Elt F) ((cfg1.win w).arr.view.loc (c : Thread nD τ))) :
    ((dat1 V c).arrays F : sProp 𝕄)
      = iprop((((c : Thread nD τ).loc main_v55) ↦{fullShare.left} F 0) ∗ (((c : Thread nD τ).loc main_v55) ↦{fullShare.right} F 1) ∗ (((c : Thread nD τ).loc main_v56) ↦{fullShare} F 2)) := by
  unfold Dat.arrays; rw [bigSep_W1]
  rw [(arr_whole1 0).set_eq_univ, (arr_whole1 2).set_eq_univ]
  rfl

/-- The two buffers, each whole. -/
theorem arrBufs_form1 (c : Dev nD) (V' : (b : Ref sig .tc) → Buf (Elt F) ((c : Thread nD τ).loc b)) :
    (Pipeline.arrBufs spec1 c V' : sProp 𝕄)
      = iprop((((c : Thread nD τ).loc main_v55) ↦{fullShare} V' main_v55) ∗ (((c : Thread nD τ).loc main_v56) ↦{fullShare} V' main_v56)) := by
  unfold Pipeline.arrBufs; rw [arr_image1, bigSep_insert (by decide), bigSep_singleton]; rfl

/-- ENTRY: the two buffers, each whole at the region-entry contents, make the windows' arrays. -/
theorem hsplit1 (c : Dev nD) : (Pipeline.arrBufs spec1 c (V c) : sProp 𝕄) ⊢ (dat1 V c).arrays ((dat1 V c).arrAt · 0) := by
  rw [arrays_form1, arrBufs_form1]
  iintro ⟨H2, H3⟩
  ihave H2' := (pointsTo_share (PosShare.mem_left_op_right fullShare)).1 $$ H2
  icases H2' with ⟨Hl, Hr⟩
  isplitl [Hl]; · iexact Hl
  isplitl [Hr]; · iexact Hr
  iexact H3

/-- EXIT: the windows' arrays at contents that agree on the shared buffer make the two buffers whole again. -/
theorem hjoin1 (c : Dev nD) (V' : (b : Ref sig .tc) → Buf (Elt F) ((c : Thread nD τ).loc b))
    (F : (w : Fin cfg1.W) → Buf (Elt F) ((cfg1.win w).arr.view.loc (c : Thread nD τ)))
    (h0 : F 0 = V' main_v55) (h1 : F 1 = V' main_v55) (h2 : F 2 = V' main_v56) :
    ((dat1 V c).arrays F : sProp 𝕄) ⊢ Pipeline.arrBufs spec1 c V' := by
  rw [arrays_form1, arrBufs_form1, h0, h1, h2]
  iintro ⟨Hl, Hr, H3⟩
  isplitl [Hl Hr]
  · iapply (pointsTo_share (PosShare.mem_left_op_right fullShare)).2
    isplitl [Hl]; · iexact Hl
    iexact Hr
  iexact H3

/-- A core's unscoped buffers are the buffers behind the windows' arrays and the rest. -/
theorem ub_split1 (c : Dev nD) (V' : (b : Ref sig .tc) → Buf (Elt F) ((c : Thread nD τ).loc b)) :
    (unscopedBufs c V' : sProp 𝕄) = iprop((Pipeline.arrBufs spec1 c V' : sProp 𝕄) ∗ Pipeline.unscopedRest spec1 c V') := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The rest is the same at two valuations that agree off the two buffers. -/
theorem rest_congr1 (c : Dev nD) (V₁ V₂ : (b : Ref sig .tc) → Buf (Elt F) ((c : Thread nD τ).loc b))
    (h : ∀ b, b ∉ Finset.univ.image (Pipeline.arrRef spec1) → V₂ b = V₁ b) :
    (Pipeline.unscopedRest spec1 c V₁ : sProp 𝕄) = Pipeline.unscopedRest spec1 c V₂ := by
  unfold Pipeline.unscopedRest
  exact bigSep_congr fun b hb => by rw [h b (Finset.mem_sdiff.mp hb).2]

end Cert.Kernel.Hand

end
-- ==== Proof.KBAsm.lean ====
/-
  The whole run of the program: the two launches of the row-sum kernel as segments between the stretches of host
  operations, with what each launch leaves in its output array named, so that the program's result is read off
  the last boundary's contents.
-/
import proofs.«153953_j64141041599004_1_alg».proof.Proof.KB0Arr
import proofs.«153953_j64141041599004_1_alg».proof.Proof.KB1Arr
import proofs.«153953_j64141041599004_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The buffers before the first launch, read at the TensorCore's references. -/
abbrev VV1 (c : Dev nD) (b : Ref sig .tc) : Buf (Elt F) ((c : Thread nD τ).loc b) := Gen.V1 m c b
/-- What the first launch leaves: its output array at the last write-back's contents, every other buffer as entered. -/
def outsA : Gen.Outs (F := F) := fun _ r c =>
  Function.update (Gen.V1 m c) main_v3 ((dat0 (VV1 m) c).arrAt 2 cfg0.N) r
/-- The buffers before the second launch. -/
abbrev VV7 (c : Dev nD) (b : Ref sig .tc) : Buf (Elt F) ((c : Thread nD τ).loc b) := Gen.V7 m (outsA m) c b
/-- What the two launches leave. -/
def outsV : Gen.Outs (F := F) := fun J r c =>
  if J = 2 then outsA m 2 r c else Function.update (Gen.V7 m (outsA m) c) main_v56 ((dat1 (VV7 m) c).arrAt 2 cfg1.N) r

theorem outsV_2 (c : Dev nD) : outsV m 2 main_v3 c = (dat0 (VV1 m) c).arrAt 2 cfg0.N := by
  unfold outsV outsA; rw [if_pos rfl]; exact Function.update_self ..
theorem outsV_8 (c : Dev nD) : outsV m 8 main_v56 c = (dat1 (VV7 m) c).arrAt 2 cfg1.N := by
  unfold outsV; rw [if_neg (by decide)]; exact Function.update_self ..
theorem V7_eq (c : Dev nD) : Gen.V7 m (outsV m) c = Gen.V7 m (outsA m) c := by
  have e : outsV m 2 main_v3 c = outsA m 2 main_v3 c := by unfold outsV; rw [if_pos rfl]
  unfold Gen.V7 Gen.V6 Gen.V5 Gen.V4 Gen.V3 Gen.V2; rw [e]
theorem V2_out (c : Dev nD) : Gen.V2 m (outsV m) c main_v3 = (dat0 (VV1 m) c).arrAt 2 cfg0.N := by
  unfold Gen.V2; rw [Function.update_self]; exact outsV_2 m c
theorem V8_out (c : Dev nD) : Gen.V8 m (outsV m) c main_v56 = (dat1 (VV7 m) c).arrAt 2 cfg1.N := by
  unfold Gen.V8; rw [Function.update_self]; exact outsV_8 m c
theorem V8_of' (c : Dev nD) (r : Ref sig .tc) (h : r ∉ ([main_v56] : List (Ref sig .tc))) : Gen.V8 m (outsV m) c r = VV7 m c r :=
  (Gen.V8_of m (outsV m) c r h).trans (congrFun (V7_eq m c) r)

/-- Every launch's proof data, each at its region's entry contents. -/
def pdats : (p : Fin 2) → (c : Dev nD) → Dat τ (Elt F) Unit ℕ (UR sig nD τ) ℕ (cfgs p) c
  | ⟨0, _⟩ => fun c => dat0 (VV1 m) c
  | ⟨1, _⟩ => fun c => dat1 (VV7 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

-- the library's region lemmas are stated over the pinned configuration: unification must unfold plain definitions in a metavariable's type
set_option backward.isDefEq.respectTransparency.types false in
/-- Launch 0 as a segment: entered from every unscoped buffer at the contents before it, left with the output
    array at what the write-backs leave and every other buffer as entered. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsV m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hs : (StableHlo.held (c : Thread nD τ) (Pipeline.ucRefs τ sig) (Gen.V1 m c) : sProp 𝕄)
        ⊢ iprop((pdats m 0 c).arrays ((pdats m 0 c).arrAt · 0) ∗ Pipeline.unscopedRest spec0 c (VV1 m c)) := by
      rw [← Pipeline.unscopedBufs_held (Ix := Unit) (Name := ℕ) (U := UR sig nD τ) (Lvl := ℕ) c (Gen.V1 m c), ub_split0]
      exact Idealize.SL.BI.sep_mono (hsplit0 (VV1 m) c) (Idealize.SL.BI.Entails.refl _)
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    exact (hout0 (VV1 m) c).trans (by
      rw [Pipeline.ownSems0_none]; unfold Pipeline.ΦA
      iintro ⟨Hr, Hp⟩
      isplitl [Hp]; · iexact Hp
      isplitr; · iempintro
      iexact Hr)
  hexit c := by
    have hj : iprop((pdats m 0 c).arrays ((pdats m 0 c).arrAt · cfg0.N) ∗ Pipeline.unscopedRest spec0 c (VV1 m c))
        ⊢ (StableHlo.held (c : Thread nD τ) (Pipeline.ucRefs τ sig) (Gen.V2 m (outsV m) c) : sProp 𝕄) := by
      rw [← Pipeline.unscopedBufs_held (Ix := Unit) (Name := ℕ) (U := UR sig nD τ) (Lvl := ℕ) c (Gen.V2 m (outsV m) c), ub_split0,
        rest_congr0 c (VV1 m c) (fun b => (Gen.V2 m (outsV m) c) b) (fun b hb => Gen.V2_of m (outsV m) c b (by
          rw [arr_image0] at hb; intro h; exact hb (by simp only [List.mem_singleton] at h; subst h; decide)))]
      refine Idealize.SL.BI.sep_mono (hjoin0 (VV1 m) c _ _ ?_ ?_ ?_) (Idealize.SL.BI.Entails.refl _)
      · exact ((dat0 (VV1 m) c).arrAt_in 0 rfl _).trans ((Gen.V2_of m (outsV m) c main_v2 (by decide)).symm)
      · exact ((dat0 (VV1 m) c).arrAt_in 1 rfl _).trans ((Gen.V2_of m (outsV m) c main_v2 (by decide)).symm)
      · exact (V2_out m c).symm
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

-- the library's region lemmas are stated over the pinned configuration: unification must unfold plain definitions in a metavariable's type
set_option backward.isDefEq.respectTransparency.types false in
/-- Launch 1 as a segment: entered from every unscoped buffer at the contents before it, left with the output
    array at what the write-backs leave and every other buffer as entered. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV7 m) c).loose
  hwaits := Pipeline.hwaits_of_owed_zero _ _ _ _ L lv 1 fun _ _ => rfl
  pre c := iprop(StableHlo.held (c : Thread nD τ) (Pipeline.ucRefs τ sig) (Gen.V7 m (outsA m) c) ∗ R c)
  post c := iprop(StableHlo.held (c : Thread nD τ) (Pipeline.ucRefs τ sig) (Gen.V8 m (outsV m) c) ∗ R c)
  X c := iprop(∃ r, prngReg c r)
  Y c := iprop(∃ r, prngReg c r)
  Z c := Pipeline.unscopedRest (Ix := Unit) (Name := ℕ) (U := UR sig nD τ) (Lvl := ℕ) spec1 c (VV7 m c)
  hentry c := by
    rw [Pipeline.ownSems0_none]
    have hs : (StableHlo.held (c : Thread nD τ) (Pipeline.ucRefs τ sig) (Gen.V7 m (outsA m) c) : sProp 𝕄)
        ⊢ iprop((pdats m 1 c).arrays ((pdats m 1 c).arrAt · 0) ∗ Pipeline.unscopedRest spec1 c (VV7 m c)) := by
      rw [← Pipeline.unscopedBufs_held (Ix := Unit) (Name := ℕ) (U := UR sig nD τ) (Lvl := ℕ) c (Gen.V7 m (outsA m) c), ub_split1]
      exact Idealize.SL.BI.sep_mono (hsplit1 (VV7 m) c) (Idealize.SL.BI.Entails.refl _)
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    exact (hout1 (VV7 m) c).trans (by
      rw [Pipeline.ownSems0_none]; unfold Pipeline.ΦA
      iintro ⟨Hr, Hp⟩
      isplitl [Hp]; · iexact Hp
      isplitr; · iempintro
      iexact Hr)
  hexit c := by
    have hj : iprop((pdats m 1 c).arrays ((pdats m 1 c).arrAt · cfg1.N) ∗ Pipeline.unscopedRest spec1 c (VV7 m c))
        ⊢ (StableHlo.held (c : Thread nD τ) (Pipeline.ucRefs τ sig) (Gen.V8 m (outsV m) c) : sProp 𝕄) := by
      rw [← Pipeline.unscopedBufs_held (Ix := Unit) (Name := ℕ) (U := UR sig nD τ) (Lvl := ℕ) c (Gen.V8 m (outsV m) c), ub_split1,
        rest_congr1 c (VV7 m c) (fun b => (Gen.V8 m (outsV m) c) b) (fun b hb => V8_of' m c b (by
          rw [arr_image1] at hb; intro h; exact hb (by simp only [List.mem_singleton] at h; subst h; decide)))]
      refine Idealize.SL.BI.sep_mono (hjoin1 (VV7 m) c _ _ ?_ ?_ ?_) (Idealize.SL.BI.Entails.refl _)
      · exact ((dat1 (VV7 m) c).arrAt_in 0 rfl _).trans ((V8_of' m c main_v55 (by decide)).symm)
      · exact ((dat1 (VV7 m) c).arrAt_in 1 rfl _).trans ((V8_of' m c main_v55 (by decide)).symm)
      · exact (V8_out m c).symm
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

end Cert.Kernel.Hand

end
-- ==== Proof.KBRun.lean ====
/-
  The program's run: the launch of the nine segments (host stretches and the two kernel launches), every final
  memory read at the last boundary's contents — the result buffer and the two argument arrays.
-/
import proofs.«153953_j64141041599004_1_alg».proof.Proof.KBAsm

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

-- the launch theorem's implicit arguments are found by unifying its conclusion with this one, which takes unfolding
-- plain definitions in a metavariable's type
set_option backward.isDefEq.respectTransparency.types false in
/-- Given, per launch, its segment record entered from the thread state before it and left at the one after it, every
    weakly fair execution terminates and every final memory holds the result buffer at the last boundary's contents
    and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V7 m outs c) ∗ E 1 c) ⊢ R1.pre c)
    (hpost1 : ∀ c : Dev nD, R1.post c ⊢ iprop(StableHlo.held (c : Thread nD τ) (Pipeline.ucRefs τ sig) (Gen.V8 m outs c) ∗ E 2 c)) :
    θ_run defs (onTc (τ := τ) (main (F := F))) ⟨m, fun _ => 0, ρ⟩ (fun r => ∀ c : Dev nD,
      r.2.mem ((c.tc : Thread nD τ).loc main_v102) = Gen.V9 m outs c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V9 m outs c))
    (hch := fun c => ⟨.rfl, hpre0 c, hpost0 c, .rfl, .rfl, .rfl, .rfl, hpre1 c, hpost1 c, sep_mono .rfl (hE2 c)⟩)
    (hinit := ?_) (QY := fun c s => s.mem ((c.tc : Thread nD τ).loc main_v102) = Gen.V9 m outs c main_v102 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (Gen.V9 m outs c) s') $$ [Hh HSI]
    · isplitl [Hh] <;> iassumption
    icases Hr with ⟨%h, HSI⟩
    imodintro
    isplitr
    · ipureintro
      exact ⟨h (Proc.devRef .tc main_v102) (Finset.mem_filter.mpr ⟨StableHlo.devRef_mem_tcRefs main_v102, by decide⟩),
        (h (Proc.devRef .tc main_arg0) (Finset.mem_filter.mpr ⟨StableHlo.devRef_mem_tcRefs main_arg0, by decide⟩)).trans (Gen.V9_main_arg0 m outs c),
        (h (Proc.devRef .tc main_arg1) (Finset.mem_filter.mpr ⟨StableHlo.devRef_mem_tcRefs main_arg1, by decide⟩)).trans (Gen.V9_main_arg1 m outs c)⟩
    · iexact HSI

/-- THE RUN: every weakly fair execution of the program terminates, faults nowhere, and ends with the result at the
    last boundary's contents (over what the two launches leave) and the arguments as launched. -/
theorem run_val (ρ : Dev nD → PrngReg) :
    θ_run defs (onTc (τ := τ) (main (F := F))) ⟨m, fun _ => 0, ρ⟩ (fun r => ∀ c : Dev nD,
      r.2.mem ((c.tc : Thread nD τ).loc main_v102) = Gen.V9 m (outsV m) c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () 𝒱₀ L lv (fun _ _ => rfl) ρ (outsV m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V7_eq]; exact .rfl) (fun c => .rfl)

end Cert.Kernel.Hand

end
-- ==== Proof.RefRun.lean ====
/-
  The reference program's @main read as one straight line of host operations, and its run.

  @main is printed in three consecutive windows and calls three outlined functions (an integer remainder, which
  itself calls a scalar select, and a row-wise select).  Unfolding each call at its call site over the call's own
  buffers turns the program into a list of 172 operations; each window is that list's corresponding segment, so
  the whole program is the sequence of the concatenation.  The run lemma of straight-line programs then gives:
  every weakly fair execution terminates and each buffer ends at the fold of the operations over the launch
  contents; the two argument buffers are written by no operation and keep their contents.
  The two concatenations of index columns are named (concat2, concat4), so that their operands stay ordinary
  arguments of a function when the fold is computed.
-/
import proofs.«153953_j64141041599004_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem
open Idealize.ShloMosaic.StableHlo (seq seq_append after after_cons after_nil run_seq tcRefs after_of_writes_sub launchContents
  nullary_bufs_sub unary_bufs_sub binary_bufs_sub ternary_bufs_sub nary_bufs_sub reshape_bufs_sub)
open Facts₀ Facts

variable {F : FTy → Type} [FloatOps F]

/-- Two index columns side by side: the concatenation along axis 1 of two [4096, 1] arrays of words. -/
def concat2 (a b : IVec S4096x1 32) : IVec S4096x2 32 :=
  concatenate S4096x2 1 [⟨S4096x1, a⟩, ⟨S4096x1, b⟩] concatenates_S4096x1_S4096x1_S4096x2_d1

/-- Four index columns side by side: the concatenation along axis 1 of four [4096, 1] arrays of words. -/
def concat4 (a b c d : IVec S4096x1 32) : IVec S4096x4 32 :=
  concatenate S4096x4 1 [⟨S4096x1, a⟩, ⟨S4096x1, b⟩, ⟨S4096x1, c⟩, ⟨S4096x1, d⟩] concatenates_S4096x1_S4096x1_S4096x1_S4096x1_S4096x4_d1

/-- The first window's 60 operations, in order. -/
abbrev ops0 : List (HloOp τ sig (Elt F)) :=
  [ StableHlo.unary main_arg1 main_v0 (broadcastInDim S4096x2x128 ![0, 2] bcast_S4096x128_S4096x2x128_0_2 : (⟨S4096x128, .f32⟩ : BufTy).Contents (Elt F) → (⟨S4096x2x128, .f32⟩ : BufTy).Contents (Elt F)),
    StableHlo.reshape main_v0 main_v1 rfl shapeCasts_S4096x2x128_S8192x128,
    StableHlo.unary main_arg0 main_v2 ((transpose S128x8192 [1, 0] · transposes_S8192x128_S128x8192_1_0) : (⟨S8192x128, .f32⟩ : BufTy).Contents (Elt F) → (⟨S128x8192, .f32⟩ : BufTy).Contents (Elt F)),
    StableHlo.binary main_arg0 main_v2 main_v3 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst (constant S_ .f32 0x43000000#32),
    StableHlo.unary main_cst main_v4 (broadcastInDim S8192x8192 ![] bcast_S_S8192x8192 : (⟨S_, .f32⟩ : BufTy).Contents (Elt F) → (⟨S8192x8192, .f32⟩ : BufTy).Contents (Elt F)),
    StableHlo.binary main_v3 main_v4 main_v5 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_0 (constant S_ .f32 0x3F800000#32),
    StableHlo.unary main_cst_0 main_v6 (broadcastInDim S8192x8192 ![] bcast_S_S8192x8192 : (⟨S_, .f32⟩ : BufTy).Contents (Elt F) → (⟨S8192x8192, .f32⟩ : BufTy).Contents (Elt F)),
    StableHlo.binary main_v6 main_v5 main_v7 (addf : (⟨S8192x8192, .f32⟩ : BufTy).Contents (Elt F) → (⟨S8192x8192, .f32⟩ : BufTy).Contents (Elt F) → (⟨S8192x8192, .f32⟩ : BufTy).Contents (Elt F)),
    StableHlo.unary main_v7 main_v8 (Host.exp : (⟨S8192x8192, .f32⟩ : BufTy).Contents (Elt F) → (⟨S8192x8192, .f32⟩ : BufTy).Contents (Elt F)),
    StableHlo.reshape main_v8 main_v9 rfl shapeCasts_S8192x8192_S4096x2x4096x2,
    StableHlo.nullary main_cst_1 (constant S_ .f32 0x00000000#32),
    StableHlo.binary main_v9 main_cst_1 main_v10 ((fun x v => Host.reduceAdd x v reducesTo_S4096x2x4096x2_S4096_d1_2_3 h_S_) : (⟨S4096x2x4096x2, .f32⟩ : BufTy).Contents (Elt F) → (⟨S_, .f32⟩ : BufTy).Contents (Elt F) → (⟨S4096, .f32⟩ : BufTy).Contents (Elt F)),
    StableHlo.nullary main_v11 (iotaInDim S4096 32 0),
    StableHlo.nullary main_c (constantI S_ 32 0#32),
    StableHlo.unary main_c main_v12 (broadcastInDim S4096 ![] bcast_S_S4096 : (⟨S_, .i32⟩ : BufTy).Contents (Elt F) → (⟨S4096, .i32⟩ : BufTy).Contents (Elt F)),
    StableHlo.binary main_v11 main_v12 main_v13 (cmpi .slt : (⟨S4096, .i32⟩ : BufTy).Contents (Elt F) → (⟨S4096, .i32⟩ : BufTy).Contents (Elt F) → (⟨S4096, .i1⟩ : BufTy).Contents (Elt F)),
    StableHlo.nullary main_c_2 (constantI S_ 32 4096#32),
    StableHlo.unary main_c_2 main_v14 (broadcastInDim S4096 ![] bcast_S_S4096 : (⟨S_, .i32⟩ : BufTy).Contents (Elt F) → (⟨S4096, .i32⟩ : BufTy).Contents (Elt F)),
    StableHlo.binary main_v11 main_v14 main_v15 (addi : (⟨S4096, .i32⟩ : BufTy).Contents (Elt F) → (⟨S4096, .i32⟩ : BufTy).Contents (Elt F) → (⟨S4096, .i32⟩ : BufTy).Contents (Elt F)),
    StableHlo.ternary main_v13 main_v15 main_v11 main_v16 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_3 (constantI S_ 32 0#32),
    StableHlo.unary main_c_3 main_v17 (broadcastInDim S4096 ![] bcast_S_S4096 : (⟨S_, .i32⟩ : BufTy).Contents (Elt F) → (⟨S4096, .i32⟩ : BufTy).Contents (Elt F)),
    StableHlo.binary main_v11 main_v17 main_v18 (cmpi .slt : (⟨S4096, .i32⟩ : BufTy).Contents (Elt F) → (⟨S4096, .i32⟩ : BufTy).Contents (Elt F) → (⟨S4096, .i1⟩ : BufTy).Contents (Elt F)),
    StableHlo.nullary main_c_4 (constantI S_ 32 4096#32),
    StableHlo.unary main_c_4 main_v19 (broadcastInDim S4096 ![] bcast_S_S4096 : (⟨S_, .i32⟩ : BufTy).Contents (Elt F) → (⟨S4096, .i32⟩ : BufTy).Contents (Elt F)),
    StableHlo.binary main_v11 main_v19 main_v20 (addi : (⟨S4096, .i32⟩ : BufTy).Contents (Elt F) → (⟨S4096, .i32⟩ : BufTy).Contents (Elt F) → (⟨S4096, .i32⟩ : BufTy).Contents (Elt F)),
    StableHlo.ternary main_v18 main_v20 main_v11 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v16 main_v22 (broadcastInDim S4096x1 ![0] bcast_S4096_S4096x1_0 : (⟨S4096, .i32⟩ : BufTy).Contents (Elt F) → (⟨S4096x1, .i32⟩ : BufTy).Contents (Elt F)),
    StableHlo.unary main_v21 main_v23 (broadcastInDim S4096x1 ![0] bcast_S4096_S4096x1_0 : (⟨S4096, .i32⟩ : BufTy).Contents (Elt F) → (⟨S4096x1, .i32⟩ : BufTy).Contents (Elt F)),
    StableHlo.binary main_v22 main_v23 main_v24 (concat2 : (⟨S4096x1, .i32⟩ : BufTy).Contents (Elt F) → (⟨S4096x1, .i32⟩ : BufTy).Contents (Elt F) → (⟨S4096x2, .i32⟩ : BufTy).Contents (Elt F)),
    StableHlo.binary main_v9 main_v24 main_v25 ((fun x i => Host.gather gather_S4096x2x4096x2_S4096x2_S4096x2x2_12_02_n_n_02_1_1212 x i) : (⟨S4096x2x4096x2, .f32⟩ : BufTy).Contents (Elt F) → (⟨S4096x2, .i32⟩ : BufTy).Contents (Elt F) → (⟨S4096x2x2, .f32⟩ : BufTy).Contents (Elt F)),
    StableHlo.nullary main_cst_5 (constant S_ .f32 0x00000000#32),
    StableHlo.binary main_v25 main_cst_5 main_v26 ((fun x v => Host.reduceAdd x v reducesTo_S4096x2x2_S4096_d1_2 h_S_) : (⟨S4096x2x2, .f32⟩ : BufTy).Contents (Elt F) → (⟨S_, .f32⟩ : BufTy).Contents (Elt F) → (⟨S4096, .f32⟩ : BufTy).Contents (Elt F)),
    StableHlo.binary main_v10 main_v26 main_v27 (subf : (⟨S4096, .f32⟩ : BufTy).Contents (Elt F) → (⟨S4096, .f32⟩ : BufTy).Contents (Elt F) → (⟨S4096, .f32⟩ : BufTy).Contents (Elt F)),
    StableHlo.reshape main_v5 main_v28 rfl shapeCasts_S8192x8192_S4096x2x4096x2,
    StableHlo.nullary main_c_6 (constantI S_ 32 0#32),
    StableHlo.unary main_c_6 main_v29 (broadcastInDim S4096 ![] bcast_S_S4096 : (⟨S_, .i32⟩ : BufTy).Contents (Elt F) → (⟨S4096, .i32⟩ : BufTy).Contents (Elt F)),
    StableHlo.binary main_v11 main_v29 main_v30 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 4096#32),
    StableHlo.unary main_c_7 main_v31 (broadcastInDim S4096 ![] bcast_S_S4096 : (⟨S_, .i32⟩ : BufTy).Contents (Elt F) → (⟨S4096, .i32⟩ : BufTy).Contents (Elt F)),
    StableHlo.binary main_v11 main_v31 main_v32 (addi : (⟨S4096, .i32⟩ : BufTy).Contents (Elt F) → (⟨S4096, .i32⟩ : BufTy).Contents (Elt F) → (⟨S4096, .i32⟩ : BufTy).Contents (Elt F)),
    StableHlo.ternary main_v30 main_v32 main_v11 main_v33 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_8 (constantI S_ 32 0#32),
    StableHlo.unary main_c_8 main_v34 (broadcastInDim S4096 ![] bcast_S_S4096 : (⟨S_, .i32⟩ : BufTy).Contents (Elt F) → (⟨S4096, .i32⟩ : BufTy).Contents (Elt F)),
    StableHlo.binary main_v11 main_v34 main_v35 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 4096#32),
    StableHlo.unary main_c_9 main_v36 (broadcastInDim S4096 ![] bcast_S_S4096 : (⟨S_, .i32⟩ : BufTy).Contents (Elt F) → (⟨S4096, .i32⟩ : BufTy).Contents (Elt F)),
    StableHlo.binary main_v11 main_v36 main_v37 (addi : (⟨S4096, .i32⟩ : BufTy).Contents (Elt F) → (⟨S4096, .i32⟩ : BufTy).Contents (Elt F) → (⟨S4096, .i32⟩ : BufTy).Contents (Elt F)),
    StableHlo.ternary main_v35 main_v37 main_v11 main_v38 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_10 (constantI S_ 32 0#32),
    StableHlo.unary main_c_10 main_v39 (broadcastInDim S4096 ![] bcast_S_S4096 : (⟨S_, .i32⟩ : BufTy).Contents (Elt F) → (⟨S4096, .i32⟩ : BufTy).Contents (Elt F)),
    StableHlo.nullary main_c_11 (constantI S_ 32 1#32),
    StableHlo.unary main_c_11 main_v40 (broadcastInDim S4096 ![] bcast_S_S4096 : (⟨S_, .i32⟩ : BufTy).Contents (Elt F) → (⟨S4096, .i32⟩ : BufTy).Contents (Elt F)),
    StableHlo.unary main_v39 main_v41 (id : (⟨S4096, .i32⟩ : BufTy).Contents (Elt F) → (⟨S4096, .i32⟩ : BufTy).Contents (Elt F)),
    StableHlo.unary main_v40 main_v42 (id : (⟨S4096, .i32⟩ : BufTy).Contents (Elt F) → (⟨S4096, .i32⟩ : BufTy).Contents (Elt F)),
    StableHlo.unary main_v33 main_v43 (broadcastInDim S4096x1 ![0] bcast_S4096_S4096x1_0 : (⟨S4096, .i32⟩ : BufTy).Contents (Elt F) → (⟨S4096x1, .i32⟩ : BufTy).Contents (Elt F)),
    StableHlo.unary main_v41 main_v44 (broadcastInDim S4096x1 ![0] bcast_S4096_S4096x1_0 : (⟨S4096, .i32⟩ : BufTy).Contents (Elt F) → (⟨S4096x1, .i32⟩ : BufTy).Contents (Elt F)),
    StableHlo.unary main_v38 main_v45 (broadcastInDim S4096x1 ![0] bcast_S4096_S4096x1_0 : (⟨S4096, .i32⟩ : BufTy).Contents (Elt F) → (⟨S4096x1, .i32⟩ : BufTy).Contents (Elt F)) ]

/-- The second window's operations, in order, the two calls unfolded at their call sites (22 + 2 operations among 81). -/
abbrev ops1 : List (HloOp τ sig (Elt F)) :=
  [ StableHlo.unary main_v42 main_v46 (broadcastInDim S4096x1 ![0] bcast_S4096_S4096x1_0 : (⟨S4096, .i32⟩ : BufTy).Contents (Elt F) → (⟨S4096x1, .i32⟩ : BufTy).Contents (Elt F)),
    StableHlo.nary ![main_v43, main_v44, main_v45, main_v46] main_v47 (fun u => concat4 (u 0) (u 1) (u 2) (u 3)),
    StableHlo.binary main_v28 main_v47 main_v48 ((fun x i => Host.gather gather_S4096x2x4096x2_S4096x4_S4096_n_0123_n_n_0123_1_1111 x i) : (⟨S4096x2x4096x2, .f32⟩ : BufTy).Contents (Elt F) → (⟨S4096x4, .i32⟩ : BufTy).Contents (Elt F) → (⟨S4096, .f32⟩ : BufTy).Contents (Elt F)),
    StableHlo.unary main_v27 main_v49 (Host.log : (⟨S4096, .f32⟩ : BufTy).Contents (Elt F) → (⟨S4096, .f32⟩ : BufTy).Contents (Elt F)),
    StableHlo.binary main_v49 main_v48 main_v50 (subf : (⟨S4096, .f32⟩ : BufTy).Contents (Elt F) → (⟨S4096, .f32⟩ : BufTy).Contents (Elt F) → (⟨S4096, .f32⟩ : BufTy).Contents (Elt F)),
    StableHlo.binary main_v50 main_v50 main_v51 (mulf : (⟨S4096, .f32⟩ : BufTy).Contents (Elt F) → (⟨S4096, .f32⟩ : BufTy).Contents (Elt F) → (⟨S4096, .f32⟩ : BufTy).Contents (Elt F)),
    StableHlo.nullary main_cst_12 (constant S_ .f32 0x00000000#32),
    StableHlo.binary main_v51 main_cst_12 main_v52 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_13 (constant S_ .f32 0x45800000#32),
    StableHlo.binary main_v52 main_cst_13 main_v53 (Host.divf : (⟨S_, .f32⟩ : BufTy).Contents (Elt F) → (⟨S_, .f32⟩ : BufTy).Contents (Elt F) → (⟨S_, .f32⟩ : BufTy).Contents (Elt F)),
    StableHlo.nullary main_cst_14 (constant S_ .f32 0x3F000000#32),
    StableHlo.binary main_cst_14 main_v53 main_v54 (mulf : (⟨S_, .f32⟩ : BufTy).Contents (Elt F) → (⟨S_, .f32⟩ : BufTy).Contents (Elt F) → (⟨S_, .f32⟩ : BufTy).Contents (Elt F)),
    StableHlo.nullary main_v55 (iotaInDim S8192 32 0),
    StableHlo.nullary main_c_15 (constantI S_ 32 2#32),
    StableHlo.TRef.unary (.of main_c_15 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S8192 ![] bcast_S_S8192),
    StableHlo.TRef.binary (.of main_v55 : StableHlo.TRef sig ⟨S8192, .i32⟩) main_call0.v3 main_call0.v4 Host.remsi,
    StableHlo.TRef.nullary main_call0.c_1 (constantI S_ 32 0#32),
    StableHlo.TRef.unary main_call0.c_1 main_call0.v5 (broadcastInDim S8192 ![] bcast_S_S8192),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8192 ![] bcast_S_S8192),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S8192 ![] bcast_S_S8192),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S8192 ![] bcast_S_S8192),
    StableHlo.TRef.binary main_call0.v4 main_call0.v13 main_call0.v14 addi,
    StableHlo.TRef.ternary main_call0.v12 main_call0.v14 main_call0.v4 main_call0.v15 select,
    StableHlo.nullary main_c_16 (constantI S_ 32 0#32),
    StableHlo.unary main_c_16 main_v57 (broadcastInDim S8192 ![] bcast_S_S8192 : (⟨S_, .i32⟩ : BufTy).Contents (Elt F) → (⟨S8192, .i32⟩ : BufTy).Contents (Elt F)),
    StableHlo.binary main_v56 main_v57 main_v58 (cmpi .eq : (⟨S8192, .i32⟩ : BufTy).Contents (Elt F) → (⟨S8192, .i32⟩ : BufTy).Contents (Elt F) → (⟨S8192, .i1⟩ : BufTy).Contents (Elt F)),
    StableHlo.unary main_v58 main_v59 (broadcastInDim S8192x1 ![0] bcast_S8192_S8192x1_0 : (⟨S8192, .i1⟩ : BufTy).Contents (Elt F) → (⟨S8192x1, .i1⟩ : BufTy).Contents (Elt F)),
    StableHlo.TRef.unary (.of main_v59 : StableHlo.TRef sig ⟨S8192x1, .i1⟩) main_call1.v0 (broadcastInDim S8192x128 ![0, 1] bcast_S8192x1_S8192x128_0_1),
    StableHlo.TRef.ternary main_call1.v0 (.of main_arg0 : StableHlo.TRef sig ⟨S8192x128, .f32⟩) (.of main_v1 : StableHlo.TRef sig ⟨S8192x128, .f32⟩) main_call1.v1 select,
    StableHlo.unary main_v60 main_v61 ((transpose S128x8192 [1, 0] · transposes_S8192x128_S128x8192_1_0) : (⟨S8192x128, .f32⟩ : BufTy).Contents (Elt F) → (⟨S128x8192, .f32⟩ : BufTy).Contents (Elt F)),
    StableHlo.binary main_v60 main_v61 main_v62 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst_17 (constant S_ .f32 0x43000000#32),
    StableHlo.unary main_cst_17 main_v63 (broadcastInDim S8192x8192 ![] bcast_S_S8192x8192 : (⟨S_, .f32⟩ : BufTy).Contents (Elt F) → (⟨S8192x8192, .f32⟩ : BufTy).Contents (Elt F)),
    StableHlo.binary main_v62 main_v63 main_v64 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_18 (constant S_ .f32 0x3F800000#32),
    StableHlo.unary main_cst_18 main_v65 (broadcastInDim S8192x8192 ![] bcast_S_S8192x8192 : (⟨S_, .f32⟩ : BufTy).Contents (Elt F) → (⟨S8192x8192, .f32⟩ : BufTy).Contents (Elt F)),
    StableHlo.binary main_v65 main_v64 main_v66 (addf : (⟨S8192x8192, .f32⟩ : BufTy).Contents (Elt F) → (⟨S8192x8192, .f32⟩ : BufTy).Contents (Elt F) → (⟨S8192x8192, .f32⟩ : BufTy).Contents (Elt F)),
    StableHlo.unary main_v66 main_v67 (Host.exp : (⟨S8192x8192, .f32⟩ : BufTy).Contents (Elt F) → (⟨S8192x8192, .f32⟩ : BufTy).Contents (Elt F)),
    StableHlo.reshape main_v67 main_v68 rfl shapeCasts_S8192x8192_S4096x2x4096x2,
    StableHlo.nullary main_cst_19 (constant S_ .f32 0x00000000#32),
    StableHlo.binary main_v68 main_cst_19 main_v69 ((fun x v => Host.reduceAdd x v reducesTo_S4096x2x4096x2_S4096_d1_2_3 h_S_) : (⟨S4096x2x4096x2, .f32⟩ : BufTy).Contents (Elt F) → (⟨S_, .f32⟩ : BufTy).Contents (Elt F) → (⟨S4096, .f32⟩ : BufTy).Contents (Elt F)),
    StableHlo.nullary main_v70 (iotaInDim S4096 32 0),
    StableHlo.nullary main_c_20 (constantI S_ 32 0#32),
    StableHlo.unary main_c_20 main_v71 (broadcastInDim S4096 ![] bcast_S_S4096 : (⟨S_, .i32⟩ : BufTy).Contents (Elt F) → (⟨S4096, .i32⟩ : BufTy).Contents (Elt F)),
    StableHlo.binary main_v70 main_v71 main_v72 (cmpi .slt : (⟨S4096, .i32⟩ : BufTy).Contents (Elt F) → (⟨S4096, .i32⟩ : BufTy).Contents (Elt F) → (⟨S4096, .i1⟩ : BufTy).Contents (Elt F)),
    StableHlo.nullary main_c_21 (constantI S_ 32 4096#32),
    StableHlo.unary main_c_21 main_v73 (broadcastInDim S4096 ![] bcast_S_S4096 : (⟨S_, .i32⟩ : BufTy).Contents (Elt F) → (⟨S4096, .i32⟩ : BufTy).Contents (Elt F)),
    StableHlo.binary main_v70 main_v73 main_v74 (addi : (⟨S4096, .i32⟩ : BufTy).Contents (Elt F) → (⟨S4096, .i32⟩ : BufTy).Contents (Elt F) → (⟨S4096, .i32⟩ : BufTy).Contents (Elt F)),
    StableHlo.ternary main_v72 main_v74 main_v70 main_v75 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_22 (constantI S_ 32 0#32),
    StableHlo.unary main_c_22 main_v76 (broadcastInDim S4096 ![] bcast_S_S4096 : (⟨S_, .i32⟩ : BufTy).Contents (Elt F) → (⟨S4096, .i32⟩ : BufTy).Contents (Elt F)),
    StableHlo.binary main_v70 main_v76 main_v77 (cmpi .slt : (⟨S4096, .i32⟩ : BufTy).Contents (Elt F) → (⟨S4096, .i32⟩ : BufTy).Contents (Elt F) → (⟨S4096, .i1⟩ : BufTy).Contents (Elt F)),
    StableHlo.nullary main_c_23 (constantI S_ 32 4096#32),
    StableHlo.unary main_c_23 main_v78 (broadcastInDim S4096 ![] bcast_S_S4096 : (⟨S_, .i32⟩ : BufTy).Contents (Elt F) → (⟨S4096, .i32⟩ : BufTy).Contents (Elt F)),
    StableHlo.binary main_v70 main_v78 main_v79 (addi : (⟨S4096, .i32⟩ : BufTy).Contents (Elt F) → (⟨S4096, .i32⟩ : BufTy).Contents (Elt F) → (⟨S4096, .i32⟩ : BufTy).Contents (Elt F)),
    StableHlo.ternary main_v77 main_v79 main_v70 main_v80 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v75 main_v81 (broadcastInDim S4096x1 ![0] bcast_S4096_S4096x1_0 : (⟨S4096, .i32⟩ : BufTy).Contents (Elt F) → (⟨S4096x1, .i32⟩ : BufTy).Contents (Elt F)),
    StableHlo.unary main_v80 main_v82 (broadcastInDim S4096x1 ![0] bcast_S4096_S4096x1_0 : (⟨S4096, .i32⟩ : BufTy).Contents (Elt F) → (⟨S4096x1, .i32⟩ : BufTy).Contents (Elt F)),
    StableHlo.binary main_v81 main_v82 main_v83 (concat2 : (⟨S4096x1, .i32⟩ : BufTy).Contents (Elt F) → (⟨S4096x1, .i32⟩ : BufTy).Contents (Elt F) → (⟨S4096x2, .i32⟩ : BufTy).Contents (Elt F)),
    StableHlo.binary main_v68 main_v83 main_v84 ((fun x i => Host.gather gather_S4096x2x4096x2_S4096x2_S4096x2x2_12_02_n_n_02_1_1212 x i) : (⟨S4096x2x4096x2, .f32⟩ : BufTy).Contents (Elt F) → (⟨S4096x2, .i32⟩ : BufTy).Contents (Elt F) → (⟨S4096x2x2, .f32⟩ : BufTy).Contents (Elt F)),
    StableHlo.nullary main_cst_24 (constant S_ .f32 0x00000000#32),
    StableHlo.binary main_v84 main_cst_24 main_v85 ((fun x v => Host.reduceAdd x v reducesTo_S4096x2x2_S4096_d1_2 h_S_) : (⟨S4096x2x2, .f32⟩ : BufTy).Contents (Elt F) → (⟨S_, .f32⟩ : BufTy).Contents (Elt F) → (⟨S4096, .f32⟩ : BufTy).Contents (Elt F)),
    StableHlo.binary main_v69 main_v85 main_v86 (subf : (⟨S4096, .f32⟩ : BufTy).Contents (Elt F) → (⟨S4096, .f32⟩ : BufTy).Contents (Elt F) → (⟨S4096, .f32⟩ : BufTy).Contents (Elt F)),
    StableHlo.reshape main_v64 main_v87 rfl shapeCasts_S8192x8192_S4096x2x4096x2,
    StableHlo.nullary main_c_25 (constantI S_ 32 0#32),
    StableHlo.unary main_c_25 main_v88 (broadcastInDim S4096 ![] bcast_S_S4096 : (⟨S_, .i32⟩ : BufTy).Contents (Elt F) → (⟨S4096, .i32⟩ : BufTy).Contents (Elt F)),
    StableHlo.binary main_v70 main_v88 main_v89 (cmpi .slt : (⟨S4096, .i32⟩ : BufTy).Contents (Elt F) → (⟨S4096, .i32⟩ : BufTy).Contents (Elt F) → (⟨S4096, .i1⟩ : BufTy).Contents (Elt F)),
    StableHlo.nullary main_c_26 (constantI S_ 32 4096#32),
    StableHlo.unary main_c_26 main_v90 (broadcastInDim S4096 ![] bcast_S_S4096 : (⟨S_, .i32⟩ : BufTy).Contents (Elt F) → (⟨S4096, .i32⟩ : BufTy).Contents (Elt F)) ]

/-- The third window's 31 operations, in order. -/
abbrev ops2 : List (HloOp τ sig (Elt F)) :=
  [ StableHlo.binary main_v70 main_v90 main_v91 (addi : (⟨S4096, .i32⟩ : BufTy).Contents (Elt F) → (⟨S4096, .i32⟩ : BufTy).Contents (Elt F) → (⟨S4096, .i32⟩ : BufTy).Contents (Elt F)),
    StableHlo.ternary main_v89 main_v91 main_v70 main_v92 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_27 (constantI S_ 32 0#32),
    StableHlo.unary main_c_27 main_v93 (broadcastInDim S4096 ![] bcast_S_S4096 : (⟨S_, .i32⟩ : BufTy).Contents (Elt F) → (⟨S4096, .i32⟩ : BufTy).Contents (Elt F)),
    StableHlo.binary main_v70 main_v93 main_v94 (cmpi .slt : (⟨S4096, .i32⟩ : BufTy).Contents (Elt F) → (⟨S4096, .i32⟩ : BufTy).Contents (Elt F) → (⟨S4096, .i1⟩ : BufTy).Contents (Elt F)),
    StableHlo.nullary main_c_28 (constantI S_ 32 4096#32),
    StableHlo.unary main_c_28 main_v95 (broadcastInDim S4096 ![] bcast_S_S4096 : (⟨S_, .i32⟩ : BufTy).Contents (Elt F) → (⟨S4096, .i32⟩ : BufTy).Contents (Elt F)),
    StableHlo.binary main_v70 main_v95 main_v96 (addi : (⟨S4096, .i32⟩ : BufTy).Contents (Elt F) → (⟨S4096, .i32⟩ : BufTy).Contents (Elt F) → (⟨S4096, .i32⟩ : BufTy).Contents (Elt F)),
    StableHlo.ternary main_v94 main_v96 main_v70 main_v97 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_29 (constantI S_ 32 0#32),
    StableHlo.unary main_c_29 main_v98 (broadcastInDim S4096 ![] bcast_S_S4096 : (⟨S_, .i32⟩ : BufTy).Contents (Elt F) → (⟨S4096, .i32⟩ : BufTy).Contents (Elt F)),
    StableHlo.nullary main_c_30 (constantI S_ 32 1#32),
    StableHlo.unary main_c_30 main_v99 (broadcastInDim S4096 ![] bcast_S_S4096 : (⟨S_, .i32⟩ : BufTy).Contents (Elt F) → (⟨S4096, .i32⟩ : BufTy).Contents (Elt F)),
    StableHlo.unary main_v98 main_v100 (id : (⟨S4096, .i32⟩ : BufTy).Contents (Elt F) → (⟨S4096, .i32⟩ : BufTy).Contents (Elt F)),
    StableHlo.unary main_v99 main_v101 (id : (⟨S4096, .i32⟩ : BufTy).Contents (Elt F) → (⟨S4096, .i32⟩ : BufTy).Contents (Elt F)),
    StableHlo.unary main_v92 main_v102 (broadcastInDim S4096x1 ![0] bcast_S4096_S4096x1_0 : (⟨S4096, .i32⟩ : BufTy).Contents (Elt F) → (⟨S4096x1, .i32⟩ : BufTy).Contents (Elt F)),
    StableHlo.unary main_v100 main_v103 (broadcastInDim S4096x1 ![0] bcast_S4096_S4096x1_0 : (⟨S4096, .i32⟩ : BufTy).Contents (Elt F) → (⟨S4096x1, .i32⟩ : BufTy).Contents (Elt F)),
    StableHlo.unary main_v97 main_v104 (broadcastInDim S4096x1 ![0] bcast_S4096_S4096x1_0 : (⟨S4096, .i32⟩ : BufTy).Contents (Elt F) → (⟨S4096x1, .i32⟩ : BufTy).Contents (Elt F)),
    StableHlo.unary main_v101 main_v105 (broadcastInDim S4096x1 ![0] bcast_S4096_S4096x1_0 : (⟨S4096, .i32⟩ : BufTy).Contents (Elt F) → (⟨S4096x1, .i32⟩ : BufTy).Contents (Elt F)),
    StableHlo.nary ![main_v102, main_v103, main_v104, main_v105] main_v106 (fun u => concat4 (u 0) (u 1) (u 2) (u 3)),
    StableHlo.binary main_v87 main_v106 main_v107 ((fun x i => Host.gather gather_S4096x2x4096x2_S4096x4_S4096_n_0123_n_n_0123_1_1111 x i) : (⟨S4096x2x4096x2, .f32⟩ : BufTy).Contents (Elt F) → (⟨S4096x4, .i32⟩ : BufTy).Contents (Elt F) → (⟨S4096, .f32⟩ : BufTy).Contents (Elt F)),
    StableHlo.unary main_v86 main_v108 (Host.log : (⟨S4096, .f32⟩ : BufTy).Contents (Elt F) → (⟨S4096, .f32⟩ : BufTy).Contents (Elt F)),
    StableHlo.binary main_v108 main_v107 main_v109 (subf : (⟨S4096, .f32⟩ : BufTy).Contents (Elt F) → (⟨S4096, .f32⟩ : BufTy).Contents (Elt F) → (⟨S4096, .f32⟩ : BufTy).Contents (Elt F)),
    StableHlo.binary main_v109 main_v109 main_v110 (mulf : (⟨S4096, .f32⟩ : BufTy).Contents (Elt F) → (⟨S4096, .f32⟩ : BufTy).Contents (Elt F) → (⟨S4096, .f32⟩ : BufTy).Contents (Elt F)),
    StableHlo.nullary main_cst_31 (constant S_ .f32 0x00000000#32),
    StableHlo.binary main_v110 main_cst_31 main_v111 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_32 (constant S_ .f32 0x45800000#32),
    StableHlo.binary main_v111 main_cst_32 main_v112 (Host.divf : (⟨S_, .f32⟩ : BufTy).Contents (Elt F) → (⟨S_, .f32⟩ : BufTy).Contents (Elt F) → (⟨S_, .f32⟩ : BufTy).Contents (Elt F)),
    StableHlo.nullary main_cst_33 (constant S_ .f32 0x3F000000#32),
    StableHlo.binary main_cst_33 main_v112 main_v113 (mulf : (⟨S_, .f32⟩ : BufTy).Contents (Elt F) → (⟨S_, .f32⟩ : BufTy).Contents (Elt F) → (⟨S_, .f32⟩ : BufTy).Contents (Elt F)),
    StableHlo.binary main_v54 main_v113 main_v114 (addf : (⟨S_, .f32⟩ : BufTy).Contents (Elt F) → (⟨S_, .f32⟩ : BufTy).Contents (Elt F) → (⟨S_, .f32⟩ : BufTy).Contents (Elt F)) ]

/-- All 172 operations of @main, in order. -/
abbrev ops : List (HloOp τ sig (Elt F)) :=
  [ StableHlo.unary main_arg1 main_v0 (broadcastInDim S4096x2x128 ![0, 2] bcast_S4096x128_S4096x2x128_0_2 : (⟨S4096x128, .f32⟩ : BufTy).Contents (Elt F) → (⟨S4096x2x128, .f32⟩ : BufTy).Contents (Elt F)),
    StableHlo.reshape main_v0 main_v1 rfl shapeCasts_S4096x2x128_S8192x128,
    StableHlo.unary main_arg0 main_v2 ((transpose S128x8192 [1, 0] · transposes_S8192x128_S128x8192_1_0) : (⟨S8192x128, .f32⟩ : BufTy).Contents (Elt F) → (⟨S128x8192, .f32⟩ : BufTy).Contents (Elt F)),
    StableHlo.binary main_arg0 main_v2 main_v3 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst (constant S_ .f32 0x43000000#32),
    StableHlo.unary main_cst main_v4 (broadcastInDim S8192x8192 ![] bcast_S_S8192x8192 : (⟨S_, .f32⟩ : BufTy).Contents (Elt F) → (⟨S8192x8192, .f32⟩ : BufTy).Contents (Elt F)),
    StableHlo.binary main_v3 main_v4 main_v5 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_0 (constant S_ .f32 0x3F800000#32),
    StableHlo.unary main_cst_0 main_v6 (broadcastInDim S8192x8192 ![] bcast_S_S8192x8192 : (⟨S_, .f32⟩ : BufTy).Contents (Elt F) → (⟨S8192x8192, .f32⟩ : BufTy).Contents (Elt F)),
    StableHlo.binary main_v6 main_v5 main_v7 (addf : (⟨S8192x8192, .f32⟩ : BufTy).Contents (Elt F) → (⟨S8192x8192, .f32⟩ : BufTy).Contents (Elt F) → (⟨S8192x8192, .f32⟩ : BufTy).Contents (Elt F)),
    StableHlo.unary main_v7 main_v8 (Host.exp : (⟨S8192x8192, .f32⟩ : BufTy).Contents (Elt F) → (⟨S8192x8192, .f32⟩ : BufTy).Contents (Elt F)),
    StableHlo.reshape main_v8 main_v9 rfl shapeCasts_S8192x8192_S4096x2x4096x2,
    StableHlo.nullary main_cst_1 (constant S_ .f32 0x00000000#32),
    StableHlo.binary main_v9 main_cst_1 main_v10 ((fun x v => Host.reduceAdd x v reducesTo_S4096x2x4096x2_S4096_d1_2_3 h_S_) : (⟨S4096x2x4096x2, .f32⟩ : BufTy).Contents (Elt F) → (⟨S_, .f32⟩ : BufTy).Contents (Elt F) → (⟨S4096, .f32⟩ : BufTy).Contents (Elt F)),
    StableHlo.nullary main_v11 (iotaInDim S4096 32 0),
    StableHlo.nullary main_c (constantI S_ 32 0#32),
    StableHlo.unary main_c main_v12 (broadcastInDim S4096 ![] bcast_S_S4096 : (⟨S_, .i32⟩ : BufTy).Contents (Elt F) → (⟨S4096, .i32⟩ : BufTy).Contents (Elt F)),
    StableHlo.binary main_v11 main_v12 main_v13 (cmpi .slt : (⟨S4096, .i32⟩ : BufTy).Contents (Elt F) → (⟨S4096, .i32⟩ : BufTy).Contents (Elt F) → (⟨S4096, .i1⟩ : BufTy).Contents (Elt F)),
    StableHlo.nullary main_c_2 (constantI S_ 32 4096#32),
    StableHlo.unary main_c_2 main_v14 (broadcastInDim S4096 ![] bcast_S_S4096 : (⟨S_, .i32⟩ : BufTy).Contents (Elt F) → (⟨S4096, .i32⟩ : BufTy).Contents (Elt F)),
    StableHlo.binary main_v11 main_v14 main_v15 (addi : (⟨S4096, .i32⟩ : BufTy).Contents (Elt F) → (⟨S4096, .i32⟩ : BufTy).Contents (Elt F) → (⟨S4096, .i32⟩ : BufTy).Contents (Elt F)),
    StableHlo.ternary main_v13 main_v15 main_v11 main_v16 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_3 (constantI S_ 32 0#32),
    StableHlo.unary main_c_3 main_v17 (broadcastInDim S4096 ![] bcast_S_S4096 : (⟨S_, .i32⟩ : BufTy).Contents (Elt F) → (⟨S4096, .i32⟩ : BufTy).Contents (Elt F)),
    StableHlo.binary main_v11 main_v17 main_v18 (cmpi .slt : (⟨S4096, .i32⟩ : BufTy).Contents (Elt F) → (⟨S4096, .i32⟩ : BufTy).Contents (Elt F) → (⟨S4096, .i1⟩ : BufTy).Contents (Elt F)),
    StableHlo.nullary main_c_4 (constantI S_ 32 4096#32),
    StableHlo.unary main_c_4 main_v19 (broadcastInDim S4096 ![] bcast_S_S4096 : (⟨S_, .i32⟩ : BufTy).Contents (Elt F) → (⟨S4096, .i32⟩ : BufTy).Contents (Elt F)),
    StableHlo.binary main_v11 main_v19 main_v20 (addi : (⟨S4096, .i32⟩ : BufTy).Contents (Elt F) → (⟨S4096, .i32⟩ : BufTy).Contents (Elt F) → (⟨S4096, .i32⟩ : BufTy).Contents (Elt F)),
    StableHlo.ternary main_v18 main_v20 main_v11 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v16 main_v22 (broadcastInDim S4096x1 ![0] bcast_S4096_S4096x1_0 : (⟨S4096, .i32⟩ : BufTy).Contents (Elt F) → (⟨S4096x1, .i32⟩ : BufTy).Contents (Elt F)),
    StableHlo.unary main_v21 main_v23 (broadcastInDim S4096x1 ![0] bcast_S4096_S4096x1_0 : (⟨S4096, .i32⟩ : BufTy).Contents (Elt F) → (⟨S4096x1, .i32⟩ : BufTy).Contents (Elt F)),
    StableHlo.binary main_v22 main_v23 main_v24 (concat2 : (⟨S4096x1, .i32⟩ : BufTy).Contents (Elt F) → (⟨S4096x1, .i32⟩ : BufTy).Contents (Elt F) → (⟨S4096x2, .i32⟩ : BufTy).Contents (Elt F)),
    StableHlo.binary main_v9 main_v24 main_v25 ((fun x i => Host.gather gather_S4096x2x4096x2_S4096x2_S4096x2x2_12_02_n_n_02_1_1212 x i) : (⟨S4096x2x4096x2, .f32⟩ : BufTy).Contents (Elt F) → (⟨S4096x2, .i32⟩ : BufTy).Contents (Elt F) → (⟨S4096x2x2, .f32⟩ : BufTy).Contents (Elt F)),
    StableHlo.nullary main_cst_5 (constant S_ .f32 0x00000000#32),
    StableHlo.binary main_v25 main_cst_5 main_v26 ((fun x v => Host.reduceAdd x v reducesTo_S4096x2x2_S4096_d1_2 h_S_) : (⟨S4096x2x2, .f32⟩ : BufTy).Contents (Elt F) → (⟨S_, .f32⟩ : BufTy).Contents (Elt F) → (⟨S4096, .f32⟩ : BufTy).Contents (Elt F)),
    StableHlo.binary main_v10 main_v26 main_v27 (subf : (⟨S4096, .f32⟩ : BufTy).Contents (Elt F) → (⟨S4096, .f32⟩ : BufTy).Contents (Elt F) → (⟨S4096, .f32⟩ : BufTy).Contents (Elt F)),
    StableHlo.reshape main_v5 main_v28 rfl shapeCasts_S8192x8192_S4096x2x4096x2,
    StableHlo.nullary main_c_6 (constantI S_ 32 0#32),
    StableHlo.unary main_c_6 main_v29 (broadcastInDim S4096 ![] bcast_S_S4096 : (⟨S_, .i32⟩ : BufTy).Contents (Elt F) → (⟨S4096, .i32⟩ : BufTy).Contents (Elt F)),
    StableHlo.binary main_v11 main_v29 main_v30 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 4096#32),
    StableHlo.unary main_c_7 main_v31 (broadcastInDim S4096 ![] bcast_S_S4096 : (⟨S_, .i32⟩ : BufTy).Contents (Elt F) → (⟨S4096, .i32⟩ : BufTy).Contents (Elt F)),
    StableHlo.binary main_v11 main_v31 main_v32 (addi : (⟨S4096, .i32⟩ : BufTy).Contents (Elt F) → (⟨S4096, .i32⟩ : BufTy).Contents (Elt F) → (⟨S4096, .i32⟩ : BufTy).Contents (Elt F)),
    StableHlo.ternary main_v30 main_v32 main_v11 main_v33 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_8 (constantI S_ 32 0#32),
    StableHlo.unary main_c_8 main_v34 (broadcastInDim S4096 ![] bcast_S_S4096 : (⟨S_, .i32⟩ : BufTy).Contents (Elt F) → (⟨S4096, .i32⟩ : BufTy).Contents (Elt F)),
    StableHlo.binary main_v11 main_v34 main_v35 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 4096#32),
    StableHlo.unary main_c_9 main_v36 (broadcastInDim S4096 ![] bcast_S_S4096 : (⟨S_, .i32⟩ : BufTy).Contents (Elt F) → (⟨S4096, .i32⟩ : BufTy).Contents (Elt F)),
    StableHlo.binary main_v11 main_v36 main_v37 (addi : (⟨S4096, .i32⟩ : BufTy).Contents (Elt F) → (⟨S4096, .i32⟩ : BufTy).Contents (Elt F) → (⟨S4096, .i32⟩ : BufTy).Contents (Elt F)),
    StableHlo.ternary main_v35 main_v37 main_v11 main_v38 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_10 (constantI S_ 32 0#32),
    StableHlo.unary main_c_10 main_v39 (broadcastInDim S4096 ![] bcast_S_S4096 : (⟨S_, .i32⟩ : BufTy).Contents (Elt F) → (⟨S4096, .i32⟩ : BufTy).Contents (Elt F)),
    StableHlo.nullary main_c_11 (constantI S_ 32 1#32),
    StableHlo.unary main_c_11 main_v40 (broadcastInDim S4096 ![] bcast_S_S4096 : (⟨S_, .i32⟩ : BufTy).Contents (Elt F) → (⟨S4096, .i32⟩ : BufTy).Contents (Elt F)),
    StableHlo.unary main_v39 main_v41 (id : (⟨S4096, .i32⟩ : BufTy).Contents (Elt F) → (⟨S4096, .i32⟩ : BufTy).Contents (Elt F)),
    StableHlo.unary main_v40 main_v42 (id : (⟨S4096, .i32⟩ : BufTy).Contents (Elt F) → (⟨S4096, .i32⟩ : BufTy).Contents (Elt F)),
    StableHlo.unary main_v33 main_v43 (broadcastInDim S4096x1 ![0] bcast_S4096_S4096x1_0 : (⟨S4096, .i32⟩ : BufTy).Contents (Elt F) → (⟨S4096x1, .i32⟩ : BufTy).Contents (Elt F)),
    StableHlo.unary main_v41 main_v44 (broadcastInDim S4096x1 ![0] bcast_S4096_S4096x1_0 : (⟨S4096, .i32⟩ : BufTy).Contents (Elt F) → (⟨S4096x1, .i32⟩ : BufTy).Contents (Elt F)),
    StableHlo.unary main_v38 main_v45 (broadcastInDim S4096x1 ![0] bcast_S4096_S4096x1_0 : (⟨S4096, .i32⟩ : BufTy).Contents (Elt F) → (⟨S4096x1, .i32⟩ : BufTy).Contents (Elt F)),
    StableHlo.unary main_v42 main_v46 (broadcastInDim S4096x1 ![0] bcast_S4096_S4096x1_0 : (⟨S4096, .i32⟩ : BufTy).Contents (Elt F) → (⟨S4096x1, .i32⟩ : BufTy).Contents (Elt F)),
    StableHlo.nary ![main_v43, main_v44, main_v45, main_v46] main_v47 (fun u => concat4 (u 0) (u 1) (u 2) (u 3)),
    StableHlo.binary main_v28 main_v47 main_v48 ((fun x i => Host.gather gather_S4096x2x4096x2_S4096x4_S4096_n_0123_n_n_0123_1_1111 x i) : (⟨S4096x2x4096x2, .f32⟩ : BufTy).Contents (Elt F) → (⟨S4096x4, .i32⟩ : BufTy).Contents (Elt F) → (⟨S4096, .f32⟩ : BufTy).Contents (Elt F)),
    StableHlo.unary main_v27 main_v49 (Host.log : (⟨S4096, .f32⟩ : BufTy).Contents (Elt F) → (⟨S4096, .f32⟩ : BufTy).Contents (Elt F)),
    StableHlo.binary main_v49 main_v48 main_v50 (subf : (⟨S4096, .f32⟩ : BufTy).Contents (Elt F) → (⟨S4096, .f32⟩ : BufTy).Contents (Elt F) → (⟨S4096, .f32⟩ : BufTy).Contents (Elt F)),
    StableHlo.binary main_v50 main_v50 main_v51 (mulf : (⟨S4096, .f32⟩ : BufTy).Contents (Elt F) → (⟨S4096, .f32⟩ : BufTy).Contents (Elt F) → (⟨S4096, .f32⟩ : BufTy).Contents (Elt F)),
    StableHlo.nullary main_cst_12 (constant S_ .f32 0x00000000#32),
    StableHlo.binary main_v51 main_cst_12 main_v52 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_13 (constant S_ .f32 0x45800000#32),
    StableHlo.binary main_v52 main_cst_13 main_v53 (Host.divf : (⟨S_, .f32⟩ : BufTy).Contents (Elt F) → (⟨S_, .f32⟩ : BufTy).Contents (Elt F) → (⟨S_, .f32⟩ : BufTy).Contents (Elt F)),
    StableHlo.nullary main_cst_14 (constant S_ .f32 0x3F000000#32),
    StableHlo.binary main_cst_14 main_v53 main_v54 (mulf : (⟨S_, .f32⟩ : BufTy).Contents (Elt F) → (⟨S_, .f32⟩ : BufTy).Contents (Elt F) → (⟨S_, .f32⟩ : BufTy).Contents (Elt F)),
    StableHlo.nullary main_v55 (iotaInDim S8192 32 0),
    StableHlo.nullary main_c_15 (constantI S_ 32 2#32),
    StableHlo.TRef.unary (.of main_c_15 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S8192 ![] bcast_S_S8192),
    StableHlo.TRef.binary (.of main_v55 : StableHlo.TRef sig ⟨S8192, .i32⟩) main_call0.v3 main_call0.v4 Host.remsi,
    StableHlo.TRef.nullary main_call0.c_1 (constantI S_ 32 0#32),
    StableHlo.TRef.unary main_call0.c_1 main_call0.v5 (broadcastInDim S8192 ![] bcast_S_S8192),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8192 ![] bcast_S_S8192),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S8192 ![] bcast_S_S8192),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S8192 ![] bcast_S_S8192),
    StableHlo.TRef.binary main_call0.v4 main_call0.v13 main_call0.v14 addi,
    StableHlo.TRef.ternary main_call0.v12 main_call0.v14 main_call0.v4 main_call0.v15 select,
    StableHlo.nullary main_c_16 (constantI S_ 32 0#32),
    StableHlo.unary main_c_16 main_v57 (broadcastInDim S8192 ![] bcast_S_S8192 : (⟨S_, .i32⟩ : BufTy).Contents (Elt F) → (⟨S8192, .i32⟩ : BufTy).Contents (Elt F)),
    StableHlo.binary main_v56 main_v57 main_v58 (cmpi .eq : (⟨S8192, .i32⟩ : BufTy).Contents (Elt F) → (⟨S8192, .i32⟩ : BufTy).Contents (Elt F) → (⟨S8192, .i1⟩ : BufTy).Contents (Elt F)),
    StableHlo.unary main_v58 main_v59 (broadcastInDim S8192x1 ![0] bcast_S8192_S8192x1_0 : (⟨S8192, .i1⟩ : BufTy).Contents (Elt F) → (⟨S8192x1, .i1⟩ : BufTy).Contents (Elt F)),
    StableHlo.TRef.unary (.of main_v59 : StableHlo.TRef sig ⟨S8192x1, .i1⟩) main_call1.v0 (broadcastInDim S8192x128 ![0, 1] bcast_S8192x1_S8192x128_0_1),
    StableHlo.TRef.ternary main_call1.v0 (.of main_arg0 : StableHlo.TRef sig ⟨S8192x128, .f32⟩) (.of main_v1 : StableHlo.TRef sig ⟨S8192x128, .f32⟩) main_call1.v1 select,
    StableHlo.unary main_v60 main_v61 ((transpose S128x8192 [1, 0] · transposes_S8192x128_S128x8192_1_0) : (⟨S8192x128, .f32⟩ : BufTy).Contents (Elt F) → (⟨S128x8192, .f32⟩ : BufTy).Contents (Elt F)),
    StableHlo.binary main_v60 main_v61 main_v62 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst_17 (constant S_ .f32 0x43000000#32),
    StableHlo.unary main_cst_17 main_v63 (broadcastInDim S8192x8192 ![] bcast_S_S8192x8192 : (⟨S_, .f32⟩ : BufTy).Contents (Elt F) → (⟨S8192x8192, .f32⟩ : BufTy).Contents (Elt F)),
    StableHlo.binary main_v62 main_v63 main_v64 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_18 (constant S_ .f32 0x3F800000#32),
    StableHlo.unary main_cst_18 main_v65 (broadcastInDim S8192x8192 ![] bcast_S_S8192x8192 : (⟨S_, .f32⟩ : BufTy).Contents (Elt F) → (⟨S8192x8192, .f32⟩ : BufTy).Contents (Elt F)),
    StableHlo.binary main_v65 main_v64 main_v66 (addf : (⟨S8192x8192, .f32⟩ : BufTy).Contents (Elt F) → (⟨S8192x8192, .f32⟩ : BufTy).Contents (Elt F) → (⟨S8192x8192, .f32⟩ : BufTy).Contents (Elt F)),
    StableHlo.unary main_v66 main_v67 (Host.exp : (⟨S8192x8192, .f32⟩ : BufTy).Contents (Elt F) → (⟨S8192x8192, .f32⟩ : BufTy).Contents (Elt F)),
    StableHlo.reshape main_v67 main_v68 rfl shapeCasts_S8192x8192_S4096x2x4096x2,
    StableHlo.nullary main_cst_19 (constant S_ .f32 0x00000000#32),
    StableHlo.binary main_v68 main_cst_19 main_v69 ((fun x v => Host.reduceAdd x v reducesTo_S4096x2x4096x2_S4096_d1_2_3 h_S_) : (⟨S4096x2x4096x2, .f32⟩ : BufTy).Contents (Elt F) → (⟨S_, .f32⟩ : BufTy).Contents (Elt F) → (⟨S4096, .f32⟩ : BufTy).Contents (Elt F)),
    StableHlo.nullary main_v70 (iotaInDim S4096 32 0),
    StableHlo.nullary main_c_20 (constantI S_ 32 0#32),
    StableHlo.unary main_c_20 main_v71 (broadcastInDim S4096 ![] bcast_S_S4096 : (⟨S_, .i32⟩ : BufTy).Contents (Elt F) → (⟨S4096, .i32⟩ : BufTy).Contents (Elt F)),
    StableHlo.binary main_v70 main_v71 main_v72 (cmpi .slt : (⟨S4096, .i32⟩ : BufTy).Contents (Elt F) → (⟨S4096, .i32⟩ : BufTy).Contents (Elt F) → (⟨S4096, .i1⟩ : BufTy).Contents (Elt F)),
    StableHlo.nullary main_c_21 (constantI S_ 32 4096#32),
    StableHlo.unary main_c_21 main_v73 (broadcastInDim S4096 ![] bcast_S_S4096 : (⟨S_, .i32⟩ : BufTy).Contents (Elt F) → (⟨S4096, .i32⟩ : BufTy).Contents (Elt F)),
    StableHlo.binary main_v70 main_v73 main_v74 (addi : (⟨S4096, .i32⟩ : BufTy).Contents (Elt F) → (⟨S4096, .i32⟩ : BufTy).Contents (Elt F) → (⟨S4096, .i32⟩ : BufTy).Contents (Elt F)),
    StableHlo.ternary main_v72 main_v74 main_v70 main_v75 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_22 (constantI S_ 32 0#32),
    StableHlo.unary main_c_22 main_v76 (broadcastInDim S4096 ![] bcast_S_S4096 : (⟨S_, .i32⟩ : BufTy).Contents (Elt F) → (⟨S4096, .i32⟩ : BufTy).Contents (Elt F)),
    StableHlo.binary main_v70 main_v76 main_v77 (cmpi .slt : (⟨S4096, .i32⟩ : BufTy).Contents (Elt F) → (⟨S4096, .i32⟩ : BufTy).Contents (Elt F) → (⟨S4096, .i1⟩ : BufTy).Contents (Elt F)),
    StableHlo.nullary main_c_23 (constantI S_ 32 4096#32),
    StableHlo.unary main_c_23 main_v78 (broadcastInDim S4096 ![] bcast_S_S4096 : (⟨S_, .i32⟩ : BufTy).Contents (Elt F) → (⟨S4096, .i32⟩ : BufTy).Contents (Elt F)),
    StableHlo.binary main_v70 main_v78 main_v79 (addi : (⟨S4096, .i32⟩ : BufTy).Contents (Elt F) → (⟨S4096, .i32⟩ : BufTy).Contents (Elt F) → (⟨S4096, .i32⟩ : BufTy).Contents (Elt F)),
    StableHlo.ternary main_v77 main_v79 main_v70 main_v80 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v75 main_v81 (broadcastInDim S4096x1 ![0] bcast_S4096_S4096x1_0 : (⟨S4096, .i32⟩ : BufTy).Contents (Elt F) → (⟨S4096x1, .i32⟩ : BufTy).Contents (Elt F)),
    StableHlo.unary main_v80 main_v82 (broadcastInDim S4096x1 ![0] bcast_S4096_S4096x1_0 : (⟨S4096, .i32⟩ : BufTy).Contents (Elt F) → (⟨S4096x1, .i32⟩ : BufTy).Contents (Elt F)),
    StableHlo.binary main_v81 main_v82 main_v83 (concat2 : (⟨S4096x1, .i32⟩ : BufTy).Contents (Elt F) → (⟨S4096x1, .i32⟩ : BufTy).Contents (Elt F) → (⟨S4096x2, .i32⟩ : BufTy).Contents (Elt F)),
    StableHlo.binary main_v68 main_v83 main_v84 ((fun x i => Host.gather gather_S4096x2x4096x2_S4096x2_S4096x2x2_12_02_n_n_02_1_1212 x i) : (⟨S4096x2x4096x2, .f32⟩ : BufTy).Contents (Elt F) → (⟨S4096x2, .i32⟩ : BufTy).Contents (Elt F) → (⟨S4096x2x2, .f32⟩ : BufTy).Contents (Elt F)),
    StableHlo.nullary main_cst_24 (constant S_ .f32 0x00000000#32),
    StableHlo.binary main_v84 main_cst_24 main_v85 ((fun x v => Host.reduceAdd x v reducesTo_S4096x2x2_S4096_d1_2 h_S_) : (⟨S4096x2x2, .f32⟩ : BufTy).Contents (Elt F) → (⟨S_, .f32⟩ : BufTy).Contents (Elt F) → (⟨S4096, .f32⟩ : BufTy).Contents (Elt F)),
    StableHlo.binary main_v69 main_v85 main_v86 (subf : (⟨S4096, .f32⟩ : BufTy).Contents (Elt F) → (⟨S4096, .f32⟩ : BufTy).Contents (Elt F) → (⟨S4096, .f32⟩ : BufTy).Contents (Elt F)),
    StableHlo.reshape main_v64 main_v87 rfl shapeCasts_S8192x8192_S4096x2x4096x2,
    StableHlo.nullary main_c_25 (constantI S_ 32 0#32),
    StableHlo.unary main_c_25 main_v88 (broadcastInDim S4096 ![] bcast_S_S4096 : (⟨S_, .i32⟩ : BufTy).Contents (Elt F) → (⟨S4096, .i32⟩ : BufTy).Contents (Elt F)),
    StableHlo.binary main_v70 main_v88 main_v89 (cmpi .slt : (⟨S4096, .i32⟩ : BufTy).Contents (Elt F) → (⟨S4096, .i32⟩ : BufTy).Contents (Elt F) → (⟨S4096, .i1⟩ : BufTy).Contents (Elt F)),
    StableHlo.nullary main_c_26 (constantI S_ 32 4096#32),
    StableHlo.unary main_c_26 main_v90 (broadcastInDim S4096 ![] bcast_S_S4096 : (⟨S_, .i32⟩ : BufTy).Contents (Elt F) → (⟨S4096, .i32⟩ : BufTy).Contents (Elt F)),
    StableHlo.binary main_v70 main_v90 main_v91 (addi : (⟨S4096, .i32⟩ : BufTy).Contents (Elt F) → (⟨S4096, .i32⟩ : BufTy).Contents (Elt F) → (⟨S4096, .i32⟩ : BufTy).Contents (Elt F)),
    StableHlo.ternary main_v89 main_v91 main_v70 main_v92 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_27 (constantI S_ 32 0#32),
    StableHlo.unary main_c_27 main_v93 (broadcastInDim S4096 ![] bcast_S_S4096 : (⟨S_, .i32⟩ : BufTy).Contents (Elt F) → (⟨S4096, .i32⟩ : BufTy).Contents (Elt F)),
    StableHlo.binary main_v70 main_v93 main_v94 (cmpi .slt : (⟨S4096, .i32⟩ : BufTy).Contents (Elt F) → (⟨S4096, .i32⟩ : BufTy).Contents (Elt F) → (⟨S4096, .i1⟩ : BufTy).Contents (Elt F)),
    StableHlo.nullary main_c_28 (constantI S_ 32 4096#32),
    StableHlo.unary main_c_28 main_v95 (broadcastInDim S4096 ![] bcast_S_S4096 : (⟨S_, .i32⟩ : BufTy).Contents (Elt F) → (⟨S4096, .i32⟩ : BufTy).Contents (Elt F)),
    StableHlo.binary main_v70 main_v95 main_v96 (addi : (⟨S4096, .i32⟩ : BufTy).Contents (Elt F) → (⟨S4096, .i32⟩ : BufTy).Contents (Elt F) → (⟨S4096, .i32⟩ : BufTy).Contents (Elt F)),
    StableHlo.ternary main_v94 main_v96 main_v70 main_v97 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_29 (constantI S_ 32 0#32),
    StableHlo.unary main_c_29 main_v98 (broadcastInDim S4096 ![] bcast_S_S4096 : (⟨S_, .i32⟩ : BufTy).Contents (Elt F) → (⟨S4096, .i32⟩ : BufTy).Contents (Elt F)),
    StableHlo.nullary main_c_30 (constantI S_ 32 1#32),
    StableHlo.unary main_c_30 main_v99 (broadcastInDim S4096 ![] bcast_S_S4096 : (⟨S_, .i32⟩ : BufTy).Contents (Elt F) → (⟨S4096, .i32⟩ : BufTy).Contents (Elt F)),
    StableHlo.unary main_v98 main_v100 (id : (⟨S4096, .i32⟩ : BufTy).Contents (Elt F) → (⟨S4096, .i32⟩ : BufTy).Contents (Elt F)),
    StableHlo.unary main_v99 main_v101 (id : (⟨S4096, .i32⟩ : BufTy).Contents (Elt F) → (⟨S4096, .i32⟩ : BufTy).Contents (Elt F)),
    StableHlo.unary main_v92 main_v102 (broadcastInDim S4096x1 ![0] bcast_S4096_S4096x1_0 : (⟨S4096, .i32⟩ : BufTy).Contents (Elt F) → (⟨S4096x1, .i32⟩ : BufTy).Contents (Elt F)),
    StableHlo.unary main_v100 main_v103 (broadcastInDim S4096x1 ![0] bcast_S4096_S4096x1_0 : (⟨S4096, .i32⟩ : BufTy).Contents (Elt F) → (⟨S4096x1, .i32⟩ : BufTy).Contents (Elt F)),
    StableHlo.unary main_v97 main_v104 (broadcastInDim S4096x1 ![0] bcast_S4096_S4096x1_0 : (⟨S4096, .i32⟩ : BufTy).Contents (Elt F) → (⟨S4096x1, .i32⟩ : BufTy).Contents (Elt F)),
    StableHlo.unary main_v101 main_v105 (broadcastInDim S4096x1 ![0] bcast_S4096_S4096x1_0 : (⟨S4096, .i32⟩ : BufTy).Contents (Elt F) → (⟨S4096x1, .i32⟩ : BufTy).Contents (Elt F)),
    StableHlo.nary ![main_v102, main_v103, main_v104, main_v105] main_v106 (fun u => concat4 (u 0) (u 1) (u 2) (u 3)),
    StableHlo.binary main_v87 main_v106 main_v107 ((fun x i => Host.gather gather_S4096x2x4096x2_S4096x4_S4096_n_0123_n_n_0123_1_1111 x i) : (⟨S4096x2x4096x2, .f32⟩ : BufTy).Contents (Elt F) → (⟨S4096x4, .i32⟩ : BufTy).Contents (Elt F) → (⟨S4096, .f32⟩ : BufTy).Contents (Elt F)),
    StableHlo.unary main_v86 main_v108 (Host.log : (⟨S4096, .f32⟩ : BufTy).Contents (Elt F) → (⟨S4096, .f32⟩ : BufTy).Contents (Elt F)),
    StableHlo.binary main_v108 main_v107 main_v109 (subf : (⟨S4096, .f32⟩ : BufTy).Contents (Elt F) → (⟨S4096, .f32⟩ : BufTy).Contents (Elt F) → (⟨S4096, .f32⟩ : BufTy).Contents (Elt F)),
    StableHlo.binary main_v109 main_v109 main_v110 (mulf : (⟨S4096, .f32⟩ : BufTy).Contents (Elt F) → (⟨S4096, .f32⟩ : BufTy).Contents (Elt F) → (⟨S4096, .f32⟩ : BufTy).Contents (Elt F)),
    StableHlo.nullary main_cst_31 (constant S_ .f32 0x00000000#32),
    StableHlo.binary main_v110 main_cst_31 main_v111 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_32 (constant S_ .f32 0x45800000#32),
    StableHlo.binary main_v111 main_cst_32 main_v112 (Host.divf : (⟨S_, .f32⟩ : BufTy).Contents (Elt F) → (⟨S_, .f32⟩ : BufTy).Contents (Elt F) → (⟨S_, .f32⟩ : BufTy).Contents (Elt F)),
    StableHlo.nullary main_cst_33 (constant S_ .f32 0x3F000000#32),
    StableHlo.binary main_cst_33 main_v112 main_v113 (mulf : (⟨S_, .f32⟩ : BufTy).Contents (Elt F) → (⟨S_, .f32⟩ : BufTy).Contents (Elt F) → (⟨S_, .f32⟩ : BufTy).Contents (Elt F)),
    StableHlo.binary main_v54 main_v113 main_v114 (addf : (⟨S_, .f32⟩ : BufTy).Contents (Elt F) → (⟨S_, .f32⟩ : BufTy).Contents (Elt F) → (⟨S_, .f32⟩ : BufTy).Contents (Elt F)) ]

/-- The whole line is the three windows' segments one after the other. -/
theorem ops_eq : (ops : List (HloOp τ sig (Elt F))) = ops0 ++ (ops1 ++ ops2) := rfl

/-- The first window is its 60 operations run in order. -/
theorem part0_eq (c : Dev nD) : main_part0 (F := F) c = seq ops0 := rfl

set_option maxRecDepth 4096 in
/-- The second window, its two calls unfolded, is its 81 operations run in order: both sides are one chain of
    operation steps once sequencing is reassociated. -/
theorem part1_eq (c : Dev nD) : main_part1 (F := F) c = seq ops1 := by
  simp only [main_part1, fn_remainder.body, fn_where.body, fn_where_0.body, seq, bind_assoc, pure_bind]
  rfl

/-- The third window is its 31 operations run in order. -/
theorem part2_eq (c : Dev nD) : main_part2 (F := F) c = seq ops2 := rfl

/-- @main is the straight line of its 172 operations. -/
theorem main_eq (c : Dev nD) : main (F := F) c = seq ops := by
  rw [ops_eq, seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    unary_bufs_sub .., reshape_bufs_sub .., unary_bufs_sub .., binary_bufs_sub .., nullary_bufs_sub .., unary_bufs_sub ..,
    binary_bufs_sub .., nullary_bufs_sub .., unary_bufs_sub .., binary_bufs_sub .., unary_bufs_sub .., reshape_bufs_sub ..,
    nullary_bufs_sub .., binary_bufs_sub .., nullary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., binary_bufs_sub .., binary_bufs_sub ..,
    reshape_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., nullary_bufs_sub ..,
    unary_bufs_sub .., unary_bufs_sub .., unary_bufs_sub .., unary_bufs_sub .., unary_bufs_sub .., unary_bufs_sub ..,
    unary_bufs_sub .., nary_bufs_sub .., binary_bufs_sub .., unary_bufs_sub .., binary_bufs_sub .., binary_bufs_sub ..,
    nullary_bufs_sub .., binary_bufs_sub .., nullary_bufs_sub .., binary_bufs_sub .., nullary_bufs_sub .., binary_bufs_sub ..,
    nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., unary_bufs_sub .., unary_bufs_sub .., ternary_bufs_sub .., unary_bufs_sub ..,
    binary_bufs_sub .., nullary_bufs_sub .., unary_bufs_sub .., binary_bufs_sub .., nullary_bufs_sub .., unary_bufs_sub ..,
    binary_bufs_sub .., unary_bufs_sub .., reshape_bufs_sub .., nullary_bufs_sub .., binary_bufs_sub .., nullary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    nullary_bufs_sub .., binary_bufs_sub .., binary_bufs_sub .., reshape_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., nullary_bufs_sub .., unary_bufs_sub .., unary_bufs_sub .., unary_bufs_sub ..,
    unary_bufs_sub .., unary_bufs_sub .., unary_bufs_sub .., unary_bufs_sub .., nary_bufs_sub .., binary_bufs_sub ..,
    unary_bufs_sub .., binary_bufs_sub .., binary_bufs_sub .., nullary_bufs_sub .., binary_bufs_sub .., nullary_bufs_sub ..,
    binary_bufs_sub .., nullary_bufs_sub .., binary_bufs_sub .., binary_bufs_sub ..⟩

/-- On every device, for any float values, from any memory with zero counters: every weakly fair execution of @main
    on the TensorCores terminates, and every final state has each TensorCore buffer at the operations' fold over
    the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
/-- No operation writes the first argument's buffer: it keeps its contents. -/
theorem kept_arg0 (V : Valuation τ sig (Elt F)) :
    after ops V (main_arg0 : DevRef τ sig) = V (main_arg0 : DevRef τ sig) := by
  after_results_simp

set_option maxRecDepth 8192 in
/-- No operation writes the second argument's buffer: it keeps its contents. -/
theorem kept_arg1 (V : Valuation τ sig (Elt F)) :
    after ops V (main_arg1 : DevRef τ sig) = V (main_arg1 : DevRef τ sig) := by
  after_results_simp

/-- The same over the launch contents of a memory. -/
theorem kept_arg0_mem (m : (ℓ : Loc nD τ sig) → Buf (Elt F) ℓ) (c : Dev nD) :
    after ops (launchContents m c) (main_arg0 : DevRef τ sig) = m ((c.tc : Thread nD τ).loc main_arg0) := kept_arg0 _
theorem kept_arg1_mem (m : (ℓ : Loc nD τ sig) → Buf (Elt F) ℓ) (c : Dev nD) :
    after ops (launchContents m c) (main_arg1 : DevRef τ sig) = m ((c.tc : Thread nD τ).loc main_arg1) := kept_arg1 _

end Cert.ReferenceIdeal.RefRun

end
-- ==== Proof.RefValMix.lean ====
/-
  The mixed matrix of the reference program, as the composition of its operations, read entry by entry.

  The reference builds a second matrix from its two arguments: the second argument's 4096 rows are each repeated
  twice (a broadcast to [4096, 2, 128] reshaped to [8192, 128]), the row numbers 0 … 8191 are reduced modulo 2 by the
  usual sign-corrected integer remainder, and a row is taken from the first argument where the remainder is 0 and from
  the repeated matrix otherwise.  Row numbers are below 8192, far from any overflow, so the remainder word of row r is
  the word of r % 2, the sign correction never fires, and entry (r, k) is the first argument's on even rows and the
  second argument's row r / 2 on odd rows.
-/
import proofs.«153953_j64141041599004_1_alg».proof.Proof.Gen.ReferenceIdeal
import proofs.«153953_j64141041599004_1_alg».proof.Proof.Spec
import Idealize.ShloMosaic.Lib.IdealHost
import Idealize.ShloMosaic.Lib.ValueLayout
import Idealize.ShloMosaic.Lib.Affine

noncomputable section

namespace Cert.ReferenceIdeal.RefVal

open Cert.ReferenceIdeal Idealize.ShloMosaic Idealize.ShloMosaic.ValueIdx
open Facts₀ Facts

/-- The second argument with each row repeated twice: the broadcast to [4096, 2, 128], reshaped to [8192, 128]. -/
def repRef (y : FVec Ideal S4096x128 .f32) : FVec Ideal S8192x128 .f32 :=
  shapeCast S8192x128 (broadcastInDim S4096x2x128 ![0, 2] bcast_S4096x128_S4096x2x128_0_2 y) shapeCasts_S4096x2x128_S8192x128

/-- The divisor of the remainder: 2, replaced by 1 were it 0. -/
def divW : IVec S_ 32 :=
  select (cmpi .eq (id (constantI S_ 32 2#32)) (constantI S_ 32 0#32)) (constantI S_ 32 1#32) (id (constantI S_ 32 2#32))

/-- The truncated remainder of the row numbers by the divisor. -/
def rem0 : IVec S8192 32 := Host.remsi (iotaInDim S8192 32 0) (broadcastInDim S8192 ![] bcast_S_S8192 divW)

/-- The sign-corrected remainder: the divisor added where the truncated remainder is nonzero and of the other sign. -/
def remW : IVec S8192 32 :=
  select
    (andi
      (cmpi .ne (cmpi .slt rem0 (broadcastInDim S8192 ![] bcast_S_S8192 (constantI S_ 32 0#32)))
        (broadcastInDim S8192 ![] bcast_S_S8192 (cmpi .slt divW (constantI S_ 32 0#32))))
      (cmpi .ne rem0 (broadcastInDim S8192 ![] bcast_S_S8192 (constantI S_ 32 0#32))))
    (addi rem0 (broadcastInDim S8192 ![] bcast_S_S8192 divW))
    rem0

/-- The mask of even rows, over the whole matrix. -/
def evenMask : IVec S8192x128 1 :=
  broadcastInDim S8192x128 ![0, 1] bcast_S8192x1_S8192x128_0_1
    (broadcastInDim S8192x1 ![0] bcast_S8192_S8192x1_0
      (cmpi .eq remW (broadcastInDim S8192 ![] bcast_S_S8192 (constantI S_ 32 0#32))))

/-- The mixed matrix: the first argument on even rows, the repeated second argument on odd rows. -/
def mixRef (x : FVec Ideal S8192x128 .f32) (y : FVec Ideal S4096x128 .f32) : FVec Ideal S8192x128 .f32 :=
  select evenMask x (repRef y)

/-- The divisor is 2. -/
theorem divW_apply (j : S_.Idx) : divW j = 2#32 := rfl

/-- The truncated remainder by 2 of a row number below 8192 is the word of its parity. -/
theorem remsi_two (n : Nat) (hn : n < 8192) : IntOp.remsi .host (BitVec.ofNat 32 n) 2#32 = BitVec.ofNat 32 (n % 2) := by
  apply BitVec.eq_of_toNat_eq
  have hx : (BitVec.ofNat 32 n).toNat = n := by rw [BitVec.toNat_ofNat]; omega
  rw [IntOp.toNat_remsi .host (by rw [hx]; omega) 2 (by omega) (by omega), hx, BitVec.toNat_ofNat]
  omega

/-- On a parity h the whole condition — sign correction, comparison with 0, select — is the choice on h = 0. -/
theorem pick_parity {α : Type} (h : Nat) (hh : h < 2) (A B : α) :
    Scalar.select
      (IntOp.cmpi .eq
        (Scalar.select
          (IntOp.andi
            (IntOp.cmpi .ne (IntOp.cmpi .slt (BitVec.ofNat 32 h) 0#32) (IntOp.cmpi .slt (2#32 : BitVec 32) 0#32))
            (IntOp.cmpi .ne (BitVec.ofNat 32 h) 0#32))
          (IntOp.addi (BitVec.ofNat 32 h) 2#32)
          (BitVec.ofNat 32 h))
        0#32) A B = if h = 0 then A else B := by
  interval_cases h <;> rfl

/-- The mask at row r: the condition word on r's parity. -/
theorem evenMask_apply (r : Fin 8192) (k : Fin 128) :
    evenMask (ix2 r k) =
      IntOp.cmpi .eq
        (Scalar.select
          (IntOp.andi
            (IntOp.cmpi .ne (IntOp.cmpi .slt (BitVec.ofNat 32 (r.val % 2)) 0#32) (IntOp.cmpi .slt (2#32 : BitVec 32) 0#32))
            (IntOp.cmpi .ne (BitVec.ofNat 32 (r.val % 2)) 0#32))
          (IntOp.addi (BitVec.ofNat 32 (r.val % 2)) 2#32)
          (BitVec.ofNat 32 (r.val % 2)))
        0#32 := by
  unfold evenMask
  rw [broadcastInDim_apply _ _ _ _ (ix2 r (0 : Fin 1)) (fun a => match a with | ⟨0, _⟩ => rfl | ⟨1, _⟩ => rfl)]
  rw [broadcastInDim_apply _ _ _ _ (ix1 r) (fun a => match a with | ⟨0, _⟩ => rfl)]
  have h4 : rem0 (ix1 r) = BitVec.ofNat 32 (r.val % 2) := by
    show IntOp.remsi .host (BitVec.ofNat 32 r.val) (broadcastInDim S8192 ![] bcast_S_S8192 divW (ix1 r)) = _
    rw [broadcastInDim_scalar_apply, divW_apply, remsi_two r.val r.isLt]
  show IntOp.cmpi .eq (remW (ix1 r)) (broadcastInDim S8192 ![] bcast_S_S8192 (constantI S_ 32 0#32) (ix1 r)) = _
  rw [broadcastInDim_scalar_apply]
  show IntOp.cmpi .eq
    (Scalar.select
      (IntOp.andi
        (IntOp.cmpi .ne (IntOp.cmpi .slt (rem0 (ix1 r)) (broadcastInDim S8192 ![] bcast_S_S8192 (constantI S_ 32 0#32) (ix1 r)))
          (broadcastInDim S8192 ![] bcast_S_S8192 (cmpi .slt divW (constantI S_ 32 0#32)) (ix1 r)))
        (IntOp.cmpi .ne (rem0 (ix1 r)) (broadcastInDim S8192 ![] bcast_S_S8192 (constantI S_ 32 0#32) (ix1 r))))
      (IntOp.addi (rem0 (ix1 r)) (broadcastInDim S8192 ![] bcast_S_S8192 divW (ix1 r)))
      (rem0 (ix1 r))) 0#32 = _
  rw [h4]
  simp only [broadcastInDim_scalar_apply]
  rfl

/-- The repeated matrix at (r, k) is the second argument at (r / 2, k). -/
theorem repRef_apply (y : FVec Ideal S4096x128 .f32) (r : Fin 8192) (k : Fin 128) :
    repRef y (ix2 r k) = y (ix2 (⟨r.val / 2, by omega⟩ : Fin 4096) k) := by
  unfold repRef
  rw [shapeCast_apply _ _ _ (ix3 (⟨r.val / 2, by omega⟩ : Fin 4096) (⟨r.val % 2, by omega⟩ : Fin 2) k) (by
    rw [Shape.rowMajor_val_three, Shape.rowMajor_val_two]
    show (r.val / 2 * 2 + r.val % 2) * 128 + k.val = r.val * 128 + k.val
    rw [Nat.div_add_mod'])]
  rw [broadcastInDim_apply _ _ _ _ (ix2 (⟨r.val / 2, by omega⟩ : Fin 4096) k) (fun a => match a with | ⟨0, _⟩ => rfl | ⟨1, _⟩ => rfl)]

/-- The mixed matrix read entry by entry: the first argument on even rows, row r / 2 of the second on odd rows. -/
theorem mixRef_eq (x : FVec Ideal S8192x128 .f32) (y : FVec Ideal S4096x128 .f32) :
    Cert.Spec.mat (mixRef x y) = Cert.Spec.mix (Cert.Spec.mat x) (Cert.Spec.mat1 y) := by
  funext r k
  show Scalar.select (evenMask (ix2 r k)) (x (ix2 r k)) (repRef y (ix2 r k))
    = if r.val % 2 = 0 then x (ix2 r k) else y (ix2 (⟨r.val / 2, by omega⟩ : Fin 4096) k)
  rw [evenMask_apply, repRef_apply, pick_parity (r.val % 2) (Nat.mod_lt _ (by omega))]

end Cert.ReferenceIdeal.RefVal

end
-- ==== Proof.RefValIdx.lean ====
/-
  Index bookkeeping shared by the value proofs: arrays of rank 1, 3 and 4 summed by coordinates, the pairing of
  the 8192 rows as 4096 pairs, and the one fact about extended reals that is not a ring law (2 * x = x + x).
-/
import Idealize.ShloMosaic.PureOps.Ideal
import Idealize.ShloMosaic.Lib.ValueIdx
import Idealize.ShloMosaic.Lib.ValueIdxCoords

noncomputable section

open scoped BigOperators

namespace Cert.ReferenceIdeal.RefVal

open Idealize.ShloMosaic Idealize.ShloMosaic.ValueIdx

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- A rank-4 index set is the product of its coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun t := ix4 t.1 t.2.1 t.2.2.1 t.2.2.2
  left_inv i := (eq_ix4 i).symm
  right_inv _ := rfl

/-- The part of a rank-4 sum whose leading coordinate is p (selected by any predicate that says so) is the
    triple sum over the other three coordinates. -/
theorem sum_filter_lead4 {M : Type*} [AddCommMonoid M] {n0 n1 n2 n3 : Nat}
    (P : (⟨4, ![n0, n1, n2, n3]⟩ : Shape).Idx → Prop) [DecidablePred P] (p : Fin n0)
    (hP : ∀ p' a q b, P (ix4 p' a q b) ↔ p' = p) (f : (⟨4, ![n0, n1, n2, n3]⟩ : Shape).Idx → M) :
    ∑ i ∈ Finset.univ.filter P, f i = ∑ a : Fin n1, ∑ q : Fin n2, ∑ b : Fin n3, f (ix4 p a q b) := by
  rw [Finset.sum_filter, ← Equiv.sum_comp (idxEquiv4 (n0 := n0) (n1 := n1) (n2 := n2) (n3 := n3)).symm,
    Fintype.sum_prod_type, Finset.sum_eq_single p]
  · rw [Fintype.sum_prod_type]
    refine Finset.sum_congr rfl fun a _ => ?_
    rw [Fintype.sum_prod_type]
    refine Finset.sum_congr rfl fun q _ => Finset.sum_congr rfl fun b _ => ?_
    exact if_pos ((hP p a q b).2 rfl)
  · intro p' _ hne
    refine Finset.sum_eq_zero fun t _ => ?_
    exact if_neg fun h => hne ((hP p' t.1 t.2.1 t.2.2).1 h)
  · intro h; exact absurd (Finset.mem_univ _) h

/-- The same at rank 3. -/
theorem sum_filter_lead3 {M : Type*} [AddCommMonoid M] {n0 n1 n2 : Nat}
    (P : (⟨3, ![n0, n1, n2]⟩ : Shape).Idx → Prop) [DecidablePred P] (p : Fin n0)
    (hP : ∀ p' a b, P (ix3 p' a b) ↔ p' = p) (f : (⟨3, ![n0, n1, n2]⟩ : Shape).Idx → M) :
    ∑ i ∈ Finset.univ.filter P, f i = ∑ a : Fin n1, ∑ b : Fin n2, f (ix3 p a b) := by
  rw [Finset.sum_filter, ← Equiv.sum_comp (idxEquiv3 (n0 := n0) (n1 := n1) (n2 := n2)).symm,
    Fintype.sum_prod_type, Finset.sum_eq_single p]
  · rw [Fintype.sum_prod_type]
    refine Finset.sum_congr rfl fun a _ => Finset.sum_congr rfl fun b _ => ?_
    exact if_pos ((hP p a b).2 rfl)
  · intro p' _ hne
    refine Finset.sum_eq_zero fun t _ => ?_
    exact if_neg fun h => hne ((hP p' t.1 t.2).1 h)
  · intro h; exact absurd (Finset.mem_univ _) h

/-- Row 2p+a of the 8192: member a of pair p. -/
def ro (p : Fin 4096) (a : Fin 2) : Fin 8192 := ⟨2 * p.val + a.val, by omega⟩

/-- The 8192 rows are the 4096 pairs times their two members. -/
def pairEquiv : Fin 4096 × Fin 2 ≃ Fin 8192 where
  toFun t := ro t.1 t.2
  invFun c := (⟨c.val / 2, by omega⟩, ⟨c.val % 2, by omega⟩)
  left_inv t := by
    refine Prod.ext (Fin.ext ?_) (Fin.ext ?_)
    · show (2 * t.1.val + t.2.val) / 2 = t.1.val
      omega
    · show (2 * t.1.val + t.2.val) % 2 = t.2.val
      omega
  right_inv c := by
    refine Fin.ext ?_
    show 2 * (c.val / 2) + c.val % 2 = c.val
    omega

theorem sum_pairs {M : Type*} [AddCommMonoid M] (f : Fin 8192 → M) :
    ∑ c, f c = ∑ q : Fin 4096, ∑ b : Fin 2, f (ro q b) := by
  rw [← Equiv.sum_comp pairEquiv f, Fintype.sum_prod_type]
  rfl

/-- Twice an extended real is its sum with itself, infinite or not. -/
theorem two_mul_ereal (x : EReal) : (2 : EReal) * x = x + x := by
  induction x using EReal.rec with
  | bot => rw [EReal.mul_bot_of_pos (by norm_num)]; rfl
  | top => rw [EReal.mul_top_of_pos (by norm_num)]; rfl
  | coe r =>
    rw [show (2 : EReal) = ((2 : ℝ) : EReal) by norm_cast, ← EReal.coe_mul, ← EReal.coe_add, two_mul]

end Cert.ReferenceIdeal.RefVal

end
-- ==== Proof.RefValLoss.lean ====
/-
  The value of the dense program's loss at the extended reals.

  For an [8192,128] array x the program forms the Gram matrix x xᵀ, divides by 128, adds 1 and exponentiates,
  views the [8192,8192] result as [4096,2,4096,2] (row 2p+a, column 2q+b at (p,a,q,b)), sums each pair of rows,
  subtracts the 2 x 2 diagonal block it gathers, takes the logarithm, subtracts the gathered similarity of the
  pair, squares, averages and halves.  Each stage is named and read at an index; the composition is the
  specification's loss.
-/
import proofs.«153953_j64141041599004_1_alg».proof.Proof.Gen.ReferenceIdeal
import proofs.«153953_j64141041599004_1_alg».proof.Proof.Spec
import Idealize.ShloMosaic.PureOps.Ideal.Laws
import Idealize.ShloMosaic.Lib.ValueIdx
import Idealize.ShloMosaic.Lib.ValueIdxCoords
import Idealize.ShloMosaic.Lib.ValueLayout
import Idealize.ShloMosaic.Lib.Pipeline.Value
import proofs.«153953_j64141041599004_1_alg».proof.Proof.RefValIdx

noncomputable section

open scoped BigOperators

namespace Cert.ReferenceIdeal.RefVal

open Idealize.ShloMosaic Idealize.ShloMosaic.ValueIdx Cert.ReferenceIdeal Cert.ReferenceIdeal.Facts₀ Cert.ReferenceIdeal.Facts Cert.Spec

/-- The Gram matrix x xᵀ. -/
def G3 (x : FVec Ideal S8192x128 .f32) : FVec Ideal S8192x8192 .f32 :=
  Host.dotGeneral dot_S8192x128_S128x8192_S8192x8192_1_0_0_1_n_n none x
    (transpose S128x8192 [1, 0] x transposes_S8192x128_S128x8192_1_0)

/-- The Gram matrix divided by 128. -/
def D5 (x : FVec Ideal S8192x128 .f32) : FVec Ideal S8192x8192 .f32 :=
  Host.divf (G3 x) (broadcastInDim S8192x8192 ![] bcast_S_S8192x8192 (constant (F := Ideal) S_ .f32 0x43000000#32))

/-- exp (1 + D). -/
def E8 (x : FVec Ideal S8192x128 .f32) : FVec Ideal S8192x8192 .f32 :=
  Host.exp (addf (broadcastInDim S8192x8192 ![] bcast_S_S8192x8192 (constant (F := Ideal) S_ .f32 0x3F800000#32)) (D5 x))

theorem w128 : Ideal.ofBits .f32 0x43000000#32 = ((128 : ℝ) : EReal) := by
  simp [Ideal.ofBits, Ideal.ieee, -EReal.coe_mul]; norm_num
theorem w1 : Ideal.ofBits .f32 0x3F800000#32 = (1 : EReal) := by
  simp [Ideal.ofBits, Ideal.ieee, -EReal.coe_mul]; norm_num
theorem w4096 : Ideal.ofBits .f32 0x45800000#32 = ((4096 : ℝ) : EReal) := by
  simp [Ideal.ofBits, Ideal.ieee, -EReal.coe_mul]; norm_num
theorem whalf : Ideal.ofBits .f32 0x3F000000#32 = ((1 / 2 : ℝ) : EReal) := by
  simp [Ideal.ofBits, Ideal.ieee, -EReal.coe_mul]; norm_num
theorem w0 : Ideal.ofBits .f32 0x00000000#32 = (0 : EReal) := by
  simp [Ideal.ofBits, Ideal.ieee]

/-- An entry of the Gram matrix is the inner product of the two rows. -/
theorem G3_apply (x : FVec Ideal S8192x128 .f32) (r c : Fin 8192) : G3 x (ix2 r c) = gram (mat x) r c := by
  unfold G3 gram mat
  simp only [Host.dotGeneral]
  rw [Ideal.dotGeneral_apply]
  have hr : (dot_S8192x128_S128x8192_S8192x8192_1_0_0_1_n_n).contr.rank = 1 := rfl
  have hs : (dot_S8192x128_S128x8192_S8192x8192_1_0_0_1_n_n).contr.size ⟨0, by omega⟩ = 128 := rfl
  rw [← Equiv.sum_comp (contrEquiv1 dot_S8192x128_S128x8192_S8192x8192_1_0_0_1_n_n 128 hr hs).symm]
  refine Finset.sum_congr rfl fun k _ => ?_
  congr 1
  · congr 1
    funext a
    match a with
    | ⟨0, _⟩ => rfl
    | ⟨1, _⟩ => exact Fin.ext (contrEquiv1_symm_val _ 128 hr hs k)
  · rw [transpose_apply (k := ix2 c k)]
    intro b
    match b with
    | ⟨0, _⟩ => exact (contrEquiv1_symm_val _ 128 hr hs k).symm
    | ⟨1, _⟩ => rfl

theorem D5_apply (x : FVec Ideal S8192x128 .f32) (r c : Fin 8192) : D5 x (ix2 r c) = Dm (mat x) r c := by
  show Ideal.div (G3 x (ix2 r c)) (Ideal.ofBits .f32 0x43000000#32) = _
  rw [w128, Ideal.div_coe (by norm_num), G3_apply]
  rfl

theorem E8_apply (x : FVec Ideal S8192x128 .f32) (r c : Fin 8192) : E8 x (ix2 r c) = Em (mat x) r c := by
  show Ideal.exp (Ideal.ofBits .f32 0x3F800000#32 + D5 x (ix2 r c)) = _
  rw [w1, D5_apply]
  rfl

/-- The [8192,8192] array viewed as [4096,2,4096,2]: at (p,a,q,b) it is entry (2p+a, 2q+b). -/
theorem cast4_apply {α : Type} (v : S8192x8192.Idx → α) (p : Fin 4096) (a : Fin 2) (q : Fin 4096) (b : Fin 2) :
    shapeCast S4096x2x4096x2 v shapeCasts_S8192x8192_S4096x2x4096x2 (ix4 p a q b) = v (ix2 (ro p a) (ro q b)) :=
  shapeCast_apply v _ _ _ (by
    rw [Shape.rowMajor_val_two, Shape.rowMajor_val_four]
    show (2 * p.val + a.val) * 8192 + (2 * q.val + b.val) = ((p.val * 2 + a.val) * 4096 + q.val) * 2 + b.val
    omega)

theorem drop4 (p' : Fin 4096) (a : Fin 2) (q : Fin 4096) (b : Fin 2) :
    reducesTo_S4096x2x4096x2_S4096_d1_2_3.drop (ix4 p' a q b) = ix1 p' := by
  funext c
  match c with
  | ⟨0, _⟩ => exact Fin.ext (Shape.ReducesTo.drop_apply_val_of_eq reducesTo_S4096x2x4096x2_S4096_d1_2_3 _ 0 0)

theorem drop3 (p' : Fin 4096) (a : Fin 2) (b : Fin 2) :
    reducesTo_S4096x2x2_S4096_d1_2.drop (ix3 p' a b) = ix1 p' := by
  funext c
  match c with
  | ⟨0, _⟩ => exact Fin.ext (Shape.ReducesTo.drop_apply_val_of_eq reducesTo_S4096x2x2_S4096_d1_2 _ 0 0)

theorem ix1_inj {n : Nat} {p p' : Fin n} : (ix1 p' = ix1 p) ↔ p' = p :=
  ⟨fun h => congrFun h 0, fun h => by rw [h]⟩

/-- The sum over axes 1, 2, 3 from 0: at p, the triple sum over the other coordinates. -/
theorem reduce123_apply (v : FVec Ideal S4096x2x4096x2 .f32) (p : Fin 4096) :
    Host.reduceAdd v (constant (F := Ideal) S_ .f32 0x00000000#32) reducesTo_S4096x2x4096x2_S4096_d1_2_3 h_S_ (ix1 p)
      = ∑ a : Fin 2, ∑ q : Fin 4096, ∑ b : Fin 2, v (ix4 p a q b) := by
  unfold Host.reduceAdd
  rw [Ideal.hostReduceAdd_def]
  unfold Ideal.hostReduceAdd
  show Ideal.ofBits .f32 0x00000000#32 + _ = _
  rw [w0, zero_add]
  exact sum_filter_lead4 _ p (fun p' a q b => by rw [drop4]; exact ix1_inj) v

/-- The sum over axes 1, 2 from 0: at p, the double sum over the other coordinates. -/
theorem reduce12_apply (v : FVec Ideal S4096x2x2 .f32) (p : Fin 4096) :
    Host.reduceAdd v (constant (F := Ideal) S_ .f32 0x00000000#32) reducesTo_S4096x2x2_S4096_d1_2 h_S_ (ix1 p)
      = ∑ a : Fin 2, ∑ b : Fin 2, v (ix3 p a b) := by
  unfold Host.reduceAdd
  rw [Ideal.hostReduceAdd_def]
  unfold Ideal.hostReduceAdd
  show Ideal.ofBits .f32 0x00000000#32 + _ = _
  rw [w0, zero_add]
  exact sum_filter_lead3 _ p (fun p' a b => by rw [drop3]; exact ix1_inj) v

/-- The sum over the one axis from 0: the sum over the 4096 entries. -/
theorem reduce0_apply (v : FVec Ideal S4096 .f32) (j : S_.Idx) :
    Host.reduceAdd v (constant (F := Ideal) S_ .f32 0x00000000#32) reducesTo_S4096_S_d0 h_S_ j
      = ∑ p : Fin 4096, v (ix1 p) := by
  unfold Host.reduceAdd
  rw [Ideal.hostReduceAdd_def, Ideal.hostReduceAdd_total _ (fun b => b.elim0)]
  show Ideal.ofBits .f32 0x00000000#32 + _ = _
  rw [w0, zero_add, sum_idx1]

/-! ### The two gathers read at an index -/

/-- The gather of the diagonal 2 x 2 blocks: with start indices (P, Q) in row p of the index array, entry (p,a,b) of
    the result is the operand at (P, a, Q, b) (each start read signed and clamped so that the block fits). -/
theorem gather1_apply {α : Type} (v : S4096x2x4096x2.Idx → α) (idx : IVec S4096x2 32) (p : Fin 4096) (a b : Fin 2)
    (P Q : Fin 4096) (hP : min (idx (ix2 p 0)).toInt.toNat 4095 = P.val)
    (hQ : min (idx (ix2 p 1)).toInt.toNat 4095 = Q.val) :
    Host.gather gather_S4096x2x4096x2_S4096x2_S4096x2x2_12_02_n_n_02_1_1212 v idx (ix3 p a b) = v (ix4 P a Q b) := by
  unfold Host.gather
  congr 1
  funext c
  refine Fin.ext ?_
  have hsi0 : gather_S4096x2x4096x2_S4096x2_S4096x2x2_12_02_n_n_02_1_1212.siIdx (ix3 p a b) ⟨0, by decide⟩ = ix2 p 0 := by
    funext e; refine Fin.ext ?_
    match e with
    | ⟨0, _⟩ => rfl
    | ⟨1, _⟩ => rfl
  have hsi1 : gather_S4096x2x4096x2_S4096x2_S4096x2x2_12_02_n_n_02_1_1212.siIdx (ix3 p a b) ⟨1, by decide⟩ = ix2 p 1 := by
    funext e; refine Fin.ext ?_
    match e with
    | ⟨0, _⟩ => rfl
    | ⟨1, _⟩ => rfl
  match c with
  | ⟨0, _⟩ =>
    show gather_S4096x2x4096x2_S4096x2_S4096x2x2_12_02_n_n_02_1_1212.start (ix3 p a b) idx 0
      + gather_S4096x2x4096x2_S4096x2_S4096x2x2_12_02_n_n_02_1_1212.batchCoord (ix3 p a b) 0
      + gather_S4096x2x4096x2_S4096x2_S4096x2x2_12_02_n_n_02_1_1212.offCoord (ix3 p a b) 0 = P.val
    have h1 : gather_S4096x2x4096x2_S4096x2_S4096x2x2_12_02_n_n_02_1_1212.batchCoord (ix3 p a b) 0 = 0 := rfl
    have h2 : gather_S4096x2x4096x2_S4096x2_S4096x2x2_12_02_n_n_02_1_1212.offCoord (ix3 p a b) 0 = 0 := rfl
    have h3 : gather_S4096x2x4096x2_S4096x2_S4096x2x2_12_02_n_n_02_1_1212.start (ix3 p a b) idx 0
        = min (idx (gather_S4096x2x4096x2_S4096x2_S4096x2x2_12_02_n_n_02_1_1212.siIdx (ix3 p a b) ⟨0, by decide⟩)).toInt.toNat 4095 := rfl
    rw [h1, h2, h3, hsi0, hP]; rfl
  | ⟨1, _⟩ =>
    show gather_S4096x2x4096x2_S4096x2_S4096x2x2_12_02_n_n_02_1_1212.start (ix3 p a b) idx 1
      + gather_S4096x2x4096x2_S4096x2_S4096x2x2_12_02_n_n_02_1_1212.batchCoord (ix3 p a b) 1
      + gather_S4096x2x4096x2_S4096x2_S4096x2x2_12_02_n_n_02_1_1212.offCoord (ix3 p a b) 1 = a.val
    have h1 : gather_S4096x2x4096x2_S4096x2_S4096x2x2_12_02_n_n_02_1_1212.batchCoord (ix3 p a b) 1 = 0 := rfl
    have h2 : gather_S4096x2x4096x2_S4096x2_S4096x2x2_12_02_n_n_02_1_1212.offCoord (ix3 p a b) 1 = a.val := rfl
    have h3 : gather_S4096x2x4096x2_S4096x2_S4096x2x2_12_02_n_n_02_1_1212.start (ix3 p a b) idx 1 = 0 := rfl
    rw [h1, h2, h3]; omega
  | ⟨2, _⟩ =>
    show gather_S4096x2x4096x2_S4096x2_S4096x2x2_12_02_n_n_02_1_1212.start (ix3 p a b) idx 2
      + gather_S4096x2x4096x2_S4096x2_S4096x2x2_12_02_n_n_02_1_1212.batchCoord (ix3 p a b) 2
      + gather_S4096x2x4096x2_S4096x2_S4096x2x2_12_02_n_n_02_1_1212.offCoord (ix3 p a b) 2 = Q.val
    have h1 : gather_S4096x2x4096x2_S4096x2_S4096x2x2_12_02_n_n_02_1_1212.batchCoord (ix3 p a b) 2 = 0 := rfl
    have h2 : gather_S4096x2x4096x2_S4096x2_S4096x2x2_12_02_n_n_02_1_1212.offCoord (ix3 p a b) 2 = 0 := rfl
    have h3 : gather_S4096x2x4096x2_S4096x2_S4096x2x2_12_02_n_n_02_1_1212.start (ix3 p a b) idx 2
        = min (idx (gather_S4096x2x4096x2_S4096x2_S4096x2x2_12_02_n_n_02_1_1212.siIdx (ix3 p a b) ⟨1, by decide⟩)).toInt.toNat 4095 := rfl
    rw [h1, h2, h3, hsi1, hQ]; rfl
  | ⟨3, _⟩ =>
    show gather_S4096x2x4096x2_S4096x2_S4096x2x2_12_02_n_n_02_1_1212.start (ix3 p a b) idx 3
      + gather_S4096x2x4096x2_S4096x2_S4096x2x2_12_02_n_n_02_1_1212.batchCoord (ix3 p a b) 3
      + gather_S4096x2x4096x2_S4096x2_S4096x2x2_12_02_n_n_02_1_1212.offCoord (ix3 p a b) 3 = b.val
    have h1 : gather_S4096x2x4096x2_S4096x2_S4096x2x2_12_02_n_n_02_1_1212.batchCoord (ix3 p a b) 3 = 0 := rfl
    have h2 : gather_S4096x2x4096x2_S4096x2_S4096x2x2_12_02_n_n_02_1_1212.offCoord (ix3 p a b) 3 = b.val := rfl
    have h3 : gather_S4096x2x4096x2_S4096x2_S4096x2x2_12_02_n_n_02_1_1212.start (ix3 p a b) idx 3 = 0 := rfl
    rw [h1, h2, h3]; omega

/-- The gather of single entries: with the start index (P, A, Q, B) in row p of the index array, entry p of the result
    is the operand there (each component read signed and clamped into its axis). -/
theorem gather2_apply {α : Type} (v : S4096x2x4096x2.Idx → α) (idx : IVec S4096x4 32) (p : Fin 4096)
    (P : Fin 4096) (A : Fin 2) (Q : Fin 4096) (B : Fin 2)
    (hP : min (idx (ix2 p 0)).toInt.toNat 4095 = P.val) (hA : min (idx (ix2 p 1)).toInt.toNat 1 = A.val)
    (hQ : min (idx (ix2 p 2)).toInt.toNat 4095 = Q.val) (hB : min (idx (ix2 p 3)).toInt.toNat 1 = B.val) :
    Host.gather gather_S4096x2x4096x2_S4096x4_S4096_n_0123_n_n_0123_1_1111 v idx (ix1 p) = v (ix4 P A Q B) := by
  unfold Host.gather
  congr 1
  funext c
  refine Fin.ext ?_
  have hsi : ∀ (n : Fin 4) (hn : n.val < (gather_S4096x2x4096x2_S4096x4_S4096_n_0123_n_n_0123_1_1111).startIndexMap.length),
      gather_S4096x2x4096x2_S4096x4_S4096_n_0123_n_n_0123_1_1111.siIdx (ix1 p) ⟨n.val, hn⟩ = ix2 p n := by
    intro n hn
    funext e; refine Fin.ext ?_
    match e with
    | ⟨0, _⟩ => rfl
    | ⟨1, _⟩ => rfl
  match c with
  | ⟨0, _⟩ =>
    show gather_S4096x2x4096x2_S4096x4_S4096_n_0123_n_n_0123_1_1111.start (ix1 p) idx 0
      + gather_S4096x2x4096x2_S4096x4_S4096_n_0123_n_n_0123_1_1111.batchCoord (ix1 p) 0
      + gather_S4096x2x4096x2_S4096x4_S4096_n_0123_n_n_0123_1_1111.offCoord (ix1 p) 0 = P.val
    have h1 : gather_S4096x2x4096x2_S4096x4_S4096_n_0123_n_n_0123_1_1111.batchCoord (ix1 p) 0 = 0 := rfl
    have h2 : gather_S4096x2x4096x2_S4096x4_S4096_n_0123_n_n_0123_1_1111.offCoord (ix1 p) 0 = 0 := rfl
    have h3 : gather_S4096x2x4096x2_S4096x4_S4096_n_0123_n_n_0123_1_1111.start (ix1 p) idx 0
        = min (idx (gather_S4096x2x4096x2_S4096x4_S4096_n_0123_n_n_0123_1_1111.siIdx (ix1 p) ⟨(0 : Fin 4).val, by decide⟩)).toInt.toNat 4095 := rfl
    rw [h1, h2, h3, hsi 0, hP]; rfl
  | ⟨1, _⟩ =>
    show gather_S4096x2x4096x2_S4096x4_S4096_n_0123_n_n_0123_1_1111.start (ix1 p) idx 1
      + gather_S4096x2x4096x2_S4096x4_S4096_n_0123_n_n_0123_1_1111.batchCoord (ix1 p) 1
      + gather_S4096x2x4096x2_S4096x4_S4096_n_0123_n_n_0123_1_1111.offCoord (ix1 p) 1 = A.val
    have h1 : gather_S4096x2x4096x2_S4096x4_S4096_n_0123_n_n_0123_1_1111.batchCoord (ix1 p) 1 = 0 := rfl
    have h2 : gather_S4096x2x4096x2_S4096x4_S4096_n_0123_n_n_0123_1_1111.offCoord (ix1 p) 1 = 0 := rfl
    have h3 : gather_S4096x2x4096x2_S4096x4_S4096_n_0123_n_n_0123_1_1111.start (ix1 p) idx 1
        = min (idx (gather_S4096x2x4096x2_S4096x4_S4096_n_0123_n_n_0123_1_1111.siIdx (ix1 p) ⟨(1 : Fin 4).val, by decide⟩)).toInt.toNat 1 := rfl
    rw [h1, h2, h3, hsi 1, hA]; rfl
  | ⟨2, _⟩ =>
    show gather_S4096x2x4096x2_S4096x4_S4096_n_0123_n_n_0123_1_1111.start (ix1 p) idx 2
      + gather_S4096x2x4096x2_S4096x4_S4096_n_0123_n_n_0123_1_1111.batchCoord (ix1 p) 2
      + gather_S4096x2x4096x2_S4096x4_S4096_n_0123_n_n_0123_1_1111.offCoord (ix1 p) 2 = Q.val
    have h1 : gather_S4096x2x4096x2_S4096x4_S4096_n_0123_n_n_0123_1_1111.batchCoord (ix1 p) 2 = 0 := rfl
    have h2 : gather_S4096x2x4096x2_S4096x4_S4096_n_0123_n_n_0123_1_1111.offCoord (ix1 p) 2 = 0 := rfl
    have h3 : gather_S4096x2x4096x2_S4096x4_S4096_n_0123_n_n_0123_1_1111.start (ix1 p) idx 2
        = min (idx (gather_S4096x2x4096x2_S4096x4_S4096_n_0123_n_n_0123_1_1111.siIdx (ix1 p) ⟨(2 : Fin 4).val, by decide⟩)).toInt.toNat 4095 := rfl
    rw [h1, h2, h3, hsi 2, hQ]; rfl
  | ⟨3, _⟩ =>
    show gather_S4096x2x4096x2_S4096x4_S4096_n_0123_n_n_0123_1_1111.start (ix1 p) idx 3
      + gather_S4096x2x4096x2_S4096x4_S4096_n_0123_n_n_0123_1_1111.batchCoord (ix1 p) 3
      + gather_S4096x2x4096x2_S4096x4_S4096_n_0123_n_n_0123_1_1111.offCoord (ix1 p) 3 = B.val
    have h1 : gather_S4096x2x4096x2_S4096x4_S4096_n_0123_n_n_0123_1_1111.batchCoord (ix1 p) 3 = 0 := rfl
    have h2 : gather_S4096x2x4096x2_S4096x4_S4096_n_0123_n_n_0123_1_1111.offCoord (ix1 p) 3 = 0 := rfl
    have h3 : gather_S4096x2x4096x2_S4096x4_S4096_n_0123_n_n_0123_1_1111.start (ix1 p) idx 3
        = min (idx (gather_S4096x2x4096x2_S4096x4_S4096_n_0123_n_n_0123_1_1111.siIdx (ix1 p) ⟨(3 : Fin 4).val, by decide⟩)).toInt.toNat 1 := rfl
    rw [h1, h2, h3, hsi 3, hB]; rfl

/-! ### The index arrays -/

theorem toInt_ofNat_small (p : Nat) (hp : p < 8192) : (BitVec.ofNat 32 p).toInt = (p : Int) := by
  rw [BitVec.toInt_eq_toNat_cond, BitVec.toNat_ofNat]
  have h : p % 2 ^ 32 = p := Nat.mod_eq_of_lt (by omega)
  rw [h, if_pos (by omega)]

theorem clamp_ofNat (p : Nat) (hp : p < 4096) : min (BitVec.ofNat 32 p).toInt.toNat 4095 = p := by
  rw [toInt_ofNat_small p (by omega), Int.toNat_natCast]
  omega

/-- 0, 1, …, 4095. -/
def iota11 : IVec S4096 32 := iotaInDim S4096 32 0

/-- numpy's wrap of a negative index: i + 4096 where i < 0, else i. -/
def wrap (i : IVec S4096 32) : IVec S4096 32 :=
  select (cmpi .slt i (broadcastInDim S4096 ![] bcast_S_S4096 (constantI S_ 32 0#32)))
    (addi i (broadcastInDim S4096 ![] bcast_S_S4096 (constantI S_ 32 4096#32))) i

/-- On 0 … 4095 the wrap changes nothing. -/
theorem wrap_iota (p : Fin 4096) : wrap iota11 (ix1 p) = BitVec.ofNat 32 p.val := by
  show Scalar.select (IntOp.cmpi .slt (BitVec.ofNat 32 p.val) 0#32) (IntOp.addi (BitVec.ofNat 32 p.val) 4096#32)
    (BitVec.ofNat 32 p.val) = _
  have h0 : (0#32 : BitVec 32).toInt = 0 := by decide
  have h : IntOp.cmpi .slt (BitVec.ofNat 32 p.val) 0#32 = 0#1 := by
    unfold IntOp.cmpi
    simp only [BitVec.slt, h0, toInt_ofNat_small p.val (by omega)]
    have hn : ¬ ((p.val : Int) < 0) := by omega
    simp [hn]
  rw [h, select_zero]

/-- A [4096] array as a [4096,1] column. -/
def col (i : IVec S4096 32) : IVec S4096x1 32 := broadcastInDim S4096x1 ![0] bcast_S4096_S4096x1_0 i

theorem col_apply (i : IVec S4096 32) (p : Fin 4096) (u : Fin 1) : col i (ix2 p u) = i (ix1 p) :=
  broadcastInDim_apply _ _ i _ (ix1 p) (fun a => match a with | ⟨0, _⟩ => rfl)

/-- The start indices (p, p) of the diagonal blocks. -/
def idx24 : IVec S4096x2 32 :=
  concatenate S4096x2 1 [⟨S4096x1, col (wrap iota11)⟩, ⟨S4096x1, col (wrap iota11)⟩] concatenates_S4096x1_S4096x1_S4096x2_d1

theorem idx24_0 (p : Fin 4096) : idx24 (ix2 p 0) = BitVec.ofNat 32 p.val := by
  unfold idx24
  refine (concatenate_apply_piece (t := S4096x2) 1 _ _ (ix2 p 0) 0 (by decide) S4096x1
    (col (wrap iota11)) rfl rfl 0 rfl (ix2 p 0) ?_ rfl).trans ?_
  · intro b hb
    match b with
    | ⟨0, _⟩ => rfl
    | ⟨1, _⟩ => exact absurd rfl hb
  · rw [col_apply, wrap_iota]

theorem idx24_1 (p : Fin 4096) : idx24 (ix2 p 1) = BitVec.ofNat 32 p.val := by
  unfold idx24
  refine (concatenate_apply_piece (t := S4096x2) 1 _ _ (ix2 p 1) 1 (by decide) S4096x1
    (col (wrap iota11)) rfl rfl 1 rfl (ix2 p 0) ?_ rfl).trans ?_
  · intro b hb
    match b with
    | ⟨0, _⟩ => rfl
    | ⟨1, _⟩ => exact absurd rfl hb
  · rw [col_apply, wrap_iota]

/-- The start indices (p, 0, p, 1) of the pairs' similarities. -/
def idx47 : IVec S4096x4 32 :=
  concatenate S4096x4 1
    [⟨S4096x1, col (wrap iota11)⟩,
     ⟨S4096x1, col (id (broadcastInDim S4096 ![] bcast_S_S4096 (constantI S_ 32 0#32)))⟩,
     ⟨S4096x1, col (wrap iota11)⟩,
     ⟨S4096x1, col (id (broadcastInDim S4096 ![] bcast_S_S4096 (constantI S_ 32 1#32)))⟩]
    concatenates_S4096x1_S4096x1_S4096x1_S4096x1_S4096x4_d1

theorem idx47_0 (p : Fin 4096) : idx47 (ix2 p 0) = BitVec.ofNat 32 p.val := by
  unfold idx47
  refine (concatenate_apply_piece (t := S4096x4) 1 _ _ (ix2 p 0) 0 (by decide) S4096x1
    (col (wrap iota11)) rfl rfl 0 rfl (ix2 p 0) ?_ rfl).trans ?_
  · intro b hb
    match b with
    | ⟨0, _⟩ => rfl
    | ⟨1, _⟩ => exact absurd rfl hb
  · rw [col_apply, wrap_iota]

theorem idx47_1 (p : Fin 4096) : idx47 (ix2 p 1) = 0#32 := by
  unfold idx47
  refine (concatenate_apply_piece (t := S4096x4) 1 _ _ (ix2 p 1) 1 (by decide) S4096x1
    (col (id (broadcastInDim S4096 ![] bcast_S_S4096 (constantI S_ 32 0#32)))) rfl rfl 1 rfl (ix2 p 0) ?_ rfl).trans ?_
  · intro b hb
    match b with
    | ⟨0, _⟩ => rfl
    | ⟨1, _⟩ => exact absurd rfl hb
  · rw [col_apply]; rfl

theorem idx47_2 (p : Fin 4096) : idx47 (ix2 p 2) = BitVec.ofNat 32 p.val := by
  unfold idx47
  refine (concatenate_apply_piece (t := S4096x4) 1 _ _ (ix2 p 2) 2 (by decide) S4096x1
    (col (wrap iota11)) rfl rfl 2 rfl (ix2 p 0) ?_ rfl).trans ?_
  · intro b hb
    match b with
    | ⟨0, _⟩ => rfl
    | ⟨1, _⟩ => exact absurd rfl hb
  · rw [col_apply, wrap_iota]

theorem idx47_3 (p : Fin 4096) : idx47 (ix2 p 3) = 1#32 := by
  unfold idx47
  refine (concatenate_apply_piece (t := S4096x4) 1 _ _ (ix2 p 3) 3 (by decide) S4096x1
    (col (id (broadcastInDim S4096 ![] bcast_S_S4096 (constantI S_ 32 1#32)))) rfl rfl 3 rfl (ix2 p 0) ?_ rfl).trans ?_
  · intro b hb
    match b with
    | ⟨0, _⟩ => rfl
    | ⟨1, _⟩ => exact absurd rfl hb
  · rw [col_apply]; rfl

/-! ### The stages after the exponential -/

/-- E viewed as [4096,2,4096,2]. -/
def R9 (x : FVec Ideal S8192x128 .f32) : FVec Ideal S4096x2x4096x2 .f32 :=
  shapeCast S4096x2x4096x2 (E8 x) shapeCasts_S8192x8192_S4096x2x4096x2
/-- The sum of each pair of rows of E. -/
def S10 (x : FVec Ideal S8192x128 .f32) : FVec Ideal S4096 .f32 :=
  Host.reduceAdd (R9 x) (constant (F := Ideal) S_ .f32 0x00000000#32) reducesTo_S4096x2x4096x2_S4096_d1_2_3 h_S_
/-- The diagonal 2 x 2 blocks of E. -/
def G25 (x : FVec Ideal S8192x128 .f32) : FVec Ideal S4096x2x2 .f32 :=
  Host.gather gather_S4096x2x4096x2_S4096x2_S4096x2x2_12_02_n_n_02_1_1212 (R9 x) idx24
/-- Their sums. -/
def S26 (x : FVec Ideal S8192x128 .f32) : FVec Ideal S4096 .f32 :=
  Host.reduceAdd (G25 x) (constant (F := Ideal) S_ .f32 0x00000000#32) reducesTo_S4096x2x2_S4096_d1_2 h_S_
/-- The masked sums. -/
def M27 (x : FVec Ideal S8192x128 .f32) : FVec Ideal S4096 .f32 := subf (S10 x) (S26 x)
/-- D viewed as [4096,2,4096,2]. -/
def R28 (x : FVec Ideal S8192x128 .f32) : FVec Ideal S4096x2x4096x2 .f32 :=
  shapeCast S4096x2x4096x2 (D5 x) shapeCasts_S8192x8192_S4096x2x4096x2
/-- The similarity of each pair. -/
def G48 (x : FVec Ideal S8192x128 .f32) : FVec Ideal S4096 .f32 :=
  Host.gather gather_S4096x2x4096x2_S4096x4_S4096_n_0123_n_n_0123_1_1111 (R28 x) idx47
/-- J = log S - D. -/
def J50 (x : FVec Ideal S8192x128 .f32) : FVec Ideal S4096 .f32 := subf (Host.log (M27 x)) (G48 x)
/-- The program's loss of x: half the mean of J squared. -/
def lossRef (x : FVec Ideal S8192x128 .f32) : FVec Ideal S_ .f32 :=
  mulf (constant (F := Ideal) S_ .f32 0x3F000000#32)
    (Host.divf
      (Host.reduceAdd (mulf (J50 x) (J50 x)) (constant (F := Ideal) S_ .f32 0x00000000#32) reducesTo_S4096_S_d0 h_S_)
      (constant (F := Ideal) S_ .f32 0x45800000#32))

theorem R9_apply (x : FVec Ideal S8192x128 .f32) (p : Fin 4096) (a : Fin 2) (q : Fin 4096) (b : Fin 2) :
    R9 x (ix4 p a q b) = Em (mat x) (ro p a) (ro q b) := by
  unfold R9; rw [cast4_apply, E8_apply]

/-- E is symmetric: the inner product is. -/
theorem Em_symm (X : Mat) (r c : Fin 8192) : Em X r c = Em X c r := by
  unfold Em Dm gram
  congr 3
  exact Finset.sum_congr rfl fun k _ => mul_comm _ _

theorem S10_apply (x : FVec Ideal S8192x128 .f32) (p : Fin 4096) :
    S10 x (ix1 p) = rowSum (mat x) (ev p) + rowSum (mat x) (od p) := by
  unfold S10
  rw [reduce123_apply, Fin.sum_univ_two]
  unfold rowSum
  rw [sum_pairs (fun c => Em (mat x) (ev p) c), sum_pairs (fun c => Em (mat x) (od p) c)]
  congr 1 <;>
  · refine Finset.sum_congr rfl fun q _ => Finset.sum_congr rfl fun b _ => ?_
    rw [R9_apply]; rfl

theorem S26_apply (x : FVec Ideal S8192x128 .f32) (p : Fin 4096) :
    S26 x (ix1 p) = Em (mat x) (ev p) (ev p) + Em (mat x) (od p) (od p) + 2 * Em (mat x) (ev p) (od p) := by
  unfold S26
  rw [reduce12_apply]
  have hg : ∀ a b : Fin 2, G25 x (ix3 p a b) = Em (mat x) (ro p a) (ro p b) := fun a b => by
    unfold G25
    rw [gather1_apply _ _ p a b p p (by rw [idx24_0, clamp_ofNat _ p.isLt]) (by rw [idx24_1, clamp_ofNat _ p.isLt]),
      R9_apply]
  simp only [hg, Fin.sum_univ_two]
  show Em (mat x) (ev p) (ev p) + Em (mat x) (ev p) (od p) + (Em (mat x) (od p) (ev p) + Em (mat x) (od p) (od p)) = _
  rw [Em_symm (mat x) (od p) (ev p), two_mul_ereal]
  abel

theorem G48_apply (x : FVec Ideal S8192x128 .f32) (p : Fin 4096) : G48 x (ix1 p) = Dm (mat x) (ev p) (od p) := by
  unfold G48
  rw [gather2_apply _ _ p p 0 p 1 (by rw [idx47_0, clamp_ofNat _ p.isLt]) (by rw [idx47_1]; rfl)
    (by rw [idx47_2, clamp_ofNat _ p.isLt]) (by rw [idx47_3]; rfl)]
  unfold R28
  rw [cast4_apply, D5_apply]
  rfl

theorem J50_apply (x : FVec Ideal S8192x128 .f32) (p : Fin 4096) : J50 x (ix1 p) = JvOf (mat x) (rowSum (mat x)) p := by
  show Ideal.log (S10 x (ix1 p) - S26 x (ix1 p)) - G48 x (ix1 p) = _
  rw [S10_apply, S26_apply, G48_apply]
  rfl

/-- The program's loss is the specification's. -/
theorem lossRef_eq (x : FVec Ideal S8192x128 .f32) : lossRef x = fun _ => loss (mat x) := by
  funext j
  show Ideal.ofBits .f32 0x3F000000#32 * Ideal.div
    (Host.reduceAdd (mulf (J50 x) (J50 x)) (constant (F := Ideal) S_ .f32 0x00000000#32) reducesTo_S4096_S_d0 h_S_ j)
    (Ideal.ofBits .f32 0x45800000#32) = _
  rw [whalf, w4096, Ideal.div_coe (by norm_num), reduce0_apply]
  unfold loss lossOf
  congr 2
  refine Finset.sum_congr rfl fun p _ => ?_
  show J50 x (ix1 p) * J50 x (ix1 p) = _
  rw [J50_apply]

end Cert.ReferenceIdeal.RefVal

end
-- ==== Proof.RefVal.lean ====
/-
  The reference program's result as a formula of its arguments.

  Folding the 172 operations over the launch contents, the result buffer holds the sum of two losses: the loss of
  the first argument, and the loss of the mixed matrix built from both arguments.  Each is the composition of the
  operations that compute it, read off the fold; the run of the straight line then states it of every execution,
  together with the arguments' buffers being kept.
-/
import proofs.«153953_j64141041599004_1_alg».proof.Proof.RefRun
import proofs.«153953_j64141041599004_1_alg».proof.Proof.RefValMix
import proofs.«153953_j64141041599004_1_alg».proof.Proof.RefValLoss

noncomputable section

namespace Cert.ReferenceIdeal.RefVal

open Cert.ReferenceIdeal Idealize.ShloMosaic Idealize.ShloMosaic.TcCoe Idealize.SL.Sem
open Idealize.ShloMosaic.StableHlo
open Facts₀ Facts

set_option maxRecDepth 8192 in
set_option maxHeartbeats 4000000 in
/-- The fold at the result buffer: the loss of the first argument plus the loss of the mixed matrix.  Each
    operation's result is rewritten at its own buffer to its function's value and at every other buffer to what was
    there; what is left is the composed term, equal to the stated one by unfolding the definitions. -/
theorem after_v114 (V : Valuation τ sig (Elt Ideal)) :
    after (RefRun.ops (F := Ideal)) V (main_v114 : DevRef τ sig)
      = addf (lossRef (V (main_arg0 : DevRef τ sig)))
          (lossRef (mixRef (V (main_arg0 : DevRef τ sig)) (V (main_arg1 : DevRef τ sig)))) := by
  simp (disch := decide) only [after_cons, after_nil, nullary_result', unary_result', binary_result', ternary_result', reshape_result', nary4_result', nullary_result_ne', unary_result_ne', binary_result_ne', ternary_result_ne', reshape_result_ne', nary_result_ne']
  rfl

/-- The same over the launch contents of a memory. -/
theorem after_v114_mem (m : (ℓ : Loc nD τ sig) → Buf (Elt Ideal) ℓ) (c : Dev nD) :
    after (RefRun.ops (F := Ideal)) (launchContents m c) (main_v114 : DevRef τ sig)
      = addf (lossRef (m ((c.tc : Thread nD τ).loc main_arg0)))
          (lossRef (mixRef (m ((c.tc : Thread nD τ).loc main_arg0)) (m ((c.tc : Thread nD τ).loc main_arg1)))) :=
  after_v114 _

/-- The sum of the two composed losses is the specified total: each composed loss is the specified loss of its
    matrix, and the composed mixed matrix is the specified mix. -/
theorem total_eq (x : FVec Ideal S8192x128 .f32) (y : FVec Ideal S4096x128 .f32) :
    addf (lossRef x) (lossRef (mixRef x y)) = fun _ => Cert.Spec.total (Cert.Spec.mat x) (Cert.Spec.mat1 y) := by
  rw [lossRef_eq, lossRef_eq, mixRef_eq]; rfl

/-- On every device, from any memory with zero counters: every weakly fair execution of the reference terminates with
    the result buffer at the specified total of its arguments and the argument buffers unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v114)
          = (fun _ => Cert.Spec.total (Cert.Spec.mat (m ((c.tc : Thread nD τ).loc main_arg0)))
              (Cert.Spec.mat1 (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c main_v114).trans (after_v114_mem m c)).trans (total_eq _ _),
      (h c main_arg0).trans (RefRun.kept_arg0_mem m c),
      (h c main_arg1).trans (RefRun.kept_arg1_mem m c)⟩)
    (RefRun.run_raw m ρ)

end Cert.ReferenceIdeal.RefVal

end
-- ==== Proof.lean ====
/-
  The certificate's claims. Both programs compute, over the extended reals, one quantity of the two argument arrays:
  for the matrix X of the first argument and the matrix M whose even rows are X's and whose odd row 2q+1 is row q of the
  second argument, the sum loss(X) + loss(M), where loss(Z) is half the mean over the 4096 pairs of consecutive rows of
  J^2, J = log S - D[i,j], S the sum of exp (1 + D) over the pair's two rows less the diagonal 2 x 2 block, and
  D = Z Z^T / 128. The kernel program obtains the row sums of exp (1 + D) by a tiled accumulation and assembles the loss
  from them; the reference forms the whole matrix. The two agree because addition of extended reals is commutative and
  associative, x / 128 = x * (1/128), D is symmetric, and 2 * x = x + x; no finiteness is needed. Each program also runs
  to its end without fault and leaves its arguments as launched.
-/
import proofs.«153953_j64141041599004_1_alg».proof.Defs
import proofs.«153953_j64141041599004_1_alg».proof.Proof.Gen.Kernel
import proofs.«153953_j64141041599004_1_alg».proof.Proof.Gen.Kernel.Skeleton
import proofs.«153953_j64141041599004_1_alg».proof.Proof.Gen.Kernel.Launch
import proofs.«153953_j64141041599004_1_alg».proof.Proof.Gen.Kernel.Regions
import proofs.«153953_j64141041599004_1_alg».proof.Proof.Gen.Kernel.Points
import proofs.«153953_j64141041599004_1_alg».proof.Proof.Gen.KernelIdeal
import proofs.«153953_j64141041599004_1_alg».proof.Proof.Gen.KernelIdeal.Skeleton
import proofs.«153953_j64141041599004_1_alg».proof.Proof.Gen.KernelIdeal.Launch
import proofs.«153953_j64141041599004_1_alg».proof.Proof.Gen.KernelIdeal.Regions
import proofs.«153953_j64141041599004_1_alg».proof.Proof.Gen.KernelIdeal.Points
import proofs.«153953_j64141041599004_1_alg».proof.Proof.Gen.ReferenceIdeal
import proofs.«153953_j64141041599004_1_alg».proof.Proof.Gen.Pre_finite_inputs
import proofs.«153953_j64141041599004_1_alg».proof.Proof.KerRun
import proofs.«153953_j64141041599004_1_alg».proof.Proof.KBRun
import proofs.«153953_j64141041599004_1_alg».proof.Proof.RefVal
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_val (F := Bits) m ρ)

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.KerHost.ker_run m ρ)

/-- The idealized reference runs and keeps its arguments. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefVal.run m ρ)

/-- From memories that agree on the arguments, both idealized programs end with the total in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.total
      (Cert.Spec.mat (m ((c.tc : Thread Cert.KernelIdeal.nD Cert.KernelIdeal.τ).loc Cert.KernelIdeal.main_arg0)))
      (Cert.Spec.mat1 (m ((c.tc : Thread Cert.KernelIdeal.nD Cert.KernelIdeal.τ).loc Cert.KernelIdeal.main_arg1))),
    Cert.KernelIdeal.KerHost.ker_run m ρ, ?_⟩
  refine (θ_run Cert.ReferenceIdeal.defs _ _).mono (fun _ h c => ⟨(h c).1.trans ?_, (h c).2⟩) (Cert.ReferenceIdeal.RefVal.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
